-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_c_temp" .f32 0x3F480000#32 ((4194304 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x1024 : Shape := ⟨3, ![2, 3, 1024]⟩
abbrev S2x3x16384 : Shape := ⟨3, ![2, 3, 16384]⟩
abbrev S2x1x16384 : Shape := ⟨3, ![2, 1, 16384]⟩
abbrev S2x64x1024 : Shape := ⟨3, ![2, 64, 1024]⟩
abbrev S2x64x16384 : Shape := ⟨3, ![2, 64, 16384]⟩
abbrev S_ : Shape := ⟨0, ![]⟩
abbrev S2x1024 : Shape := ⟨2, ![2, 1024]⟩
abbrev S2x1x1024 : Shape := ⟨3, ![2, 1, 1024]⟩
abbrev S2x16384 : Shape := ⟨2, ![2, 16384]⟩

class Facts : Prop where
  bcast_S_S2x3x1024 : S_.BroadcastsInDim S2x3x1024 (![] : Fin 0 → Fin S2x3x1024.rank)
  reducesTo_S2x3x1024_S_d0_1_2 : S2x3x1024.ReducesTo [0, 1, 2] S_
  h_S_ : 0 < S_.numel
  bcast_S_S2x3x16384 : S_.BroadcastsInDim S2x3x16384 (![] : Fin 0 → Fin S2x3x16384.rank)
  reducesTo_S2x3x16384_S_d0_1_2 : S2x3x16384.ReducesTo [0, 1, 2] S_
  bcast_S_S2x1x16384 : S_.BroadcastsInDim S2x1x16384 (![] : Fin 0 → Fin S2x1x16384.rank)
  reducesTo_S2x1x16384_S_d0_1_2 : S2x1x16384.ReducesTo [0, 1, 2] S_
  bcast_S_S2x64x1024 : S_.BroadcastsInDim S2x64x1024 (![] : Fin 0 → Fin S2x64x1024.rank)
  reducesTo_S2x64x1024_S_d0_1_2 : S2x64x1024.ReducesTo [0, 1, 2] S_
  bcast_S_S2x64x16384 : S_.BroadcastsInDim S2x64x16384 (![] : Fin 0 → Fin S2x64x16384.rank)
  reducesTo_S2x64x16384_S_d0_1_2 : S2x64x16384.ReducesTo [0, 1, 2] S_
  reducesTo_S2x64x1024_S2x1024_d1 : S2x64x1024.ReducesTo [1] S2x1024
  bcast_S2x1024_S2x1x1024_0_2 : S2x1024.BroadcastsInDim S2x1x1024 (![0, 2] : Fin 2 → Fin S2x1x1024.rank)
  bcast_S_S2x1x1024 : S_.BroadcastsInDim S2x1x1024 (![] : Fin 0 → Fin S2x1x1024.rank)
  bcast_S2x1x1024_S2x64x1024_0_1_2 : S2x1x1024.BroadcastsInDim S2x64x1024 (![0, 1, 2] : Fin 3 → Fin S2x64x1024.rank)
  reducesTo_S2x1x1024_S_d0_1_2 : S2x1x1024.ReducesTo [0, 1, 2] S_
  reducesTo_S2x64x16384_S2x16384_d1 : S2x64x16384.ReducesTo [1] S2x16384
  bcast_S2x16384_S2x1x16384_0_2 : S2x16384.BroadcastsInDim S2x1x16384 (![0, 2] : Fin 2 → Fin S2x1x16384.rank)
  bcast_S2x1x16384_S2x64x16384_0_1_2 : S2x1x16384.BroadcastsInDim S2x64x16384 (![0, 1, 2] : Fin 3 → Fin S2x64x16384.rank)

variable [Facts]

def fn_part3 {F : FTy → Type} [FloatOps F] (main_v39 : IVec S_ 1) (main_v51 : FVec F S2x1x16384 .f32) : IVec S_ 1 :=
  let main_cst_18 : FVec F S_ .f32 := constant S_ .f32 0x00000000#32
  let main_v52 : FVec F S2x1x16384 .f32 := broadcastInDim S2x1x16384 ![] bcast_S_S2x1x16384 main_cst_18
  let main_v53 : IVec S2x1x16384 1 := cmpf .ogt main_v51 main_v52
  let main_c_19 : IVec S_ 1 := constantI S_ 1 1#1
  let main_v54 : IVec S_ 1 := (fun x v => Host.reduce IntOp.andi x v reducesTo_S2x1x16384_S_d0_1_2 h_S_) main_v53 main_c_19
  let main_v55 : IVec S_ 1 := andi main_v39 main_v54
  main_v55

def fn_part2 {F : FTy → Type} [FloatOps F] (main_arg4 : FVec F S2x64x16384 .f32) (main_v23 : IVec S_ 1) (main_v32 : FVec F S2x1x1024 .f32) (main_v33 : FVec F S2x1x1024 .f32) : IVec S_ 1 :=
  let main_v34 : FVec F S2x1x1024 .f32 := Host.divf main_v32 main_v33
  let main_v35 : FVec F S2x1x1024 .f32 := Host.sqrt main_v34
  let main_cst_12 : FVec F S_ .f32 := constant S_ .f32 0x00000000#32
  let main_v36 : FVec F S2x1x1024 .f32 := broadcastInDim S2x1x1024 ![] bcast_S_S2x1x1024 main_cst_12
  let main_v37 : IVec S2x1x1024 1 := cmpf .ogt main_v35 main_v36
  let main_c_13 : IVec S_ 1 := constantI S_ 1 1#1
  let main_v38 : IVec S_ 1 := (fun x v => Host.reduce IntOp.andi x v reducesTo_S2x1x1024_S_d0_1_2 h_S_) main_v37 main_c_13
  let main_v39 : IVec S_ 1 := andi main_v23 main_v38
  let main_cst_14 : FVec F S_ .f32 := constant S_ .f32 0x00000000#32
  let main_v40 : FVec F S2x16384 .f32 := (fun x v => Host.reduceAdd x v reducesTo_S2x64x16384_S2x16384_d1 h_S_) main_arg4 main_cst_14
  let main_v41 : FVec F S2x1x16384 .f32 := broadcastInDim S2x1x16384 ![0, 2] bcast_S2x16384_S2x1x16384_0_2 main_v40
  let main_cst_15 : FVec F S_ .f32 := constant S_ .f32 0x42800000#32
  let main_v42 : FVec F S2x1x16384 .f32 := broadcastInDim S2x1x16384 ![] bcast_S_S2x1x16384 main_cst_15
  let main_v43 : FVec F S2x1x16384 .f32 := Host.divf main_v41 main_v42
  let main_v44 : FVec F S2x64x16384 .f32 := broadcastInDim S2x64x16384 ![0, 1, 2] bcast_S2x1x16384_S2x64x16384_0_1_2 main_v43
  let main_v45 : FVec F S2x64x16384 .f32 := subf main_arg4 main_v44
  let main_v46 : FVec F S2x64x16384 .f32 := mulf main_v45 main_v45
  let main_cst_16 : FVec F S_ .f32 := constant S_ .f32 0x00000000#32
  let main_v47 : FVec F S2x16384 .f32 := (fun x v => Host.reduceAdd x v reducesTo_S2x64x16384_S2x16384_d1 h_S_) main_v46 main_cst_16
  let main_v48 : FVec F S2x1x16384 .f32 := broadcastInDim S2x1x16384 ![0, 2] bcast_S2x16384_S2x1x16384_0_2 main_v47
  let main_cst_17 : FVec F S_ .f32 := constant S_ .f32 0x427C0000#32
  let main_v49 : FVec F S2x1x16384 .f32 := broadcastInDim S2x1x16384 ![] bcast_S_S2x1x16384 main_cst_17
  let main_v50 : FVec F S2x1x16384 .f32 := Host.divf main_v48 main_v49
  let main_v51 : FVec F S2x1x16384 .f32 := Host.sqrt main_v50
  fn_part3 (F := F) main_v39 main_v51

def fn_part1 {F : FTy → Type} [FloatOps F] (main_arg3 : FVec F S2x64x1024 .f32) (main_arg4 : FVec F S2x64x16384 .f32) (main_v13 : IVec S_ 1) (main_v16 : IVec S2x64x1024 1) : IVec S_ 1 :=
  let main_c_5 : IVec S_ 1 := constantI S_ 1 1#1
  let main_v17 : IVec S_ 1 := (fun x v => Host.reduce IntOp.andi x v reducesTo_S2x64x1024_S_d0_1_2 h_S_) main_v16 main_c_5
  let main_v18 : IVec S_ 1 := andi main_v13 main_v17
  let main_v19 : FVec F S2x64x16384 .f32 := Host.absf main_arg4
  let main_cst_6 : FVec F S_ .f32 := constant S_ .f32 0x7F800000#32
  let main_v20 : FVec F S2x64x16384 .f32 := broadcastInDim S2x64x16384 ![] bcast_S_S2x64x16384 main_cst_6
  let main_v21 : IVec S2x64x16384 1 := cmpf .olt main_v19 main_v20
  let main_c_7 : IVec S_ 1 := constantI S_ 1 1#1
  let main_v22 : IVec S_ 1 := (fun x v => Host.reduce IntOp.andi x v reducesTo_S2x64x16384_S_d0_1_2 h_S_) main_v21 main_c_7
  let main_v23 : IVec S_ 1 := andi main_v18 main_v22
  let main_cst_8 : FVec F S_ .f32 := constant S_ .f32 0x00000000#32
  let main_v24 : FVec F S2x1024 .f32 := (fun x v => Host.reduceAdd x v reducesTo_S2x64x1024_S2x1024_d1 h_S_) main_arg3 main_cst_8
  let main_v25 : FVec F S2x1x1024 .f32 := broadcastInDim S2x1x1024 ![0, 2] bcast_S2x1024_S2x1x1024_0_2 main_v24
  let main_cst_9 : FVec F S_ .f32 := constant S_ .f32 0x42800000#32
  let main_v26 : FVec F S2x1x1024 .f32 := broadcastInDim S2x1x1024 ![] bcast_S_S2x1x1024 main_cst_9
  let main_v27 : FVec F S2x1x1024 .f32 := Host.divf main_v25 main_v26
  let main_v28 : FVec F S2x64x1024 .f32 := broadcastInDim S2x64x1024 ![0, 1, 2] bcast_S2x1x1024_S2x64x1024_0_1_2 main_v27
  let main_v29 : FVec F S2x64x1024 .f32 := subf main_arg3 main_v28
  let main_v30 : FVec F S2x64x1024 .f32 := mulf main_v29 main_v29
  let main_cst_10 : FVec F S_ .f32 := constant S_ .f32 0x00000000#32
  let main_v31 : FVec F S2x1024 .f32 := (fun x v => Host.reduceAdd x v reducesTo_S2x64x1024_S2x1024_d1 h_S_) main_v30 main_cst_10
  let main_v32 : FVec F S2x1x1024 .f32 := broadcastInDim S2x1x1024 ![0, 2] bcast_S2x1024_S2x1x1024_0_2 main_v31
  let main_cst_11 : FVec F S_ .f32 := constant S_ .f32 0x427C0000#32
  let main_v33 : FVec F S2x1x1024 .f32 := broadcastInDim S2x1x1024 ![] bcast_S_S2x1x1024 main_cst_11
  fn_part2 (F := F) main_arg4 main_v23 main_v32 main_v33

def fn {F : FTy → Type} [FloatOps F] (main_arg0 : FVec F S2x3x1024 .f32) (main_arg1 : FVec F S2x3x16384 .f32) (main_arg2 : FVec F S2x1x16384 .f32) (main_arg3 : FVec F S2x64x1024 .f32) (main_arg4 : FVec F S2x64x16384 .f32) : IVec S_ 1 :=
  let main_v0 : FVec F S2x3x1024 .f32 := Host.absf main_arg0
  let main_cst : FVec F S_ .f32 := constant S_ .f32 0x7F800000#32
  let main_v1 : FVec F S2x3x1024 .f32 := broadcastInDim S2x3x1024 ![] bcast_S_S2x3x1024 main_cst
  let main_v2 : IVec S2x3x1024 1 := cmpf .olt main_v0 main_v1
  let main_c : IVec S_ 1 := constantI S_ 1 1#1
  let main_v3 : IVec S_ 1 := (fun x v => Host.reduce IntOp.andi x v reducesTo_S2x3x1024_S_d0_1_2 h_S_) main_v2 main_c
  let main_v4 : FVec F S2x3x16384 .f32 := Host.absf main_arg1
  let main_cst_0 : FVec F S_ .f32 := constant S_ .f32 0x7F800000#32
  let main_v5 : FVec F S2x3x16384 .f32 := broadcastInDim S2x3x16384 ![] bcast_S_S2x3x16384 main_cst_0
  let main_v6 : IVec S2x3x16384 1 := cmpf .olt main_v4 main_v5
  let main_c_1 : IVec S_ 1 := constantI S_ 1 1#1
  let main_v7 : IVec S_ 1 := (fun x v => Host.reduce IntOp.andi x v reducesTo_S2x3x16384_S_d0_1_2 h_S_) main_v6 main_c_1
  let main_v8 : IVec S_ 1 := andi main_v3 main_v7
  let main_v9 : FVec F S2x1x16384 .f32 := Host.absf main_arg2
  let main_cst_2 : FVec F S_ .f32 := constant S_ .f32 0x7F800000#32
  let main_v10 : FVec F S2x1x16384 .f32 := broadcastInDim S2x1x16384 ![] bcast_S_S2x1x16384 main_cst_2
  let main_v11 : IVec S2x1x16384 1 := cmpf .olt main_v9 main_v10
  let main_c_3 : IVec S_ 1 := constantI S_ 1 1#1
  let main_v12 : IVec S_ 1 := (fun x v => Host.reduce IntOp.andi x v reducesTo_S2x1x16384_S_d0_1_2 h_S_) main_v11 main_c_3
  let main_v13 : IVec S_ 1 := andi main_v8 main_v12
  let main_v14 : FVec F S2x64x1024 .f32 := Host.absf main_arg3
  let main_cst_4 : FVec F S_ .f32 := constant S_ .f32 0x7F800000#32
  let main_v15 : FVec F S2x64x1024 .f32 := broadcastInDim S2x64x1024 ![] bcast_S_S2x64x1024 main_cst_4
  let main_v16 : IVec S2x64x1024 1 := cmpf .olt main_v14 main_v15
  fn_part1 (F := F) main_arg3 main_arg4 main_v13 main_v16
-- ==== Kernel.lean ====
abbrev S2x3x1024 : Shape := ⟨3, ![2, 3, 1024]⟩
abbrev S2x3x16384 : Shape := ⟨3, ![2, 3, 16384]⟩
abbrev S2x1x16384 : Shape := ⟨3, ![2, 1, 16384]⟩
abbrev S2x64x1024 : Shape := ⟨3, ![2, 64, 1024]⟩
abbrev S2x64x16384 : Shape := ⟨3, ![2, 64, 16384]⟩
abbrev S_ : Shape := ⟨0, ![]⟩
abbrev S2x1024 : Shape := ⟨2, ![2, 1024]⟩
abbrev S2x1x1024 : Shape := ⟨3, ![2, 1, 1024]⟩
abbrev S2x1024x68 : Shape := ⟨3, ![2, 1024, 68]⟩
abbrev S1x64x1024 : Shape := ⟨3, ![1, 64, 1024]⟩
abbrev S1x64x2048 : Shape := ⟨3, ![1, 64, 2048]⟩
abbrev S1x3x2048 : Shape := ⟨3, ![1, 3, 2048]⟩
abbrev S1x1x2048 : Shape := ⟨3, ![1, 1, 2048]⟩
abbrev S1x1024x68 : Shape := ⟨3, ![1, 1024, 68]⟩
abbrev S1024x1 : Shape := ⟨2, ![1024, 1]⟩
abbrev S1024x68 : Shape := ⟨2, ![1024, 68]⟩
abbrev S64x1024 : Shape := ⟨2, ![64, 1024]⟩
abbrev S64x2048 : Shape := ⟨2, ![64, 2048]⟩
abbrev S3x2048 : Shape := ⟨2, ![3, 2048]⟩
abbrev S1x2048 : Shape := ⟨2, ![1, 2048]⟩
abbrev S2048 : Shape := ⟨1, ![2048]⟩
abbrev S1024x2048 : Shape := ⟨2, ![1024, 2048]⟩
abbrev S1024 : Shape := ⟨1, ![1024]⟩
abbrev S1024x64 : Shape := ⟨2, ![1024, 64]⟩
abbrev S1024x3 : Shape := ⟨2, ![1024, 3]⟩
abbrev S2x1024x3 : Shape := ⟨3, ![2, 1024, 3]⟩
abbrev S2x1024x1 : Shape := ⟨3, ![2, 1024, 1]⟩
abbrev S2x1024x64 : Shape := ⟨3, ![2, 1024, 64]⟩

abbrev nBuf : Space → Nat
  | .hbm => 82
  | .vmem => 13
  | .smem => 0
  | _ => 0

abbrev bufTy : (tb : Table) → Fin (tcTables nBuf tb) → BufTy
  | .hbm, ⟨0, _⟩ => ⟨S2x3x1024, .f32⟩
  | .hbm, ⟨1, _⟩ => ⟨S2x3x16384, .f32⟩
  | .hbm, ⟨2, _⟩ => ⟨S2x1x16384, .f32⟩
  | .hbm, ⟨3, _⟩ => ⟨S2x64x1024, .f32⟩
  | .hbm, ⟨4, _⟩ => ⟨S2x64x16384, .f32⟩
  | .hbm, ⟨5, _⟩ => ⟨S_, .f32⟩
  | .hbm, ⟨6, _⟩ => ⟨S2x1024, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S_, .i32⟩
  | .hbm, ⟨12, _⟩ => ⟨S_, .f32⟩
  | .hbm, ⟨13, _⟩ => ⟨S2x1024, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S2x64x1024, .f32⟩
  | .hbm, ⟨19, _⟩ => ⟨S2x64x1024, .f32⟩
  | .hbm, ⟨20, _⟩ => ⟨S2x64x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x1024, .f32⟩
  | .hbm, ⟨26, _⟩ => ⟨S2x1x1024, .f32⟩
  | .hbm, ⟨27, _⟩ => ⟨S2x1x1024, .f32⟩
  | .hbm, ⟨28, _⟩ => ⟨S2x1x1024, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x1x1024, .f32⟩
  | .hbm, ⟨36, _⟩ => ⟨S2x64x1024, .f32⟩
  | .hbm, ⟨37, _⟩ => ⟨S2x64x1024, .f32⟩
  | .hbm, ⟨38, _⟩ => ⟨S2x64x1024, .f32⟩
  | .hbm, ⟨39, _⟩ => ⟨S2x64x1024, .f32⟩
  | .hbm, ⟨40, _⟩ => ⟨S2x1024x68, .f32⟩
  | .hbm, ⟨41, _⟩ => ⟨S2x1024x3, .f32⟩
  | .hbm, ⟨42, _⟩ => ⟨S2x1024x1, .f32⟩
  | .hbm, ⟨43, _⟩ => ⟨S2x1024x64, .f32⟩
  | .hbm, ⟨44, _⟩ => ⟨S2x3x1024, .f32⟩
  | .hbm, ⟨45, _⟩ => ⟨S2x1x1024, .f32⟩
  | .hbm, ⟨46, _⟩ => ⟨S2x64x1024, .f32⟩
  | .hbm, ⟨47, _⟩ => ⟨S_, .f32⟩
  | .hbm, ⟨48, _⟩ => ⟨S2x1024, .f32⟩
  | .hbm, ⟨49, _⟩ => ⟨S2x1x1024, .f32⟩
  | .hbm, ⟨50, _⟩ => ⟨S_, .f32⟩
  | .hbm, ⟨51, _⟩ => ⟨S2x1x1024, .f32⟩
  | .hbm, ⟨52, _⟩ => ⟨S2x1x1024, .f32⟩
  | .hbm, ⟨53, _⟩ => ⟨S_, .i32⟩
  | .hbm, ⟨54, _⟩ => ⟨S_, .f32⟩
  | .hbm, ⟨55, _⟩ => ⟨S2x1024, .f32⟩
  | .hbm, ⟨56, _⟩ => ⟨S2x1x1024, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S2x64x1024, .f32⟩
  | .hbm, ⟨61, _⟩ => ⟨S2x64x1024, .f32⟩
  | .hbm, ⟨62, _⟩ => ⟨S2x64x1024, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S2x1024, .f32⟩
  | .hbm, ⟨68, _⟩ => ⟨S2x1x1024, .f32⟩
  | .hbm, ⟨69, _⟩ => ⟨S2x1x1024, .f32⟩
  | .hbm, ⟨70, _⟩ => ⟨S2x1x1024, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S2x1x1024, .f32⟩
  | .hbm, ⟨76, _⟩ => ⟨S2x1x1024, .f32⟩
  | .hbm, ⟨77, _⟩ => ⟨S2x1x1024, .f32⟩
  | .hbm, ⟨78, _⟩ => ⟨S2x64x1024, .f32⟩
  | .hbm, ⟨79, _⟩ => ⟨S2x64x1024, .f32⟩
  | .hbm, ⟨80, _⟩ => ⟨S2x64x1024, .f32⟩
  | .hbm, ⟨81, _⟩ => ⟨S2x64x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x2048, .f32⟩
  | .local _ .vmem, ⟨3, _⟩ => ⟨S1x64x2048, .f32⟩
  | .local _ .vmem, ⟨4, _⟩ => ⟨S1x3x2048, .f32⟩
  | .local _ .vmem, ⟨5, _⟩ => ⟨S1x3x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x68, .f32⟩
  | .local _ .vmem, ⟨9, _⟩ => ⟨S1x1024x68, .f32⟩
  | .local _ .vmem, ⟨10, _⟩ => ⟨S1024x1, .f32⟩
  | .local _ .vmem, ⟨11, _⟩ => ⟨S1024x1, .f32⟩
  | .local _ .vmem, ⟨12, _⟩ => ⟨S1024x68, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_cst_1 : Ref sig .tc := ⟨.hbm, 22, rfl⟩
abbrev main_call0_call0_v8 : Ref sig .tc := ⟨.hbm, 23, rfl⟩
abbrev main_call0_call0_cst_2 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_cst_3 : Ref sig .tc := ⟨.hbm, 29, rfl⟩
abbrev main_call0_call0_v13 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_v19 : Ref sig .tc := ⟨.hbm, 52, rfl⟩
abbrev main_c_3 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_cst_0 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_cst_1 : Ref sig .tc := ⟨.hbm, 64, rfl⟩
abbrev main_call1_call0_v8 : Ref sig .tc := ⟨.hbm, 65, rfl⟩
abbrev main_call1_call0_cst_2 : Ref sig .tc := ⟨.hbm, 66, rfl⟩
abbrev main_call1_call0_v9 : Ref sig .tc := ⟨.hbm, 67, rfl⟩
abbrev main_call1_call0_v10 : Ref sig .tc := ⟨.hbm, 68, rfl⟩
abbrev main_call1_call0_v11 : Ref sig .tc := ⟨.hbm, 69, rfl⟩
abbrev main_call1_call0_v12 : Ref sig .tc := ⟨.hbm, 70, rfl⟩
abbrev main_call1_call0_cst_3 : Ref sig .tc := ⟨.hbm, 71, rfl⟩
abbrev main_call1_call0_v13 : Ref sig .tc := ⟨.hbm, 72, rfl⟩
abbrev main_call1_call0_cst_4 : Ref sig .tc := ⟨.hbm, 73, rfl⟩
abbrev main_call1_call0_call0_v0 : Ref sig .tc := ⟨.hbm, 74, rfl⟩
abbrev main_call1_call0_call0_v1 : Ref sig .tc := ⟨.hbm, 75, rfl⟩
abbrev main_call1_v0 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_34 : BitVec 32 := 0#32
  let v61 : BitVec 1 := Scalar.cmpi .ne v60 c0_i32_34
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x68 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S2x64x1024_S2x1024_d1 : S2x64x1024.ReducesTo [1] S2x1024
  h_S_ : 0 < S_.numel
  bcast_S2x1024_S2x1x1024_0_2 : S2x1024.BroadcastsInDim S2x1x1024 (![0, 2] : Fin 2 → Fin S2x1x1024.rank)
  bcast_S_S2x1x1024 : S_.BroadcastsInDim S2x1x1024 (![] : Fin 0 → Fin S2x1x1024.rank)
  bcast_S2x1x1024_S2x64x1024_0_1_2 : S2x1x1024.BroadcastsInDim S2x64x1024 (![0, 1, 2] : Fin 3 → Fin S2x64x1024.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x68_S1024x68_0_0 : ∀ a, (![0, 0] : Fin 2 → Nat) a + S1024x68.size a ≤ S1024x68.size a
  h_S1024x68 : 0 < S1024x68.numel
  shapeCasts_S1024x68_S1024x68 : S1024x68.ShapeCasts S1024x68
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  reduces_S64x2048_S2048 : S64x2048.Reduces [0] S2048
  shapeCasts_S2048_S1x2048 : S2048.ShapeCasts S1x2048
  broadcasts_S1x2048_S64x2048 : S1x2048.Broadcasts S64x2048
  reduces_S1024x2048_S1024 : S1024x2048.Reduces [1] S1024
  shapeCasts_S1024_S1024x1 : S1024.ShapeCasts S1024x1
  broadcasts_S1024x1_S1024x2048 : S1024x1.Broadcasts S1024x2048
  concatenates_S1024x3_S1024x1_S1024x64_S1024x68_d1 : Shape.Concatenates [S1024x3, S1024x1, S1024x64] S1024x68 1
  broadcasts_S1024x1_S1024x68 : S1024x1.Broadcasts S1024x68
  inb_S1x1024x68_S1x1024x68_0_0_0 : ∀ a, (![0, 0, 0] : Fin 3 → Nat) a + S1x1024x68.size a ≤ S1x1024x68.size a
  h_S1x1024x68 : 0 < S1x1024x68.numel
  shapeCasts_S1x1024x68_S1024x68 : S1x1024x68.ShapeCasts S1024x68
  shapeCasts_S1024x68_S1x1024x68 : S1024x68.ShapeCasts S1x1024x68
  slices_S2x1024x68_S2x1024x3_0_0_0 : S2x1024x68.Slices ![0, 0, 0] S2x1024x3
  slices_S2x1024x68_S2x1024x1_0_0_3 : S2x1024x68.Slices ![0, 0, 3] S2x1024x1
  slices_S2x1024x68_S2x1024x64_0_0_4 : S2x1024x68.Slices ![0, 0, 4] S2x1024x64
  transposes_S2x1024x3_S2x3x1024_0_2_1 : S2x1024x3.Transposes [0, 2, 1] S2x3x1024
  transposes_S2x1024x1_S2x1x1024_0_2_1 : S2x1024x1.Transposes [0, 2, 1] S2x1x1024
  transposes_S2x1024x64_S2x64x1024_0_2_1 : S2x1024x64.Transposes [0, 2, 1] S2x64x1024
  dot_S64x1024_S64x2048_S1024x2048_0_0_1_1_n_n_wf : DotDims.WF S64x1024 S64x2048 S1024x2048 [0] [0] [1] [1] [] []
  dot_S1024x2048_S64x2048_S1024x64_1_1_0_0_n_n_wf : DotDims.WF S1024x2048 S64x2048 S1024x64 [1] [1] [0] [0] [] []
  dot_S1024x2048_S3x2048_S1024x3_1_1_0_0_n_n_wf : DotDims.WF S1024x2048 S3x2048 S1024x3 [1] [1] [0] [0] [] []
  dot_S1024x2048_S1x2048_S1024x1_1_1_0_0_n_n_wf : DotDims.WF S1024x2048 S1x2048 S1024x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S2x64x1024.size a
  hwx0_0 : ∀ i : grid0.Coords, EltTy.bits .f32 = 32 ∨ (Rect.block (s := S2x64x1024) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S2x64x16384.size a
  hwx0_1 : ∀ i : grid0.Coords, EltTy.bits .f32 = 32 ∨ (Rect.block (s := S2x64x16384) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x2048.size a ≤ S2x3x16384.size a
  hwx0_2 : ∀ i : grid0.Coords, EltTy.bits .f32 = 32 ∨ (Rect.block (s := S2x3x16384) S1x3x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S2x1x16384.size a
  hwx0_3 : ∀ i : grid0.Coords, EltTy.bits .f32 = 32 ∨ (Rect.block (s := S2x1x16384) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x68.size a ≤ S2x1024x68.size a
  hwx0_4 : ∀ i : grid0.Coords, EltTy.bits .f32 = 32 ∨ (Rect.block (s := S2x1024x68) S1x1024x68.size (cc0_transform_4 i) (hinb0_4 i)).WholeWords (EltTy.packing .f32)

variable [Facts₀]

def dot_S64x1024_S64x2048_S1024x2048_0_0_1_1_n_n : DotDims S64x1024 S64x2048 S1024x2048 where
  lhsContracting := [0]
  rhsContracting := [0]
  lhsNonContracting := [1]
  rhsNonContracting := [1]
  lhsBatch := []
  rhsBatch := []
  wf := dot_S64x1024_S64x2048_S1024x2048_0_0_1_1_n_n_wf
def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf
def dot_S1024x2048_S3x2048_S1024x3_1_1_0_0_n_n : DotDims S1024x2048 S3x2048 S1024x3 where
  lhsContracting := [1]
  rhsContracting := [1]
  lhsNonContracting := [0]
  rhsNonContracting := [0]
  lhsBatch := []
  rhsBatch := []
  wf := dot_S1024x2048_S3x2048_S1024x3_1_1_0_0_n_n_wf
def dot_S1024x2048_S1x2048_S1024x1_1_1_0_0_n_n : DotDims S1024x2048 S1x2048 S1024x1 where
  lhsContracting := [1]
  rhsContracting := [1]
  lhsNonContracting := [0]
  rhsNonContracting := [0]
  lhsBatch := []
  rhsBatch := []
  wf := dot_S1024x2048_S1x2048_S1024x1_1_1_0_0_n_n_wf

abbrev win0_0 : Pipeline.Window sig grid0 :=
  Pipeline.Window.ofSpec (Memref.whole main_v8) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x3x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024x68.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x3x1024 : Shape := ⟨3, ![2, 3, 1024]⟩
abbrev S2x3x16384 : Shape := ⟨3, ![2, 3, 16384]⟩
abbrev S2x1x16384 : Shape := ⟨3, ![2, 1, 16384]⟩
abbrev S2x64x1024 : Shape := ⟨3, ![2, 64, 1024]⟩
abbrev S2x64x16384 : Shape := ⟨3, ![2, 64, 16384]⟩
abbrev S_ : Shape := ⟨0, ![]⟩
abbrev S2x1024 : Shape := ⟨2, ![2, 1024]⟩
abbrev S2x1x1024 : Shape := ⟨3, ![2, 1, 1024]⟩
abbrev S2x16384 : Shape := ⟨2, ![2, 16384]⟩
abbrev S2x1024x16384 : Shape := ⟨3, ![2, 1024, 16384]⟩
abbrev S2x1024x1 : Shape := ⟨3, ![2, 1024, 1]⟩

abbrev nBuf : Space → Nat
  | .hbm => 134
  | .vmem => 0
  | .smem => 0
  | _ => 0

abbrev hbmTy0_0 (i : Nat) : BufTy := match i % 128 with
  | 0 => ⟨S2x3x1024, .f32⟩
  | 1 => ⟨S2x3x16384, .f32⟩
  | 2 => ⟨S2x1x16384, .f32⟩
  | 3 => ⟨S2x64x1024, .f32⟩
  | 4 => ⟨S2x64x16384, .f32⟩
  | 5 => ⟨S_, .f32⟩
  | 6 => ⟨S2x1024, .f32⟩
  | 7 => ⟨S2x1x1024, .f32⟩
  | 8 => ⟨S_, .f32⟩
  | 9 => ⟨S2x1x1024, .f32⟩
  | 10 => ⟨S2x1x1024, .f32⟩
  | 11 => ⟨S_, .i32⟩
  | 12 => ⟨S_, .f32⟩
  | 13 => ⟨S2x1024, .f32⟩
  | 14 => ⟨S2x1x1024, .f32⟩
  | 15 => ⟨S_, .f32⟩
  | 16 => ⟨S2x1x1024, .f32⟩
  | 17 => ⟨S2x1x1024, .f32⟩
  | 18 => ⟨S2x64x1024, .f32⟩
  | 19 => ⟨S2x64x1024, .f32⟩
  | 20 => ⟨S2x64x1024, .f32⟩
  | 21 => ⟨S_, .f32⟩
  | 22 => ⟨S_, .f32⟩
  | 23 => ⟨S_, .f32⟩
  | 24 => ⟨S_, .f32⟩
  | 25 => ⟨S2x1024, .f32⟩
  | 26 => ⟨S2x1x1024, .f32⟩
  | 27 => ⟨S2x1x1024, .f32⟩
  | 28 => ⟨S2x1x1024, .f32⟩
  | 29 => ⟨S_, .f32⟩
  | 30 => ⟨S_, .i1⟩
  | 31 => ⟨S_, .f32⟩
  | 32 => ⟨S_, .f32⟩
  | 33 => ⟨S2x1x1024, .f32⟩
  | 34 => ⟨S2x1x1024, .f32⟩
  | 35 => ⟨S2x1x1024, .f32⟩
  | 36 => ⟨S2x64x1024, .f32⟩
  | 37 => ⟨S2x64x1024, .f32⟩
  | 38 => ⟨S2x64x1024, .f32⟩
  | 39 => ⟨S2x64x1024, .f32⟩
  | 40 => ⟨S_, .f32⟩
  | 41 => ⟨S2x16384, .f32⟩
  | 42 => ⟨S2x1x16384, .f32⟩
  | 43 => ⟨S_, .f32⟩
  | 44 => ⟨S2x1x16384, .f32⟩
  | 45 => ⟨S2x1x16384, .f32⟩
  | 46 => ⟨S_, .i32⟩
  | 47 => ⟨S_, .f32⟩
  | 48 => ⟨S2x16384, .f32⟩
  | 49 => ⟨S2x1x16384, .f32⟩
  | 50 => ⟨S_, .f32⟩
  | 51 => ⟨S2x1x16384, .f32⟩
  | 52 => ⟨S2x1x16384, .f32⟩
  | 53 => ⟨S2x64x16384, .f32⟩
  | 54 => ⟨S2x64x16384, .f32⟩
  | 55 => ⟨S2x64x16384, .f32⟩
  | 56 => ⟨S_, .f32⟩
  | 57 => ⟨S_, .f32⟩
  | 58 => ⟨S_, .f32⟩
  | 59 => ⟨S_, .f32⟩
  | 60 => ⟨S2x16384, .f32⟩
  | 61 => ⟨S2x1x16384, .f32⟩
  | 62 => ⟨S2x1x16384, .f32⟩
  | 63 => ⟨S2x1x16384, .f32⟩
  | 64 => ⟨S_, .f32⟩
  | 65 => ⟨S_, .i1⟩
  | 66 => ⟨S_, .f32⟩
  | 67 => ⟨S_, .f32⟩
  | 68 => ⟨S2x1x16384, .f32⟩
  | 69 => ⟨S2x1x16384, .f32⟩
  | 70 => ⟨S2x1x16384, .f32⟩
  | 71 => ⟨S2x64x16384, .f32⟩
  | 72 => ⟨S2x64x16384, .f32⟩
  | 73 => ⟨S2x64x16384, .f32⟩
  | 74 => ⟨S2x64x16384, .f32⟩
  | 75 => ⟨S2x1024x16384, .f32⟩
  | 76 => ⟨S_, .f32⟩
  | 77 => ⟨S2x1024x16384, .f32⟩
  | 78 => ⟨S2x1024x16384, .f32⟩
  | 79 => ⟨S_, .f32⟩
  | 80 => ⟨S2x1024x16384, .f32⟩
  | 81 => ⟨S2x1024x16384, .f32⟩
  | 82 => ⟨S_, .f32⟩
  | 83 => ⟨S2x1024, .f32⟩
  | 84 => ⟨S_, .f32⟩
  | 85 => ⟨S2x1024, .f32⟩
  | 86 => ⟨S2x1024, .f32⟩
  | 87 => ⟨S2x1024x1, .f32⟩
  | 88 => ⟨S2x1024x16384, .f32⟩
  | 89 => ⟨S2x1024x16384, .f32⟩
  | 90 => ⟨S2x1024x16384, .f32⟩
  | 91 => ⟨S_, .f32⟩
  | 92 => ⟨S2x1024, .f32⟩
  | 93 => ⟨S2x1024x1, .f32⟩
  | 94 => ⟨S2x1024x16384, .f32⟩
  | 95 => ⟨S2x1024x16384, .f32⟩
  | 96 => ⟨S2x3x1024, .f32⟩
  | 97 => ⟨S2x1x1024, .f32⟩
  | 98 => ⟨S2x64x1024, .f32⟩
  | 99 => ⟨S_, .f32⟩
  | 100 => ⟨S2x1024, .f32⟩
  | 101 => ⟨S2x1x1024, .f32⟩
  | 102 => ⟨S_, .f32⟩
  | 103 => ⟨S2x1x1024, .f32⟩
  | 104 => ⟨S2x1x1024, .f32⟩
  | 105 => ⟨S_, .i32⟩
  | 106 => ⟨S_, .f32⟩
  | 107 => ⟨S2x1024, .f32⟩
  | 108 => ⟨S2x1x1024, .f32⟩
  | 109 => ⟨S_, .f32⟩
  | 110 => ⟨S2x1x1024, .f32⟩
  | 111 => ⟨S2x1x1024, .f32⟩
  | 112 => ⟨S2x64x1024, .f32⟩
  | 113 => ⟨S2x64x1024, .f32⟩
  | 114 => ⟨S2x64x1024, .f32⟩
  | 115 => ⟨S_, .f32⟩
  | 116 => ⟨S_, .f32⟩
  | 117 => ⟨S_, .f32⟩
  | 118 => ⟨S_, .f32⟩
  | 119 => ⟨S2x1024, .f32⟩
  | 120 => ⟨S2x1x1024, .f32⟩
  | 121 => ⟨S2x1x1024, .f32⟩
  | 122 => ⟨S2x1x1024, .f32⟩
  | 123 => ⟨S_, .f32⟩
  | 124 => ⟨S_, .i1⟩
  | 125 => ⟨S_, .f32⟩
  | 126 => ⟨S_, .f32⟩
  | 127 => ⟨S2x1x1024, .f32⟩
  | _ => ⟨S2x3x1024, .f32⟩

abbrev hbmTy0_1 (i : Nat) : BufTy := match i % 128 with
  | 0 => ⟨S2x1x1024, .f32⟩
  | 1 => ⟨S2x1x1024, .f32⟩
  | 2 => ⟨S2x64x1024, .f32⟩
  | 3 => ⟨S2x64x1024, .f32⟩
  | 4 => ⟨S2x64x1024, .f32⟩
  | 5 => ⟨S2x64x1024, .f32⟩
  | _ => ⟨S2x3x1024, .f32⟩

abbrev hbmTy (i : Nat) : BufTy := match i / 128 with
  | 0 => hbmTy0_0 i
  | 1 => hbmTy0_1 i
  | _ => ⟨S2x3x1024, .f32⟩

abbrev bufTy : (tb : Table) → Fin (tcTables nBuf tb) → BufTy
  | .hbm, ⟨i, _⟩ => hbmTy i
  | _, _ => ⟨S2x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_cst_1 : Ref sig .tc := ⟨.hbm, 22, rfl⟩
abbrev main_call0_call0_v8 : Ref sig .tc := ⟨.hbm, 23, rfl⟩
abbrev main_call0_call0_cst_2 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_cst_3 : Ref sig .tc := ⟨.hbm, 29, rfl⟩
abbrev main_call0_call0_v13 : Ref sig .tc := ⟨.hbm, 30, rfl⟩
abbrev main_call0_call0_cst_4 : Ref sig .tc := ⟨.hbm, 31, rfl⟩
abbrev main_call0_call0_call0_v0 : Ref sig .tc := ⟨.hbm, 32, rfl⟩
abbrev main_call0_call0_call0_v1 : Ref sig .tc := ⟨.hbm, 33, rfl⟩
abbrev main_call0_v0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_cst_2 : Ref sig .tc := ⟨.hbm, 43, rfl⟩
abbrev main_v11 : Ref sig .tc := ⟨.hbm, 44, rfl⟩
abbrev main_v12 : Ref sig .tc := ⟨.hbm, 45, rfl⟩
abbrev main_c_3 : Ref sig .tc := ⟨.hbm, 46, rfl⟩
abbrev main_call1_call0_cst : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_cst_0 : Ref sig .tc := ⟨.hbm, 50, rfl⟩
abbrev main_call1_call0_v2 : Ref sig .tc := ⟨.hbm, 51, rfl⟩
abbrev main_call1_call0_v3 : Ref sig .tc := ⟨.hbm, 52, rfl⟩
abbrev main_call1_call0_v4 : Ref sig .tc := ⟨.hbm, 53, rfl⟩
abbrev main_call1_call0_v5 : Ref sig .tc := ⟨.hbm, 54, rfl⟩
abbrev main_call1_call0_v6 : Ref sig .tc := ⟨.hbm, 55, rfl⟩
abbrev main_call1_call0_v7 : Ref sig .tc := ⟨.hbm, 56, rfl⟩
abbrev main_call1_call0_cst_1 : Ref sig .tc := ⟨.hbm, 57, rfl⟩
abbrev main_call1_call0_v8 : Ref sig .tc := ⟨.hbm, 58, rfl⟩
abbrev main_call1_call0_cst_2 : Ref sig .tc := ⟨.hbm, 59, rfl⟩
abbrev main_call1_call0_v9 : Ref sig .tc := ⟨.hbm, 60, rfl⟩
abbrev main_call1_call0_v10 : Ref sig .tc := ⟨.hbm, 61, rfl⟩
abbrev main_call1_call0_v11 : Ref sig .tc := ⟨.hbm, 62, rfl⟩
abbrev main_call1_call0_v12 : Ref sig .tc := ⟨.hbm, 63, rfl⟩
abbrev main_call1_call0_cst_3 : Ref sig .tc := ⟨.hbm, 64, rfl⟩
abbrev main_call1_call0_v13 : Ref sig .tc := ⟨.hbm, 65, rfl⟩
abbrev main_call1_call0_cst_4 : Ref sig .tc := ⟨.hbm, 66, rfl⟩
abbrev main_call1_call0_call0_v0 : Ref sig .tc := ⟨.hbm, 67, rfl⟩
abbrev main_call1_call0_call0_v1 : Ref sig .tc := ⟨.hbm, 68, rfl⟩
abbrev main_call1_v0 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_cst_4 : Ref sig .tc := ⟨.hbm, 76, rfl⟩
abbrev main_v19 : Ref sig .tc := ⟨.hbm, 77, rfl⟩
abbrev main_v20 : Ref sig .tc := ⟨.hbm, 78, rfl⟩
abbrev main_cst_5 : Ref sig .tc := ⟨.hbm, 79, rfl⟩
abbrev main_v21 : Ref sig .tc := ⟨.hbm, 80, rfl⟩
abbrev main_v22 : Ref sig .tc := ⟨.hbm, 81, rfl⟩
abbrev main_cst_6 : Ref sig .tc := ⟨.hbm, 82, rfl⟩
abbrev main_v23 : Ref sig .tc := ⟨.hbm, 83, rfl⟩
abbrev main_cst_7 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_cst_8 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_cst_9 : Ref sig .tc := ⟨.hbm, 99, rfl⟩
abbrev main_v37 : Ref sig .tc := ⟨.hbm, 100, rfl⟩
abbrev main_v38 : Ref sig .tc := ⟨.hbm, 101, rfl⟩
abbrev main_cst_10 : Ref sig .tc := ⟨.hbm, 102, rfl⟩
abbrev main_v39 : Ref sig .tc := ⟨.hbm, 103, rfl⟩
abbrev main_v40 : Ref sig .tc := ⟨.hbm, 104, rfl⟩
abbrev main_c_11 : Ref sig .tc := ⟨.hbm, 105, rfl⟩
abbrev main_call2_call0_cst : Ref sig .tc := ⟨.hbm, 106, rfl⟩
abbrev main_call2_call0_v0 : Ref sig .tc := ⟨.hbm, 107, rfl⟩
abbrev main_call2_call0_v1 : Ref sig .tc := ⟨.hbm, 108, rfl⟩
abbrev main_call2_call0_cst_0 : Ref sig .tc := ⟨.hbm, 109, rfl⟩
abbrev main_call2_call0_v2 : Ref sig .tc := ⟨.hbm, 110, rfl⟩
abbrev main_call2_call0_v3 : Ref sig .tc := ⟨.hbm, 111, rfl⟩
abbrev main_call2_call0_v4 : Ref sig .tc := ⟨.hbm, 112, rfl⟩
abbrev main_call2_call0_v5 : Ref sig .tc := ⟨.hbm, 113, rfl⟩
abbrev main_call2_call0_v6 : Ref sig .tc := ⟨.hbm, 114, rfl⟩
abbrev main_call2_call0_v7 : Ref sig .tc := ⟨.hbm, 115, rfl⟩
abbrev main_call2_call0_cst_1 : Ref sig .tc := ⟨.hbm, 116, rfl⟩
abbrev main_call2_call0_v8 : Ref sig .tc := ⟨.hbm, 117, rfl⟩
abbrev main_call2_call0_cst_2 : Ref sig .tc := ⟨.hbm, 118, rfl⟩
abbrev main_call2_call0_v9 : Ref sig .tc := ⟨.hbm, 119, rfl⟩
abbrev main_call2_call0_v10 : Ref sig .tc := ⟨.hbm, 120, rfl⟩
abbrev main_call2_call0_v11 : Ref sig .tc := ⟨.hbm, 121, rfl⟩
abbrev main_call2_call0_v12 : Ref sig .tc := ⟨.hbm, 122, rfl⟩
abbrev main_call2_call0_cst_3 : Ref sig .tc := ⟨.hbm, 123, rfl⟩
abbrev main_call2_call0_v13 : Ref sig .tc := ⟨.hbm, 124, rfl⟩
abbrev main_call2_call0_cst_4 : Ref sig .tc := ⟨.hbm, 125, rfl⟩
abbrev main_call2_call0_call0_v0 : Ref sig .tc := ⟨.hbm, 126, rfl⟩
abbrev main_call2_call0_call0_v1 : Ref sig .tc := ⟨.hbm, 127, rfl⟩
abbrev main_call2_v0 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩

abbrev nD : Nat := 1
abbrev τ : Topo := Topo.v7x

variable {F : FTy → Type} [FloatOps F]

class Facts₀ : Prop where
  reducesTo_S2x64x1024_S2x1024_d1 : S2x64x1024.ReducesTo [1] S2x1024
  h_S_ : 0 < S_.numel
  bcast_S2x1024_S2x1x1024_0_2 : S2x1024.BroadcastsInDim S2x1x1024 (![0, 2] : Fin 2 → Fin S2x1x1024.rank)
  bcast_S_S2x1x1024 : S_.BroadcastsInDim S2x1x1024 (![] : Fin 0 → Fin S2x1x1024.rank)
  bcast_S2x1x1024_S2x64x1024_0_1_2 : S2x1x1024.BroadcastsInDim S2x64x1024 (![0, 1, 2] : Fin 3 → Fin S2x64x1024.rank)
  reducesTo_S2x64x16384_S2x16384_d1 : S2x64x16384.ReducesTo [1] S2x16384
  bcast_S2x16384_S2x1x16384_0_2 : S2x16384.BroadcastsInDim S2x1x16384 (![0, 2] : Fin 2 → Fin S2x1x16384.rank)
  bcast_S_S2x1x16384 : S_.BroadcastsInDim S2x1x16384 (![] : Fin 0 → Fin S2x1x16384.rank)
  bcast_S2x1x16384_S2x64x16384_0_1_2 : S2x1x16384.BroadcastsInDim S2x64x16384 (![0, 1, 2] : Fin 3 → Fin S2x64x16384.rank)
  bcast_S_S2x1024x16384 : S_.BroadcastsInDim S2x1024x16384 (![] : Fin 0 → Fin S2x1024x16384.rank)
  reducesTo_S2x1024x16384_S2x1024_d2 : S2x1024x16384.ReducesTo [2] S2x1024
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  bcast_S2x1024x1_S2x1024x16384_0_1_2 : S2x1024x1.BroadcastsInDim S2x1024x16384 (![0, 1, 2] : Fin 3 → Fin S2x1024x16384.rank)
  dot_S2x64x1024_S2x64x16384_S2x1024x16384_1_1_2_2_0_0_wf : DotDims.WF S2x64x1024 S2x64x16384 S2x1024x16384 [1] [1] [2] [2] [0] [0]
  dot_S2x3x16384_S2x1024x16384_S2x3x1024_2_2_1_1_0_0_wf : DotDims.WF S2x3x16384 S2x1024x16384 S2x3x1024 [2] [2] [1] [1] [0] [0]
  dot_S2x1x16384_S2x1024x16384_S2x1x1024_2_2_1_1_0_0_wf : DotDims.WF S2x1x16384 S2x1024x16384 S2x1x1024 [2] [2] [1] [1] [0] [0]
  dot_S2x64x16384_S2x1024x16384_S2x64x1024_2_2_1_1_0_0_wf : DotDims.WF S2x64x16384 S2x1024x16384 S2x64x1024 [2] [2] [1] [1] [0] [0]

variable [Facts₀]

def dot_S2x64x1024_S2x64x16384_S2x1024x16384_1_1_2_2_0_0 : DotDims S2x64x1024 S2x64x16384 S2x1024x16384 where
  lhsContracting := [1]
  rhsContracting := [1]
  lhsNonContracting := [2]
  rhsNonContracting := [2]
  lhsBatch := [0]
  rhsBatch := [0]
  wf := dot_S2x64x1024_S2x64x16384_S2x1024x16384_1_1_2_2_0_0_wf
def dot_S2x3x16384_S2x1024x16384_S2x3x1024_2_2_1_1_0_0 : DotDims S2x3x16384 S2x1024x16384 S2x3x1024 where
  lhsContracting := [2]
  rhsContracting := [2]
  lhsNonContracting := [1]
  rhsNonContracting := [1]
  lhsBatch := [0]
  rhsBatch := [0]
  wf := dot_S2x3x16384_S2x1024x16384_S2x3x1024_2_2_1_1_0_0_wf
def dot_S2x1x16384_S2x1024x16384_S2x1x1024_2_2_1_1_0_0 : DotDims S2x1x16384 S2x1024x16384 S2x1x1024 where
  lhsContracting := [2]
  rhsContracting := [2]
  lhsNonContracting := [1]
  rhsNonContracting := [1]
  lhsBatch := [0]
  rhsBatch := [0]
  wf := dot_S2x1x16384_S2x1024x16384_S2x1x1024_2_2_1_1_0_0_wf
def dot_S2x64x16384_S2x1024x16384_S2x64x1024_2_2_1_1_0_0 : DotDims S2x64x16384 S2x1024x16384 S2x64x1024 where
  lhsContracting := [2]
  rhsContracting := [2]
  lhsNonContracting := [1]
  rhsNonContracting := [1]
  lhsBatch := [0]
  rhsBatch := [0]
  wf := dot_S2x64x16384_S2x1024x16384_S2x64x1024_2_2_1_1_0_0_wf

class Facts : Prop extends Facts₀ where

variable [Facts]
-- ==== Proof.KPieces.lean ====
import proofs.«109630_j50577534877890_2_alg».proof.Proof.Gen.KernelIdeal.Frame
import Idealize.ShloMosaic.Lib.Pipeline.Value
import Idealize.ShloMosaic.Lib.Tactic

/-!
  What one run of the kernel body leaves behind, read back as values (generic in the float instance).

  The body keeps three arrays between grid points, one row per source point: the running maximum of the scores seen so
  far, the running sum of the shifted exponentials, and the running weighted sums of the 68 value channels (3 coordinates,
  1 weight, 64 descriptor channels). At a point it loads the source block `x0`, the target descriptor tile `x1`, the
  coordinate tile `x2` and the weight tile `x3`, and from the carried `(xs0, xs1, xs2)` stores
    the new maximum        `k0_pay4 (k0_pay13 x0 x1 xs0)`,
    the new sum            `k0_pay2 (k0_pay12 x0 x1) (k0_pay13 x0 x1 xs0) (k0_pay14 x0 x1 xs0) xs1`,
    the new weighted sums  `k0_pay3 (k0_pay9 x1) (k0_pay10 x2) (k0_pay11 x3) (k0_pay12 x0 x1) (k0_pay13 x0 x1 xs0) (k0_pay14 x0 x1 xs0) xs2`.
  At the first tile of a batch entry the carried arrays are first reset to `-∞`, `0`, `0` (`k0_pay6`, `k0_pay7`, `k0_pay8`)
  and read back; at the last tile the output block is the quotient `k0_pay5` of the new weighted sums by the new sum.
  Each lemma reads the one store that covers the array (after a reset, the later of the two).
-/

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_B_0 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : ¬cond0_0 i) (hc1 : ¬cond0_1 i)
    (x0 : Vec F S1x64x1024 .f32) (x1 : Vec F S1x64x2048 .f32) (x2 : Vec F S1x3x2048 .f32) (x3 : Vec F S1x1x2048 .f32) (xs0 : Vec F S1024x1 .f32) (xs1 : Vec F S1024x1 .f32) (xs2 : Vec F S1024x68 .f32) :
    sout0_B_0 c i arg2 harg2 arg3 harg3 arg4 harg4 arg5 harg5 arg6 harg6 arg7 harg7 arg8 harg8 arg9 harg9 hc0 hc1 x0 x1 x2 x3 xs0 xs1 xs2 = k0_pay4 (k0_pay13 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]

theorem sout_B_1 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : ¬cond0_0 i) (hc1 : ¬cond0_1 i)
    (x0 : Vec F S1x64x1024 .f32) (x1 : Vec F S1x64x2048 .f32) (x2 : Vec F S1x3x2048 .f32) (x3 : Vec F S1x1x2048 .f32) (xs0 : Vec F S1024x1 .f32) (xs1 : Vec F S1024x1 .f32) (xs2 : Vec F S1024x68 .f32) :
    sout0_B_1 c i arg2 harg2 arg3 harg3 arg4 harg4 arg5 harg5 arg6 harg6 arg7 harg7 arg8 harg8 arg9 harg9 hc0 hc1 x0 x1 x2 x3 xs0 xs1 xs2 = k0_pay2 (k0_pay12 x0 x1) (k0_pay13 x0 x1 xs0) (k0_pay14 x0 x1 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]

theorem sout_B_2 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : ¬cond0_0 i) (hc1 : ¬cond0_1 i)
    (x0 : Vec F S1x64x1024 .f32) (x1 : Vec F S1x64x2048 .f32) (x2 : Vec F S1x3x2048 .f32) (x3 : Vec F S1x1x2048 .f32) (xs0 : Vec F S1024x1 .f32) (xs1 : Vec F S1024x1 .f32) (xs2 : Vec F S1024x68 .f32) :
    sout0_B_2 c i arg2 harg2 arg3 harg3 arg4 harg4 arg5 harg5 arg6 harg6 arg7 harg7 arg8 harg8 arg9 harg9 hc0 hc1 x0 x1 x2 x3 xs0 xs1 xs2 = k0_pay3 (k0_pay9 x1) (k0_pay10 x2) (k0_pay11 x3) (k0_pay12 x0 x1) (k0_pay13 x0 x1 xs0) (k0_pay14 x0 x1 xs0) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]

theorem sout_C_0 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : ¬cond0_0 i) (hc1 : cond0_1 i)
    (x0 : Vec F S1x64x1024 .f32) (x1 : Vec F S1x64x2048 .f32) (x2 : Vec F S1x3x2048 .f32) (x3 : Vec F S1x1x2048 .f32) (xs0 : Vec F S1024x1 .f32) (xs1 : Vec F S1024x1 .f32) (xs2 : Vec F S1024x68 .f32) :
    sout0_C_0 c i arg2 harg2 arg3 harg3 arg4 harg4 arg5 harg5 arg6 harg6 arg7 harg7 arg8 harg8 arg9 harg9 hc0 hc1 x0 x1 x2 x3 xs0 xs1 xs2 = k0_pay4 (k0_pay13 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]

theorem sout_C_1 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : ¬cond0_0 i) (hc1 : cond0_1 i)
    (x0 : Vec F S1x64x1024 .f32) (x1 : Vec F S1x64x2048 .f32) (x2 : Vec F S1x3x2048 .f32) (x3 : Vec F S1x1x2048 .f32) (xs0 : Vec F S1024x1 .f32) (xs1 : Vec F S1024x1 .f32) (xs2 : Vec F S1024x68 .f32) :
    sout0_C_1 c i arg2 harg2 arg3 harg3 arg4 harg4 arg5 harg5 arg6 harg6 arg7 harg7 arg8 harg8 arg9 harg9 hc0 hc1 x0 x1 x2 x3 xs0 xs1 xs2 = k0_pay2 (k0_pay12 x0 x1) (k0_pay13 x0 x1 xs0) (k0_pay14 x0 x1 xs0) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]

theorem sout_C_2 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : ¬cond0_0 i) (hc1 : cond0_1 i)
    (x0 : Vec F S1x64x1024 .f32) (x1 : Vec F S1x64x2048 .f32) (x2 : Vec F S1x3x2048 .f32) (x3 : Vec F S1x1x2048 .f32) (xs0 : Vec F S1024x1 .f32) (xs1 : Vec F S1024x1 .f32) (xs2 : Vec F S1024x68 .f32) :
    sout0_C_2 c i arg2 harg2 arg3 harg3 arg4 harg4 arg5 harg5 arg6 harg6 arg7 harg7 arg8 harg8 arg9 harg9 hc0 hc1 x0 x1 x2 x3 xs0 xs1 xs2 = k0_pay3 (k0_pay9 x1) (k0_pay10 x2) (k0_pay11 x3) (k0_pay12 x0 x1) (k0_pay13 x0 x1 xs0) (k0_pay14 x0 x1 xs0) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]

theorem sout_A_0 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : cond0_0 i) (hc1 : ¬cond0_1 i)
    (x0 : Vec F S1x64x1024 .f32) (x1 : Vec F S1x64x2048 .f32) (x2 : Vec F S1x3x2048 .f32) (x3 : Vec F S1x1x2048 .f32) :
    sout0_A_0 c i arg2 harg2 arg3 harg3 arg4 harg4 arg5 harg5 arg6 harg6 arg7 harg7 arg8 harg8 arg9 harg9 hc0 hc1 x0 x1 x2 x3 = k0_pay4 (k0_pay13 x0 x1 k0_pay6) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]
  simp only [View.readCov_unit_zero (S := S1024x1) _ hz2, View.readCov_unit_zero (S := S1024x68) _ hz2]

theorem sout_A_1 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : cond0_0 i) (hc1 : ¬cond0_1 i)
    (x0 : Vec F S1x64x1024 .f32) (x1 : Vec F S1x64x2048 .f32) (x2 : Vec F S1x3x2048 .f32) (x3 : Vec F S1x1x2048 .f32) :
    sout0_A_1 c i arg2 harg2 arg3 harg3 arg4 harg4 arg5 harg5 arg6 harg6 arg7 harg7 arg8 harg8 arg9 harg9 hc0 hc1 x0 x1 x2 x3 = k0_pay2 (k0_pay12 x0 x1) (k0_pay13 x0 x1 k0_pay6) (k0_pay14 x0 x1 k0_pay6) k0_pay7 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]
  simp only [View.readCov_unit_zero (S := S1024x1) _ hz2, View.readCov_unit_zero (S := S1024x68) _ hz2]

theorem sout_A_2 (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : cond0_0 i) (hc1 : ¬cond0_1 i)
    (x0 : Vec F S1x64x1024 .f32) (x1 : Vec F S1x64x2048 .f32) (x2 : Vec F S1x3x2048 .f32) (x3 : Vec F S1x1x2048 .f32) :
    sout0_A_2 c i arg2 harg2 arg3 harg3 arg4 harg4 arg5 harg5 arg6 harg6 arg7 harg7 arg8 harg8 arg9 harg9 hc0 hc1 x0 x1 x2 x3 = k0_pay3 (k0_pay9 x1) (k0_pay10 x2) (k0_pay11 x3) (k0_pay12 x0 x1) (k0_pay13 x0 x1 k0_pay6) (k0_pay14 x0 x1 k0_pay6) k0_pay8 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x68) hz2]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]
  simp only [View.readCov_unit_zero (S := S1024x1) _ hz2, View.readCov_unit_zero (S := S1024x68) _ hz2]

theorem out_C (c : Dev nD) (i : grid0.Coords) (arg2 : Memref sig .tc .vmem S1x64x1024 .f32) (harg2 : arg2.IsWhole) (arg3 : Memref sig .tc .vmem S1x64x2048 .f32) (harg3 : arg3.IsWhole) (arg4 : Memref sig .tc .vmem S1x3x2048 .f32) (harg4 : arg4.IsWhole) (arg5 : Memref sig .tc .vmem S1x1x2048 .f32) (harg5 : arg5.IsWhole) (arg6 : Memref sig .tc .vmem S1x1024x68 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x68 .f32) (harg9 : arg9.IsWhole) (hc0 : ¬cond0_0 i) (hc1 : cond0_1 i)
    (x0 : Vec F S1x64x1024 .f32) (x1 : Vec F S1x64x2048 .f32) (x2 : Vec F S1x3x2048 .f32) (x3 : Vec F S1x1x2048 .f32) (xs0 : Vec F S1024x1 .f32) (xs1 : Vec F S1024x1 .f32) (xs2 : Vec F S1024x68 .f32) :
    out0_C_4 c i arg2 harg2 arg3 harg3 arg4 harg4 arg5 harg5 arg6 harg6 arg7 harg7 arg8 harg8 arg9 harg9 hc0 hc1 x0 x1 x2 x3 xs0 xs1 xs2 = k0_pay5 (k0_pay3 (k0_pay9 x1) (k0_pay10 x2) (k0_pay11 x3) (k0_pay12 x0 x1) (k0_pay13 x0 x1 xs0) (k0_pay14 x0 x1 xs0) xs2) (k0_pay2 (k0_pay12 x0 x1) (k0_pay13 x0 x1 xs0) (k0_pay14 x0 x1 xs0) xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S1x64x1024) hz3, View.ld_unit_zero (S := S1x64x2048) hz3, View.ld_unit_zero (S := S1x3x2048) hz3, View.ld_unit_zero (S := S1x1x2048) hz3, View.ld_unit_zero (S := S1024x1) hz2, View.ld_unit_zero (S := S1024x68) hz2]
  simp only [View.readCov_unit_zero (S := S1024x1) _ hz2, View.readCov_unit_zero (S := S1024x68) _ hz2]

end Cert.KernelIdeal.Pieces
end
-- ==== Proof.KState.lean ====
import proofs.«109630_j50577534877890_2_alg».proof.Proof.KPieces

/-!
  The three arrays the kernel carries from one grid point to the next, as a recursion on the point.

  The grid has 16 points: 2 batch entries, 8 target tiles each, the tile index running fastest. `step` is one run of the
  body on the point's four input blocks from a carried `(maximum, sum, weighted sums)`; at the first tile of a batch
  entry (`n % 8 = 0`) it starts from the reset values, otherwise from what the point before left. The generated
  point-by-point contents of the carried scratch are this recursion (by induction on the point), and at the last tile
  of a batch entry (`n % 8 = 7`) the output block is the weighted sums divided by the sum.
-/

set_option maxRecDepth 16384

noncomputable section

open Idealize.ShloMosaic Idealize.ShloMosaic.TcCoe Idealize.SL.Sem
open Idealize.ShloMosaic.Pipeline (Dat)

namespace Cert.KernelIdeal.KState

open Cert.KernelIdeal Cert.KernelIdeal.Gen Cert.KernelIdeal.Pieces

variable {F : FTy → Type} [FloatOps F] [Named F]
variable (m : (ℓ : Loc nD τ sig) → Buf (Elt F) ℓ)

/-- the carried arrays: running maximum, running sum, running weighted sums -/
abbrev Carried (F : FTy → Type) := Vec F S1024x1 .f32 × Vec F S1024x1 .f32 × Vec F S1024x68 .f32

/-- the reset values: `-∞`, `0`, `0` -/
def reset : Carried F := (k0_pay6, k0_pay7, k0_pay8)

/-- one run of the body on the blocks `x0 … x3` from the carried `s` -/
def step (x0 : Vec F S1x64x1024 .f32) (x1 : Vec F S1x64x2048 .f32) (x2 : Vec F S1x3x2048 .f32) (x3 : Vec F S1x1x2048 .f32)
    (s : Carried F) : Carried F :=
  (k0_pay4 (k0_pay13 x0 x1 s.1),
   k0_pay2 (k0_pay12 x0 x1) (k0_pay13 x0 x1 s.1) (k0_pay14 x0 x1 s.1) s.2.1,
   k0_pay3 (k0_pay9 x1) (k0_pay10 x2) (k0_pay11 x3) (k0_pay12 x0 x1) (k0_pay13 x0 x1 s.1) (k0_pay14 x0 x1 s.1) s.2.2)

/-- the carried arrays after point `n` -/
def st (c : Dev nD) : (n : ℕ) → n < cfg0.N → Carried F
  | 0, h => step (iblk m c 0 ⟨0, h⟩) (iblk m c 1 ⟨0, h⟩) (iblk m c 2 ⟨0, h⟩) (iblk m c 3 ⟨0, h⟩) reset
  | n + 1, h => step (iblk m c 0 ⟨n + 1, h⟩) (iblk m c 1 ⟨n + 1, h⟩) (iblk m c 2 ⟨n + 1, h⟩) (iblk m c 3 ⟨n + 1, h⟩)
      (if (n + 1) % 8 = 0 then reset else st c n (Nat.lt_of_succ_lt h))

/-! ### One point, case by case -/

theorem scratch_A (c : Dev nD) (t : Fin cfg0.N) (h0 : t.val % 8 = 0) (h1 : ¬t.val % 8 = 7) :
    (outsAt0 m c t.val t.isLt).2 = step (iblk m c 0 t) (iblk m c 1 t) (iblk m c 2 t) (iblk m c 3 t) reset := by
  rw [outsAt0_A m c t h0 h1]
  dsimp only
  rw [sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]
  rfl

theorem scratch_B (c : Dev nD) (t : Fin cfg0.N) (h0 : ¬t.val % 8 = 0) (h1 : ¬t.val % 8 = 7) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  rw [sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rfl

theorem scratch_C (c : Dev nD) (t : Fin cfg0.N) (h0 : ¬t.val % 8 = 0) (h1 : t.val % 8 = 7) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  rw [sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rfl

/-- at the last tile of a batch entry the output block is the new weighted sums over the new sum -/
theorem out_at_C (c : Dev nD) (t : Fin cfg0.N) (h0 : ¬t.val % 8 = 0) (h1 : t.val % 8 = 7) :
    (outsAt0 m c t.val t.isLt).1
      = k0_pay5 (step (iblk m c 0 t) (iblk m c 1 t) (iblk m c 2 t) (iblk m c 3 t) (outsAt0 m c (t.val - 1) (Nat.lt_of_le_of_lt (Nat.sub_le _ _) t.isLt)).2).2.2 (step (iblk m c 0 t) (iblk m c 1 t) (iblk m c 2 t) (iblk m c 3 t) (outsAt0 m c (t.val - 1) (Nat.lt_of_le_of_lt (Nat.sub_le _ _) t.isLt)).2).2.1 := by
  rw [outsAt0_C m c t h0 h1]
  dsimp only
  rw [out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rfl

/-! ### All points -/

/-- the generated point-by-point contents of the carried scratch are that recursion -/
theorem outsAt_scratch (c : Dev nD) : ∀ (n : ℕ) (h : n < cfg0.N), (outsAt0 m c n h).2 = st m c n h
  | 0, h => scratch_A m c ⟨0, h⟩ (Nat.zero_mod 8) (by show ¬0 % 8 = 7; decide)
  | n + 1, h => by
    by_cases h0 : (n + 1) % 8 = 0
    · have h1 : ¬(n + 1) % 8 = 7 := by omega
      rw [scratch_A m c ⟨n + 1, h⟩ h0 h1]
      show _ = step _ _ _ _ (if (n + 1) % 8 = 0 then reset else st m c n _)
      rw [if_pos h0]
    · have ih := outsAt_scratch c n (Nat.lt_of_succ_lt h)
      have hstep : (outsAt0 m c (n + 1) h).2 = step (iblk m c 0 ⟨n + 1, h⟩) (iblk m c 1 ⟨n + 1, h⟩) (iblk m c 2 ⟨n + 1, h⟩) (iblk m c 3 ⟨n + 1, h⟩) (outsAt0 m c n (Nat.lt_of_succ_lt h)).2 := by
        by_cases h1 : (n + 1) % 8 = 7
        · exact scratch_C m c ⟨n + 1, h⟩ h0 h1
        · exact scratch_B m c ⟨n + 1, h⟩ h0 h1
      rw [hstep, ih]
      show _ = step _ _ _ _ (if (n + 1) % 8 = 0 then reset else st m c n _)
      rw [if_neg h0]

/-- at the last tile of a batch entry the output block is the weighted sums over the sum -/
theorem outsAt_out (c : Dev nD) (n : ℕ) (h : n < cfg0.N) (h1 : n % 8 = 7) :
    (outsAt0 m c n h).1 = k0_pay5 (st m c n h).2.2 (st m c n h).2.1 := by
  obtain ⟨k, rfl⟩ : ∃ k, n = k + 1 := ⟨n - 1, by omega⟩
  have h0 : ¬(k + 1) % 8 = 0 := by omega
  have e := out_at_C m c ⟨k + 1, h⟩ h0 h1
  have ih := outsAt_scratch m c k (Nat.lt_of_succ_lt h)
  have hst : st m c (k + 1) h = step (iblk m c 0 ⟨k + 1, h⟩) (iblk m c 1 ⟨k + 1, h⟩) (iblk m c 2 ⟨k + 1, h⟩) (iblk m c 3 ⟨k + 1, h⟩) (outsAt0 m c k (Nat.lt_of_succ_lt h)).2 := by
    show step _ _ _ _ (if (k + 1) % 8 = 0 then reset else st m c k _) = _
    rw [if_neg h0, ih]
  rw [hst]
  exact e

end Cert.KernelIdeal.KState
end
-- ==== Proof.KFinal.lean ====
import proofs.«109630_j50577534877890_2_alg».proof.Proof.KState
import Idealize.ShloMosaic.Lib.ValueIdx

/-!
  From the two blocks written back to the whole result array of the region.

  The output window's block is one batch entry's `1024 × 68` slab; it is written back only after the last of a batch
  entry's eight tiles (points 7 and 15), where it holds the weighted sums divided by the sum of weights. So the result
  array `2 × 1024 × 68` at `(b, n, j)` is the slab of point `8b + 7` at `(0, n, j)`: those two blocks cover it.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.KernelIdeal.Pieces Cert.KernelIdeal.KState

variable {F : FTy → Type} [FloatOps F] [Named F]
variable (m : (ℓ : Loc nD τ sig) → Buf (Elt F) ℓ)

theorem N16 : cfg0.N = 16 := N_0

/-- the point that handles the last tile of batch entry `b` -/
def lastPt (b : ℕ) (hb : b < 2) : Fin cfg0.N := ⟨8 * b + 7, by rw [N16]; omega⟩

/-- the slab a point leaves in the output block: its weighted sums over its sum of weights -/
def slab (c : Dev nD) (t : Fin cfg0.N) : Vec F S1x1024x68 .f32 :=
  k0_pay5 (st m c t.val t.isLt).2.2 (st m c t.val t.isLt).2.1

/-- the region's result array: batch entry `b`'s slab is the one point `8b + 7` leaves -/
def result (c : Dev nD) : S2x1024x68.Idx → Elt F .f32 := fun i =>
  slab m c (lastPt (i 0).val (i 0).isLt) (ix3 (0 : Fin 1) (⟨(i 1).val, (i 1).isLt⟩ : Fin 1024) (⟨(i 2).val, (i 2).isLt⟩ : Fin 68))

/-- the output window's block index at a point: the batch entry, and nothing else moves -/
theorem idx_facts : ∀ t : Fin cfg0.N, win0_4.index t (0 : Fin 3) = t.val / 8 ∧ win0_4.index t (1 : Fin 3) = 0 ∧ win0_4.index t (2 : Fin 3) = 0 :=
  (by decide +kernel : ∀ t : Fin grid0.N, _)

/-- what a writing-back point writes back is its block of the result array -/
theorem flushed_eq (c : Dev nD) (t : Fin cfg0.N) (hf : (cfg0.win 4).flush t = true) :
    (dats m 0 c).flushed 4 t = ((cfg0.win 4).blk t).view.read (Elt F) (result m c) := by
  have h7 : t.val % 8 = 7 := (flush0_4 t).mp hf
  have hN : t.val < 16 := lt_of_lt_of_eq t.isLt N16
  obtain ⟨e0, e1, e2⟩ := idx_facts t
  show (cfg0.win 4).cut (grid0.coords t) ((dats m 0 c).after 4 t) = _
  rw [after0_4, outsAt_out m c t.val t.isLt h7]
  funext y
  have hy0 : (y 0).val < 1 := (y 0).isLt
  have hy1 : (y 1).val < 1024 := (y 1).isLt
  have hy2 : (y 2).val < 68 := (y 2).isLt
  show slab m c t y = result m c (((cfg0.win 4).blk t).view.emb y)
  have hb : ((((cfg0.win 4).blk t).view.emb y) 0).val = t.val / 8 := by
    show win0_4.index t (0 : Fin 3) * 1 + 1 * (y 0).val = _; omega
  have hn : ((((cfg0.win 4).blk t).view.emb y) 1).val = (y 1).val := by
    show win0_4.index t (1 : Fin 3) * 1024 + 1 * (y 1).val = _; omega
  have hj : ((((cfg0.win 4).blk t).view.emb y) 2).val = (y 2).val := by
    show win0_4.index t (2 : Fin 3) * 68 + 1 * (y 2).val = _; omega
  unfold result
  have ht : lastPt ((((cfg0.win 4).blk t).view.emb y) 0).val ((((cfg0.win 4).blk t).view.emb y) 0).isLt = t := by
    apply Fin.ext; show 8 * _ + 7 = t.val; rw [hb]; omega
  rw [ht]
  congr 1
  funext a
  apply Fin.ext
  match a with
  | ⟨0, _⟩ => show (y 0).val = 0; omega
  | ⟨1, _⟩ => show (y 1).val = _; exact hn.symm
  | ⟨2, _⟩ => show (y 2).val = _; exact hj.symm

/-- an index of the result array is in a point's block iff each coordinate is in the block's range -/
theorem mem_blk (t : Fin cfg0.N) (i : S2x1024x68.Idx) :
    i ∈ ((cfg0.win 4).blk t).view.set ↔ ∀ a : Fin 3, win0_4.index t a * S1x1024x68.size a ≤ (i a).val ∧ (i a).val < win0_4.index t a * S1x1024x68.size a + S1x1024x68.size a := by
  show i ∈ ((View.whole main_v9).slice (win0_4.rect t)).set ↔ _
  rw [View.set_slice_whole, Rect.mem_set_unit]
  exact Iff.rfl

/-- the two blocks written back cover the result array -/
theorem cover (i : S2x1024x68.Idx) : ∃ t : Fin cfg0.N, (cfg0.win 4).flush t = true ∧ i ∈ ((cfg0.win 4).blk t).view.set := by
  have hi0 : (i 0).val < 2 := (i 0).isLt
  have hi1 : (i 1).val < 1024 := (i 1).isLt
  have hi2 : (i 2).val < 68 := (i 2).isLt
  refine ⟨lastPt (i 0).val hi0, (flush0_4 _).mpr (by show (8 * (i 0).val + 7) % 8 = 7; omega), ?_⟩
  obtain ⟨e0, e1, e2⟩ := idx_facts (lastPt (i 0).val hi0)
  have hv : (lastPt (i 0).val hi0).val = 8 * (i 0).val + 7 := rfl
  rw [mem_blk]
  intro a
  match a with
  | ⟨0, _⟩ => show win0_4.index (lastPt (i 0).val hi0) (0 : Fin 3) * 1 ≤ (i 0).val ∧ (i 0).val < win0_4.index (lastPt (i 0).val hi0) (0 : Fin 3) * 1 + 1; omega
  | ⟨1, _⟩ => show win0_4.index (lastPt (i 0).val hi0) (1 : Fin 3) * 1024 ≤ (i 1).val ∧ (i 1).val < win0_4.index (lastPt (i 0).val hi0) (1 : Fin 3) * 1024 + 1024; omega
  | ⟨2, _⟩ => show win0_4.index (lastPt (i 0).val hi0) (2 : Fin 3) * 68 ≤ (i 2).val ∧ (i 2).val < win0_4.index (lastPt (i 0).val hi0) (2 : Fin 3) * 68 + 68; omega

/-- so the region's result array ends holding `result` -/
theorem final (c : Dev nD) : (dats m 0 c).arrAt 4 cfg0.N = result m c :=
  (dats m 0 c).arrAt_eq_of_cover 4 (result m c) (fun t hf => flushed_eq m c t hf) (cover)

end Cert.KernelIdeal.KFinal
end
-- ==== Proof.KBlocks.lean ====
import proofs.«109630_j50577534877890_2_alg».proof.Proof.KFinal
import Idealize.ShloMosaic.Lib.ValueIdx

/-!
  What the four input blocks hold at a grid point.

  Point `t` handles batch entry `t / 8` and target tile `t % 8`. The first window's block is that batch entry's whole
  `64 × 1024` slab of normalised source descriptors; the other three are the tile's `2048` target columns of the raw
  target descriptors, coordinates and weights: column `i` of the block is column `2048 (t % 8) + i` of the array.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KBlocks

open Cert.KernelIdeal Cert.KernelIdeal.Gen Cert.KernelIdeal.KFinal

variable {F : FTy → Type} [FloatOps F] [Named F]
variable (m : (ℓ : Loc nD τ sig) → Buf (Elt F) ℓ)

theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, _)

/-- window 0's block at point `t`: batch entry `t / 8`, all 1024 source columns -/
theorem blk0 (c : Dev nD) (t : Fin cfg0.N) (cc : Fin 64) (i : Fin 1024) :
    (iblk m c 0 t : Vec F S1x64x1024 .f32) (ix3 (0 : Fin 1) cc i)
      = V m c main_v8 (ix3 (⟨t.val / 8, by have := lt_of_lt_of_eq t.isLt N16; omega⟩ : Fin 2) cc
          (⟨i.val, by have := i.isLt; omega⟩ : Fin 1024)) := by
  obtain ⟨e0, e1, e2⟩ := idx0 t
  unfold iblk
  rw [View.read_apply]
  show V m c main_v8 _ = V m c main_v8 _
  congr 1
  funext a
  apply Fin.ext
  match a with
  | ⟨0, _⟩ => show win0_0.index t (0 : Fin 3) * 1 + 1 * 0 = t.val / 8; omega
  | ⟨1, _⟩ => show win0_0.index t (1 : Fin 3) * 64 + 1 * cc.val = cc.val; omega
  | ⟨2, _⟩ => show win0_0.index t (2 : Fin 3) * 1024 + 1 * i.val = i.val; omega

/-- window 1's block at point `t`: batch entry `t / 8`, target columns `2048 (t % 8) + i` -/
theorem blk1 (c : Dev nD) (t : Fin cfg0.N) (cc : Fin 64) (i : Fin 2048) :
    (iblk m c 1 t : Vec F S1x64x2048 .f32) (ix3 (0 : Fin 1) cc i)
      = V m c main_arg4 (ix3 (⟨t.val / 8, by have := lt_of_lt_of_eq t.isLt N16; omega⟩ : Fin 2) cc
          (⟨2048 * (t.val % 8) + i.val, by have := i.isLt; have := Nat.mod_lt t.val (by decide : 0 < 8); omega⟩ : Fin 16384)) := by
  obtain ⟨e0, e1, e2⟩ := idx1 t
  unfold iblk
  rw [View.read_apply]
  show V m c main_arg4 _ = V m c main_arg4 _
  congr 1
  funext a
  apply Fin.ext
  match a with
  | ⟨0, _⟩ => show win0_1.index t (0 : Fin 3) * 1 + 1 * 0 = t.val / 8; omega
  | ⟨1, _⟩ => show win0_1.index t (1 : Fin 3) * 64 + 1 * cc.val = cc.val; omega
  | ⟨2, _⟩ => show win0_1.index t (2 : Fin 3) * 2048 + 1 * i.val = 2048 * (t.val % 8) + i.val; omega

/-- window 2's block at point `t`: batch entry `t / 8`, target columns `2048 (t % 8) + i` -/
theorem blk2 (c : Dev nD) (t : Fin cfg0.N) (cc : Fin 3) (i : Fin 2048) :
    (iblk m c 2 t : Vec F S1x3x2048 .f32) (ix3 (0 : Fin 1) cc i)
      = V m c main_arg1 (ix3 (⟨t.val / 8, by have := lt_of_lt_of_eq t.isLt N16; omega⟩ : Fin 2) cc
          (⟨2048 * (t.val % 8) + i.val, by have := i.isLt; have := Nat.mod_lt t.val (by decide : 0 < 8); omega⟩ : Fin 16384)) := by
  obtain ⟨e0, e1, e2⟩ := idx2 t
  unfold iblk
  rw [View.read_apply]
  show V m c main_arg1 _ = V m c main_arg1 _
  congr 1
  funext a
  apply Fin.ext
  match a with
  | ⟨0, _⟩ => show win0_2.index t (0 : Fin 3) * 1 + 1 * 0 = t.val / 8; omega
  | ⟨1, _⟩ => show win0_2.index t (1 : Fin 3) * 3 + 1 * cc.val = cc.val; omega
  | ⟨2, _⟩ => show win0_2.index t (2 : Fin 3) * 2048 + 1 * i.val = 2048 * (t.val % 8) + i.val; omega

/-- window 3's block at point `t`: batch entry `t / 8`, target columns `2048 (t % 8) + i` -/
theorem blk3 (c : Dev nD) (t : Fin cfg0.N) (cc : Fin 1) (i : Fin 2048) :
    (iblk m c 3 t : Vec F S1x1x2048 .f32) (ix3 (0 : Fin 1) cc i)
      = V m c main_arg2 (ix3 (⟨t.val / 8, by have := lt_of_lt_of_eq t.isLt N16; omega⟩ : Fin 2) cc
          (⟨2048 * (t.val % 8) + i.val, by have := i.isLt; have := Nat.mod_lt t.val (by decide : 0 < 8); omega⟩ : Fin 16384)) := by
  obtain ⟨e0, e1, e2⟩ := idx3 t
  unfold iblk
  rw [View.read_apply]
  show V m c main_arg2 _ = V m c main_arg2 _
  congr 1
  funext a
  apply Fin.ext
  match a with
  | ⟨0, _⟩ => show win0_3.index t (0 : Fin 3) * 1 + 1 * 0 = t.val / 8; omega
  | ⟨1, _⟩ => show win0_3.index t (1 : Fin 3) * 1 + 1 * cc.val = cc.val; omega
  | ⟨2, _⟩ => show win0_3.index t (2 : Fin 3) * 2048 + 1 * i.val = 2048 * (t.val % 8) + i.val; omega

end Cert.KernelIdeal.KBlocks
end
-- ==== Proof.KHost.lean ====
import proofs.«109630_j50577534877890_2_alg».proof.Proof.KFinal
import Idealize.ShloMosaic.Lib.StableHlo.Run
import Idealize.ShloMosaic.Lib.Pipeline.Value

/-!
  The host operations around the region, read as functions.

  Before the region: the source descriptors are normalised column by column (mean over the 64 channels subtracted,
  divided by the unbiased standard deviation) — `zn` below, the region's first operand. After it: the result array
  `2 × 1024 × 68` is cut along its last axis into the 3 coordinate channels, the 1 weight channel and the 64 descriptor
  channels, each piece is transposed to channels-first, and the descriptor piece is normalised by the same `zn`.
-/

set_option maxRecDepth 16384

noncomputable section

open Idealize.ShloMosaic Idealize.ShloMosaic.TcCoe Idealize.SL.Sem Idealize.ShloMosaic.StableHlo
open Idealize.ShloMosaic.Pipeline (Dat)

namespace Cert.KernelIdeal.KHost

open Cert.KernelIdeal Cert.KernelIdeal.Gen Cert.KernelIdeal.KFinal

variable {F : FTy → Type} [FloatOps F] [Named F]
variable (m : (ℓ : Loc nD τ sig) → Buf (Elt F) ℓ)

/-- the mean of each column over its 64 channels, kept as an axis of length one -/
def mean (x : (⟨S2x64x1024, .f32⟩ : BufTy).Contents (Elt F)) : (⟨S2x1x1024, .f32⟩ : BufTy).Contents (Elt F) :=
  Host.divf
    (broadcastInDim S2x1x1024 ![0, 2] bcast_S2x1024_S2x1x1024_0_2 (Host.reduceAdd x (constant S_ .f32 0x00000000#32) reducesTo_S2x64x1024_S2x1024_d1 h_S_))
    (broadcastInDim S2x1x1024 ![] bcast_S_S2x1x1024 (constant S_ .f32 0x42800000#32))

/-- the unbiased variance of each column: the centred squares summed over `64 - 1` (the count is positive, so the
    not-a-number alternative is never taken) -/
def var (x : (⟨S2x64x1024, .f32⟩ : BufTy).Contents (Elt F)) : (⟨S2x1x1024, .f32⟩ : BufTy).Contents (Elt F) :=
  select
    (broadcastInDim S2x1x1024 ![] bcast_S_S2x1x1024
      (cmpf .ogt (subf (constant S_ .f32 0x42800000#32) (sitofp .f32 (constantI S_ 32 1#32)) : (⟨S_, .f32⟩ : BufTy).Contents (Elt F))
        (constant S_ .f32 0x00000000#32)))
    (Host.divf
      (broadcastInDim S2x1x1024 ![0, 2] bcast_S2x1024_S2x1x1024_0_2
        (Host.reduceAdd (mulf (subf x (broadcastInDim S2x64x1024 ![0, 1, 2] bcast_S2x1x1024_S2x64x1024_0_1_2 (mean x))) (subf x (broadcastInDim S2x64x1024 ![0, 1, 2] bcast_S2x1x1024_S2x64x1024_0_1_2 (mean x)))) (constant S_ .f32 0x00000000#32) reducesTo_S2x64x1024_S2x1024_d1 h_S_))
      (broadcastInDim S2x1x1024 ![] bcast_S_S2x1x1024
        (subf (constant S_ .f32 0x42800000#32) (sitofp .f32 (constantI S_ 32 1#32)) : (⟨S_, .f32⟩ : BufTy).Contents (Elt F))))
    (broadcastInDim S2x1x1024 ![] bcast_S_S2x1x1024 (id (constant S_ .f32 0x7FC00000#32 : (⟨S_, .f32⟩ : BufTy).Contents (Elt F))))

/-- each column normalised to zero mean and unit standard deviation -/
def zn (x : (⟨S2x64x1024, .f32⟩ : BufTy).Contents (Elt F)) : (⟨S2x64x1024, .f32⟩ : BufTy).Contents (Elt F) :=
  Host.divf
    (subf x (broadcastInDim S2x64x1024 ![0, 1, 2] bcast_S2x1x1024_S2x64x1024_0_1_2 (mean x)))
    (broadcastInDim S2x64x1024 ![0, 1, 2] bcast_S2x1x1024_S2x64x1024_0_1_2 (Host.sqrt (var x)))

attribute [local irreducible] Host.reduce Host.reduceAdd Host.sqrt Host.exp Host.divf in
/-- the region's first operand is the normalised source descriptors -/
theorem V_main_v8 (c : Dev nD) : (V m c main_v8 : (⟨S2x64x1024, .f32⟩ : BufTy).Contents (Elt F)) = zn (m ((c : Thread nD τ).loc main_arg3)) := by
  dsimp only [V, V0]
  simp only [hostOps0, hostOps0_1, hostOps0_2, List.flatten_cons, List.flatten_nil, List.append_nil, List.cons_append, List.nil_append]
  after_results_simp
  rfl

/-- the three coordinate channels of the result array, channels first -/
def coordsOf (o : (⟨S2x1024x68, .f32⟩ : BufTy).Contents (Elt F)) : (⟨S2x3x1024, .f32⟩ : BufTy).Contents (Elt F) :=
  transpose S2x3x1024 [0, 2, 1] (extractStridedSlice S2x1024x3 ![0, 0, 0] o slices_S2x1024x68_S2x1024x3_0_0_0) transposes_S2x1024x3_S2x3x1024_0_2_1

/-- the weight channel of the result array, channels first -/
def weightsOf (o : (⟨S2x1024x68, .f32⟩ : BufTy).Contents (Elt F)) : (⟨S2x1x1024, .f32⟩ : BufTy).Contents (Elt F) :=
  transpose S2x1x1024 [0, 2, 1] (extractStridedSlice S2x1024x1 ![0, 0, 3] o slices_S2x1024x68_S2x1024x1_0_0_3) transposes_S2x1024x1_S2x1x1024_0_2_1

/-- the 64 descriptor channels of the result array, channels first (before their normalisation) -/
def descOf (o : (⟨S2x1024x68, .f32⟩ : BufTy).Contents (Elt F)) : (⟨S2x64x1024, .f32⟩ : BufTy).Contents (Elt F) :=
  transpose S2x64x1024 [0, 2, 1] (extractStridedSlice S2x1024x64 ![0, 0, 4] o slices_S2x1024x68_S2x1024x64_0_0_4) transposes_S2x1024x64_S2x64x1024_0_2_1

attribute [local irreducible] Host.reduce Host.reduceAdd Host.sqrt Host.exp Host.divf in
/-- after the tail, `v13` holds the coordinate channels of the region's result, channels first -/
theorem tail_v13 (c : Dev nD) :
    Pipeline.afterTail₀ cfgs (dats m) 0 (V0 m) [hostOps1, hostOps1_1, hostOps1_2] c main_v13 = coordsOf (result m c) := by
  unfold Pipeline.afterTail₀
  simp only [hostOps1, hostOps1_1, hostOps1_2, List.flatten_cons, List.flatten_nil, List.append_nil, List.cons_append, List.nil_append]
  after_results_simp
  rw [show Pipeline.withArrays (cfgs 0).spec c (V0 m c) (fun w => (dats m 0 c).arrAt w (cfgs 0).N) (Proc.tc.devRef main_v9) = result m c from
    (Pipeline.withArrays_arr spec0 launch0.win.arr_inj c (V0 m c) (fun w => (dats m 0 c).arrAt w cfg0.N) 4).trans (final m c)]
  rfl

attribute [local irreducible] Host.reduce Host.reduceAdd Host.sqrt Host.exp Host.divf in
/-- after the tail, `v14` holds the weight channel of the region's result, channels first -/
theorem tail_v14 (c : Dev nD) :
    Pipeline.afterTail₀ cfgs (dats m) 0 (V0 m) [hostOps1, hostOps1_1, hostOps1_2] c main_v14 = weightsOf (result m c) := by
  unfold Pipeline.afterTail₀
  simp only [hostOps1, hostOps1_1, hostOps1_2, List.flatten_cons, List.flatten_nil, List.append_nil, List.cons_append, List.nil_append]
  after_results_simp
  rw [show Pipeline.withArrays (cfgs 0).spec c (V0 m c) (fun w => (dats m 0 c).arrAt w (cfgs 0).N) (Proc.tc.devRef main_v9) = result m c from
    (Pipeline.withArrays_arr spec0 launch0.win.arr_inj c (V0 m c) (fun w => (dats m 0 c).arrAt w cfg0.N) 4).trans (final m c)]
  rfl

attribute [local irreducible] Host.reduce Host.reduceAdd Host.sqrt Host.exp Host.divf in
/-- after the tail, `v24` holds the descriptor channels of the region's result, channels first and normalised -/
theorem tail_v24 (c : Dev nD) :
    Pipeline.afterTail₀ cfgs (dats m) 0 (V0 m) [hostOps1, hostOps1_1, hostOps1_2] c main_v24 = zn (descOf (result m c)) := by
  unfold Pipeline.afterTail₀
  simp only [hostOps1, hostOps1_1, hostOps1_2, List.flatten_cons, List.flatten_nil, List.append_nil, List.cons_append, List.nil_append]
  after_results_simp
  rw [show Pipeline.withArrays (cfgs 0).spec c (V0 m c) (fun w => (dats m 0 c).arrAt w (cfgs 0).N) (Proc.tc.devRef main_v9) = result m c from
    (Pipeline.withArrays_arr spec0 launch0.win.arr_inj c (V0 m c) (fun w => (dats m 0 c).arrAt w cfg0.N) 4).trans (final m c)]
  rfl

/-- THE KERNEL PROGRAM'S RUN, READ: every weakly fair execution terminates with the three results at the tail's functions
    of the region's result array, and the five arguments unchanged. -/
theorem run (ρ : Dev nD → PrngReg) : θ_run defs (onTc (τ := τ) (main (F := F))) ⟨m, fun _ => 0, ρ⟩ (fun r => ∀ c : Dev nD,
      r.2.mem ((c.tc : Thread nD τ).loc main_v13) = coordsOf (result m c)
      ∧ r.2.mem ((c.tc : Thread nD τ).loc main_v14) = weightsOf (result m c)
      ∧ r.2.mem ((c.tc : Thread nD τ).loc main_v24) = zn (descOf (result m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v13 (Pipeline.mem_restRefs_of main_v13 (by decide) (by decide))).trans (tail_v13 m c),
     ((h c).2 main_v14 (Pipeline.mem_restRefs_of main_v14 (by decide) (by decide))).trans (tail_v14 m c),
     ((h c).2 main_v24 (Pipeline.mem_restRefs_of main_v24 (by decide) (by decide))).trans (tail_v24 m c),
     (((h c).2 main_arg0 (Pipeline.mem_restRefs_of main_arg0 (by decide) (by decide))).trans (W_main_arg0 m (dats m) c)),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c))),
     (((h c).2 main_arg3 (Pipeline.mem_restRefs_of main_arg3 (by decide) (by decide))).trans (W_main_arg3 m (dats m) c)),
     ((h c).1 1).trans (((dats m 0 c).arrAt_in 1 rfl _).trans ((A_eq m c 1).trans (V_main_arg4 m c)))⟩)
    (run_main m ρ)

end Cert.KernelIdeal.KHost
end
-- ==== Proof.Spec.lean ====
import Mathlib.Analysis.SpecialFunctions.Exp
import Mathlib.Analysis.SpecialFunctions.Sqrt

/-!
  The mathematics both programs compute, over the reals.

  A descriptor column `x : Fin 64 → ℝ` is normalised to zero mean and unit (unbiased) standard deviation over its 64
  channels. The score of a source column against a target column is the inner product of their normalisations, scaled:
  one program divides by 64 and then by the temperature `D`, the other multiplies by the single constant `1 / (64 · D)`;
  `D` is the binary fraction 5368709 / 2^28. Each source's scores against the 16384 targets are turned into softmax
  weights, and the outputs are the weighted averages of the targets' coordinates, weights and raw descriptors.
-/

noncomputable section

namespace Matcher

/-- the temperature as the reference holds it: 5368709 / 2^28 -/
def D : ℝ := 5368709 / 268435456

/-- the single scale constant of the other program, `1 / (64 · D)` -/
def κ : ℝ := 4194304 / 5368709

theorem D_pos : 0 < D := by unfold D; norm_num
theorem κ_eq : κ = 1 / (64 * D) := by unfold κ D; norm_num

/-- the mean of a column over its 64 channels -/
def mean (x : Fin 64 → ℝ) : ℝ := (∑ c, x c) / 64

/-- the unbiased variance of a column: the centred squares summed, over 63 -/
def var (x : Fin 64 → ℝ) : ℝ := (∑ c, (x c - mean x) * (x c - mean x)) / 63

/-- the unbiased standard deviation of a column -/
def sd (x : Fin 64 → ℝ) : ℝ := Real.sqrt (var x)

theorem var_nonneg (x : Fin 64 → ℝ) : 0 ≤ var x :=
  div_nonneg (Finset.sum_nonneg fun c _ => mul_self_nonneg _) (by norm_num)

/-- a column normalised to zero mean and unit standard deviation -/
def zn (x : Fin 64 → ℝ) (c : Fin 64) : ℝ := (x c - mean x) / sd x

/-- the inner product of two normalised columns -/
def dot (q k : Fin 64 → ℝ) : ℝ := ∑ c, zn q c * zn k c

/-- the score as one program spells it: the inner product times the single constant -/
def score (q k : Fin 64 → ℝ) : ℝ := dot q k * κ

/-- the score as the other spells it: over 64, then over the temperature -/
def scoreRef (q k : Fin 64 → ℝ) : ℝ := dot q k / 64 / D

/-- the two spellings are one number: `κ = 1 / (64 · D)` -/
theorem score_eq_scoreRef (q k : Fin 64 → ℝ) : score q k = scoreRef q k := by
  unfold score scoreRef
  rw [κ_eq]
  have hD : D ≠ 0 := ne_of_gt D_pos
  field_simp

/-- the softmax-weighted average of values `v` under scores `s` over a nonempty finite set of targets -/
def avg {ι : Type*} (I : Finset ι) (hI : I.Nonempty) (s v : ι → ℝ) : ℝ :=
  ∑ i ∈ I, v i * (Real.exp (s i - I.sup' hI s) / ∑ j ∈ I, Real.exp (s j - I.sup' hI s))

end Matcher

end
-- ==== Proof.LibIdealReal.lean ====
import Idealize.ShloMosaic.PureOps.Ideal

/-!
# The extended-real operations on finite reals

A real number `x` sits in the extended reals `[-∞, +∞]` as its coercion `(x : EReal)`.  On such
values the extended-real division, square root and exponential are the coercions of the real
operations (division off zero, the square root off the negatives), finite sums and finite
suprema commute with the coercion, and `-∞` is the unit of `max`, so the maximum of finitely
many coerced reals, folded from `-∞`, is the coercion of their real supremum.
-/

namespace IdealReal

open Idealize.ShloMosaic

/-- dividing a real by a nonzero real in the extended reals gives the real quotient -/
theorem div_coe_coe (x y : ℝ) (hy : y ≠ 0) :
    Ideal.div (x : EReal) (y : EReal) = ((x / y : ℝ) : EReal) := by
  rw [Ideal.div_coe hy, ← EReal.coe_mul, mul_one_div]

/-- the extended-real square root of a nonnegative real is the real square root -/
theorem sqrt_coe (x : ℝ) (hx : 0 ≤ x) :
    Ideal.sqrt (x : EReal) = ((Real.sqrt x : ℝ) : EReal) := by
  rw [Ideal.sqrt_coe, if_neg (not_lt.mpr hx)]

/-- the extended-real exponential of a real is the real exponential -/
theorem exp_coe (x : ℝ) : Ideal.exp (x : EReal) = ((Real.exp x : ℝ) : EReal) := rfl

/-- the exponential of `-∞` is `0` -/
theorem exp_bot : Ideal.exp (⊥ : EReal) = 0 := rfl

/-- the coercion of a finite sum of reals is the sum of the coercions -/
theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `-∞` is the unit of `max` on the extended reals -/
theorem bot_max (x : EReal) : max ⊥ x = x := max_eq_right bot_le

/-- the maximum of two coerced reals is the coercion of their real maximum -/
theorem coe_max (x y : ℝ) : max (x : EReal) (y : EReal) = ((max x y : ℝ) : EReal) :=
  (EReal.coe_strictMono.monotone.map_max).symm

/-- the coercion of the supremum of finitely many reals is the supremum of the coercions -/
theorem coe_sup' {α : Type*} (s : Finset α) (hs : s.Nonempty) (f : α → ℝ) :
    ((s.sup' hs f : ℝ) : EReal) = s.sup' hs (fun i => (f i : EReal)) :=
  Finset.comp_sup'_eq_sup'_comp hs (fun x : ℝ => (x : EReal)) fun x y => (coe_max x y).symm

/-- a maximum folded from `-∞` over a finite set is the supremum over that set -/
theorem fold_max_bot_eq_sup {α : Type*} (s : Finset α) (g : α → EReal) :
    s.fold max ⊥ g = s.sup g := rfl

/-- the maximum, folded from `-∞`, of finitely many (at least one) coerced reals is the
coercion of their real supremum -/
theorem fold_max_eq_sup' {α : Type*} (s : Finset α) (hs : s.Nonempty) (f : α → ℝ) :
    s.fold max ⊥ (fun i => (f i : EReal)) = ((s.sup' hs f : ℝ) : EReal) := by
  rw [fold_max_bot_eq_sup, ← Finset.sup'_eq_sup hs, coe_sup']

/-- the same, for extended reals that agree on the set with coerced reals -/
theorem fold_max_eq_sup'_of_eq {α : Type*} (s : Finset α) (hs : s.Nonempty) (g : α → EReal)
    (f : α → ℝ) (hg : ∀ i ∈ s, g i = (f i : EReal)) :
    s.fold max ⊥ g = ((s.sup' hs f : ℝ) : EReal) := by
  rw [Finset.fold_congr hg, fold_max_eq_sup' s hs f]

/-- the same over all of a nonempty finite type -/
theorem fold_max_univ_eq_sup' {α : Type*} [Fintype α] [Nonempty α] (f : α → ℝ) :
    (Finset.univ : Finset α).fold max ⊥ (fun i => (f i : EReal))
      = ((Finset.univ.sup' Finset.univ_nonempty f : ℝ) : EReal) :=
  fold_max_eq_sup' Finset.univ Finset.univ_nonempty f

end IdealReal
-- ==== Proof.KPay.lean ====
import proofs.«109630_j50577534877890_2_alg».proof.Proof.Gen.KernelIdeal.Skeleton
import proofs.«109630_j50577534877890_2_alg».proof.Proof.Spec
import proofs.«109630_j50577534877890_2_alg».proof.Proof.LibIdealReal
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

/-!
# The kernel body's arithmetic, read at an index, on the extended reals

Each value the body computes is a function of the values read before it; here each is read at one
index, written with explicit coordinates, as the extended-real expression it denotes.
-/

noncomputable section

namespace Cert.KernelIdeal.KPay

open Idealize.ShloMosaic Idealize.ShloMosaic.ValueIdx Cert.KernelIdeal Cert.KernelIdeal.Gen

/-! ### Layout operations on columns -/

/-- a column `[a, 1]` broadcast to `[a, b]` reads, at `(p, c)`, the column's entry at `p` -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- a vector `[a]` cast to the column `[a, 1]` reads, at `(p, u)`, the vector's entry at `p` -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- the index of a `[1024, 2048]` array over row `n` with column `i` inserted is `(n, i)` -/
theorem lift_row (n : Fin 1024) (i : Fin 2048) :
    reduces_S1024x2048_S1024.lift (ix1 n) i = ix2 n i := by
  funext c
  apply Fin.ext
  fin_cases c <;> rfl

/-- the index of a `[64, 2048]` array over column `i` with channel `c` inserted is `(c, i)` -/
theorem lift_col (i : Fin 2048) (c : Fin 64) :
    reduces_S64x2048_S2048.lift (ix1 i) c = ix2 c i := by
  funext a
  apply Fin.ext
  fin_cases a <;> rfl

/-- the pattern of `-∞` denotes `⊥` -/
theorem ofBits_neg_inf : Ideal.ofBits .f32 0xFF800000#32 = ⊥ := by
  simp [Ideal.ofBits, Ideal.ieee]

/-! ### The constant and re-laid-out values -/

/-- a cast to the same shape is the identity -/
theorem pay4 (v31 : Vec Ideal S1024x1 .f32) : k0_pay4 (F := Ideal) v31 = v31 := by
  unfold k0_pay4
  exact shapeCast_self _ _

/-- the initial running maximum is `-∞` -/
theorem pay6 (n : Fin 1024) : k0_pay6 (F := Ideal) (ix2 n 0) = ⊥ := by
  unfold k0_pay6
  rw [shapeCast_self]
  exact ofBits_neg_inf

/-- the initial running sum is `0` -/
theorem pay7 (n : Fin 1024) : k0_pay7 (F := Ideal) (ix2 n 0) = 0 := by
  unfold k0_pay7
  rw [shapeCast_self]
  exact Ideal.ofBits_zero_f32

/-- the initial running weighted sums are `0` -/
theorem pay8 (n : Fin 1024) (j : Fin 68) : k0_pay8 (F := Ideal) (ix2 n j) = 0 := by
  unfold k0_pay8
  rw [shapeCast_self]
  exact Ideal.ofBits_zero_f32

/-- the block of target descriptors with its leading unit axis dropped -/
theorem pay9 (v5 : Vec Ideal S1x64x2048 .f32) (c : Fin 64) (i : Fin 2048) :
    k0_pay9 (F := Ideal) v5 (ix2 c i) = v5 (ix3 0 c i) := by
  unfold k0_pay9
  exact shapeCast_1ab_ab_apply v5 _ c i

/-- the block of target coordinates with its leading unit axis dropped -/
theorem pay10 (v7 : Vec Ideal S1x3x2048 .f32) (j : Fin 3) (i : Fin 2048) :
    k0_pay10 (F := Ideal) v7 (ix2 j i) = v7 (ix3 0 j i) := by
  unfold k0_pay10
  exact shapeCast_1ab_ab_apply v7 _ j i

/-- the block of target weights with its leading unit axis dropped -/
theorem pay11 (v9 : Vec Ideal S1x1x2048 .f32) (i : Fin 2048) :
    k0_pay11 (F := Ideal) v9 (ix2 0 i) = v9 (ix3 0 0 i) := by
  unfold k0_pay11
  exact shapeCast_1ab_ab_apply v9 _ 0 i

/-! ### One step of the running maximum, sum and weights -/

/-- the weights of a block: the exponentials of the scores shifted by the row's maximum -/
theorem pay1 (v27 : Vec Ideal S1024x2048 .f32) (v31 : Vec Ideal S1024x1 .f32) (n : Fin 1024)
    (i : Fin 2048) :
    k0_pay1 (F := Ideal) v27 v31 (ix2 n i) = Ideal.exp (v27 (ix2 n i) - v31 (ix2 n 0)) := by
  unfold k0_pay1
  show Ideal.exp (v27 (ix2 n i) - broadcastTo S1024x2048 v31 _ (ix2 n i)) = _
  rw [broadcastTo_a1_ab_apply v31 _ n i]

/-- the factor that rescales a row's running sums when its maximum grows -/
theorem pay14 (v3 : Vec Ideal S1x64x1024 .f32) (v5 : Vec Ideal S1x64x2048 .f32)
    (v28 : Vec Ideal S1024x1 .f32) (n : Fin 1024) :
    k0_pay14 (F := Ideal) v3 v5 v28 (ix2 n 0)
      = Ideal.exp (v28 (ix2 n 0) - k0_pay13 (F := Ideal) v3 v5 v28 (ix2 n 0)) := by
  unfold k0_pay14
  rfl

/-- the new running sum of a row: the rescaled old one plus the block's weights -/
theorem pay2 (v27 : Vec Ideal S1024x2048 .f32) (v31 v33 v37 : Vec Ideal S1024x1 .f32)
    (n : Fin 1024) :
    k0_pay2 (F := Ideal) v27 v31 v33 v37 (ix2 n 0)
      = v33 (ix2 n 0) * v37 (ix2 n 0) + ∑ i : Fin 2048, k0_pay1 (F := Ideal) v27 v31 (ix2 n i) := by
  unfold k0_pay2
  rw [shapeCast_self]
  show v33 (ix2 n 0) * v37 (ix2 n 0) + shapeCast S1024x1 _ _ (ix2 n 0) = _
  rw [shapeCast_a_a1_apply _ _ n 0]
  refine congrArg (v33 (ix2 n 0) * v37 (ix2 n 0) + ·) ?_
  refine (Ideal.multiReduction_add_single (k0_pay1 (F := Ideal) v27 v31) 0x00000000#32
    reduces_S1024x2048_S1024 (.inl rfl) rfl (ix1 n)).trans ?_
  show ∑ i : Fin 2048, k0_pay1 (F := Ideal) v27 v31 (reduces_S1024x2048_S1024.lift (ix1 n) i) = _
  exact Finset.sum_congr rfl fun i _ => by rw [lift_row n i]

/-- the final quotient: the running weighted sums over the running sum -/
theorem pay5 (v62 : Vec Ideal S1024x68 .f32) (v63 : Vec Ideal S1024x1 .f32) (n : Fin 1024)
    (j : Fin 68) :
    k0_pay5 (F := Ideal) v62 v63 (ix3 0 n j) = Ideal.div (v62 (ix2 n j)) (v63 (ix2 n 0)) := by
  unfold k0_pay5
  rw [shapeCast_ab_1ab_apply _ _ 0 n j]
  show Ideal.div (v62 (ix2 n j)) (broadcastTo S1024x68 v63 _ (ix2 n j)) = _
  rw [broadcastTo_a1_ab_apply v63 _ n j]

end Cert.KernelIdeal.KPay

end
-- ==== Proof.KPay12.lean ====
/-
  The kernel body's score tile read at an index, at the ideal instance (a float an extended real, every operation
  exact), for a source tile and a target tile whose entries are coerced reals: the target tile is normalised in the
  body (the deviation from the column's mean over the square root of its unbiased variance), multiplied into the
  source tile over the channel axis, and scaled by one named constant; entry (n, i) is the coercion of the real
  inner product times that constant.
-/
import proofs.«109630_j50577534877890_2_alg».proof.Proof.Gen.KernelIdeal.Skeleton
import proofs.«109630_j50577534877890_2_alg».proof.Proof.Spec
import proofs.«109630_j50577534877890_2_alg».proof.Proof.LibIdealReal
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.KPay

open Idealize.ShloMosaic Idealize.ShloMosaic.ValueIdx Cert.KernelIdeal Cert.KernelIdeal.Gen

/-! ## The constants the body spells -/

/-- `64.0` denotes the real 64, `63.0` the real 63. -/
theorem ofBits_64 : Ideal.ofBits .f32 0x42800000#32 = ((64 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num

/-- The named scale constant denotes the rational the certificate's table gives it. -/
theorem inv_c_temp :
    Named.named (F := Ideal) κ "inv_c_temp" (φ := .f32) 0x3F480000#32 = ((4194304 / 5368709 : ℝ) : EReal) :=
  IdealRules.named_const.ideal_named_scalar _ _ _ _ rfl

/-! ## The body's normalisation of the target tile, statement by statement -/

/-- The column means, kept as one row: the sum over the 64 channels, divided by 64. -/
def kmean (v6 : FVec Ideal S64x2048 .f32) : FVec Ideal S1x2048 .f32 :=
  divf
    (shapeCast S1x2048 (multiReduction (F := Ideal) .add [0] S2048 v6 0x00000000#32 reduces_S64x2048_S2048 (.inl rfl) rfl)
      shapeCasts_S2048_S1x2048)
    (broadcast S1x2048 (Scalar.ofBits (F := Ideal) .f32 0x42800000#32))

/-- The deviations from the column means. -/
def kdev (v6 : FVec Ideal S64x2048 .f32) : FVec Ideal S64x2048 .f32 :=
  subf v6 (broadcastTo S64x2048 (kmean v6) broadcasts_S1x2048_S64x2048)

/-- The unbiased column variances, kept as one row: the squared deviations summed, divided by 63. -/
def kvar (v6 : FVec Ideal S64x2048 .f32) : FVec Ideal S1x2048 .f32 :=
  divf
    (shapeCast S1x2048
      (multiReduction (F := Ideal) .add [0] S2048 (mulf (kdev v6) (kdev v6)) 0x00000000#32 reduces_S64x2048_S2048 (.inl rfl) rfl)
      shapeCasts_S2048_S1x2048)
    (broadcast S1x2048 (Scalar.ofBits (F := Ideal) .f32 0x427C0000#32))

/-- The normalised target tile: each deviation over its column's standard deviation. -/
def kn (v6 : FVec Ideal S64x2048 .f32) : FVec Ideal S64x2048 .f32 :=
  divf (kdev v6) (broadcastTo S64x2048 (Idealize.ShloMosaic.sqrt (kvar v6)) broadcasts_S1x2048_S64x2048)

/-- A sum over the channel axis read at column i: the sum over the 64 channels. -/
theorem colsum_apply (x : FVec Ideal S64x2048 .f32) (hacc : (0x00000000#32 : BitVec 32) = 0x00000000#32) (i : Fin 2048) :
    multiReduction (F := Ideal) .add [0] S2048 x 0x00000000#32 reduces_S64x2048_S2048 (.inl rfl) hacc (ix1 i)
      = ∑ c : Fin 64, x (ix2 c i) :=
  (Ideal.multiReduction_add_single x 0x00000000#32 reduces_S64x2048_S2048 (.inl rfl) hacc (ix1 i)).trans
    (Finset.sum_congr rfl fun k _ => congrArg x (by
      funext c; apply Fin.ext
      fin_cases c <;> rfl))

section
variable (k : Fin 64 → Fin 2048 → ℝ) (v6 : FVec Ideal S64x2048 .f32)
  (hv : ∀ c i, v6 (ix2 c i) = ((k c i : ℝ) : EReal))
include hv

/-- The mean of column i, read at (0, i). -/
theorem kmean_apply (u : Fin 1) (i : Fin 2048) :
    kmean v6 (ix2 u i) = ((Matcher.mean (fun c => k c i) : ℝ) : EReal) := by
  unfold kmean
  rw [divf_apply, shapeCast_a_1a_apply, broadcast_apply, colsum_apply]
  simp only [hv]
  rw [← IdealReal.coe_sum]
  show Ideal.div _ (Ideal.ofBits .f32 0x42800000#32) = _
  rw [ofBits_64, IdealReal.div_coe_coe _ _ (by norm_num)]
  rfl

/-- The deviation from the mean, read at (c, i). -/
theorem kdev_apply (c : Fin 64) (i : Fin 2048) :
    kdev v6 (ix2 c i) = ((k c i - Matcher.mean (fun c => k c i) : ℝ) : EReal) := by
  unfold kdev
  rw [subf_apply, broadcastTo_1b_ab_apply, kmean_apply k v6 hv, hv, ← EReal.coe_sub]

/-- The unbiased variance of column i, read at (0, i). -/
theorem kvar_apply (u : Fin 1) (i : Fin 2048) :
    kvar v6 (ix2 u i) = ((Matcher.var (fun c => k c i) : ℝ) : EReal) := by
  unfold kvar
  rw [divf_apply, shapeCast_a_1a_apply, broadcast_apply, colsum_apply]
  simp only [mulf_apply, kdev_apply k v6 hv, ← EReal.coe_mul]
  rw [← IdealReal.coe_sum]
  show Ideal.div _ (Ideal.ofBits .f32 0x427C0000#32) = _
  rw [ofBits_63, IdealReal.div_coe_coe _ _ (by norm_num)]
  rfl

/-- The normalised column, read at (c, i): the coercion of the real normalisation, the standard deviation positive. -/
theorem kn_apply (hsd : ∀ i, 0 < Matcher.sd (fun c => k c i)) (c : Fin 64) (i : Fin 2048) :
    kn v6 (ix2 c i) = ((Matcher.zn (fun c => k c i) c : ℝ) : EReal) := by
  unfold kn
  rw [divf_apply, broadcastTo_1b_ab_apply, kdev_apply k v6 hv]
  show Ideal.div _ (Ideal.sqrt (kvar v6 (ix2 (0 : Fin 1) i))) = _
  rw [kvar_apply k v6 hv, IdealReal.sqrt_coe _ (Matcher.var_nonneg _),
    IdealReal.div_coe_coe _ _ (ne_of_gt (show 0 < Real.sqrt (Matcher.var fun c => k c i) from hsd i))]
  rfl

end

/-! ## The product over the channel axis, read at an index -/

theorem mm_lhs_0 (i : S1024x2048.Idx) (q : dot_S64x1024_S64x2048_S1024x2048_0_0_1_1_n_n.contr.Idx) :
    (dot_S64x1024_S64x2048_S1024x2048_0_0_1_1_n_n.lhsIdx i q 0).val = (q ⟨0, by decide⟩).val :=
  dot_S64x1024_S64x2048_S1024x2048_0_0_1_1_n_n.lhsIdx_val_of_single rfl i q
theorem mm_lhs_1 (i : S1024x2048.Idx) (q : dot_S64x1024_S64x2048_S1024x2048_0_0_1_1_n_n.contr.Idx) :
    (dot_S64x1024_S64x2048_S1024x2048_0_0_1_1_n_n.lhsIdx i q 1).val = (i 0).val := by
  unfold DotDims.lhsIdx
  rw [dif_neg (show ¬(1 : Fin S64x1024.rank) ∈ dot_S64x1024_S64x2048_S1024x2048_0_0_1_1_n_n.lhsBatch by decide), dif_pos (show (1 : Fin S64x1024.rank) ∈ dot_S64x1024_S64x2048_S1024x2048_0_0_1_1_n_n.lhsNonContracting by decide)]
  rfl
theorem mm_rhs_0 (i : S1024x2048.Idx) (q : dot_S64x1024_S64x2048_S1024x2048_0_0_1_1_n_n.contr.Idx) :
    (dot_S64x1024_S64x2048_S1024x2048_0_0_1_1_n_n.rhsIdx i q 0).val = (q ⟨0, by decide⟩).val :=
  dot_S64x1024_S64x2048_S1024x2048_0_0_1_1_n_n.rhsIdx_val_of_single rfl i q
theorem mm_rhs_1 (i : S1024x2048.Idx) (q : dot_S64x1024_S64x2048_S1024x2048_0_0_1_1_n_n.contr.Idx) :
    (dot_S64x1024_S64x2048_S1024x2048_0_0_1_1_n_n.rhsIdx i q 1).val = (i 1).val := by
  unfold DotDims.rhsIdx
  rw [dif_neg (show ¬(1 : Fin S64x2048.rank) ∈ dot_S64x1024_S64x2048_S1024x2048_0_0_1_1_n_n.rhsBatch by decide), dif_pos (show (1 : Fin S64x2048.rank) ∈ dot_S64x1024_S64x2048_S1024x2048_0_0_1_1_n_n.rhsNonContracting by decide)]
  rfl

/-- The product into a zero accumulator, read at (n, i): the sum over the 64 channels of the operands' products. -/
theorem mm_apply (x : FVec Ideal S64x1024 .f32) (y : FVec Ideal S64x2048 .f32) (n : Fin 1024) (i : Fin 2048) :
    matmul dot_S64x1024_S64x2048_S1024x2048_0_0_1_1_n_n (some .fp32) x y (constant (F := Ideal) S1024x2048 .f32 0x00000000#32) (ix2 n i)
      = ∑ c : Fin 64, x (ix2 c n) * y (ix2 c i) := by
  simp only [matmul]
  rw [Ideal.matmul_constant_zero_apply, ← Equiv.sum_comp (contrEquiv1 dot_S64x1024_S64x2048_S1024x2048_0_0_1_1_n_n 64 rfl rfl).symm]
  refine Finset.sum_congr rfl fun c _ => ?_
  have hk := contrEquiv1_symm_val dot_S64x1024_S64x2048_S1024x2048_0_0_1_1_n_n 64 rfl rfl c
  have el : dot_S64x1024_S64x2048_S1024x2048_0_0_1_1_n_n.lhsIdx (ix2 n i) ((contrEquiv1 dot_S64x1024_S64x2048_S1024x2048_0_0_1_1_n_n 64 rfl rfl).symm c) = ix2 c n := funext fun a => Fin.ext (by
    match a with
    | ⟨0, _⟩ => exact (mm_lhs_0 _ _).trans hk
    | ⟨1, _⟩ => exact mm_lhs_1 _ _)
  have er : dot_S64x1024_S64x2048_S1024x2048_0_0_1_1_n_n.rhsIdx (ix2 n i) ((contrEquiv1 dot_S64x1024_S64x2048_S1024x2048_0_0_1_1_n_n 64 rfl rfl).symm c) = ix2 c i := funext fun a => Fin.ext (by
    match a with
    | ⟨0, _⟩ => exact (mm_rhs_0 _ _).trans hk
    | ⟨1, _⟩ => exact mm_rhs_1 _ _)
  rw [el, er]

/-! ## The score tile -/

/-- The body's score tile is the product of the source tile with the normalised target tile, scaled by the named
    constant: the definitions' bindings substituted. -/
theorem pay12_eq (v3 : Vec Ideal S1x64x1024 .f32) (v5 : Vec Ideal S1x64x2048 .f32) :
    k0_pay12 (F := Ideal) v3 v5
      = mulf
          (matmul (φ₁ := .f32) (φ₂ := .f32) dot_S64x1024_S64x2048_S1024x2048_0_0_1_1_n_n (some .fp32) (shapeCast S64x1024 v3 shapeCasts_S1x64x1024_S64x1024)
            (kn (shapeCast S64x2048 v5 shapeCasts_S1x64x2048_S64x2048)) (constant (F := Ideal) S1024x2048 .f32 0x00000000#32))
          (broadcast S1024x2048 (Named.named (F := Ideal) κ "inv_c_temp" (φ := .f32) 0x3F480000#32)) := rfl

/-- The score tile read at (n, i): the inner product of the source column with the normalised target column, times
    the single scale constant. -/
theorem pay12 (v3 : Vec Ideal S1x64x1024 .f32) (v5 : Vec Ideal S1x64x2048 .f32) (q : Fin 64 → Fin 1024 → ℝ) (k : Fin 64 → Fin 2048 → ℝ)
    (hq : ∀ c n, v3 (ix3 (0 : Fin 1) c n) = ((q c n : ℝ) : EReal)) (hk : ∀ c i, v5 (ix3 (0 : Fin 1) c i) = ((k c i : ℝ) : EReal))
    (hsd : ∀ i, 0 < Matcher.sd (fun c => k c i)) (n : Fin 1024) (i : Fin 2048) :
    k0_pay12 (F := Ideal) v3 v5 (ix2 n i) = (((∑ c : Fin 64, q c n * Matcher.zn (fun c => k c i) c) * Matcher.κ : ℝ) : EReal) := by
  have hv : ∀ c i, (shapeCast S64x2048 v5 shapeCasts_S1x64x2048_S64x2048 : FVec Ideal S64x2048 .f32) (ix2 c i) = ((k c i : ℝ) : EReal) :=
    fun c i => (shapeCast_1ab_ab_apply v5 _ c i).trans (hk c i)
  rw [pay12_eq, mulf_apply, broadcast_apply, inv_c_temp, mm_apply]
  simp only [shapeCast_1ab_ab_apply, hq, kn_apply k _ hv hsd, ← EReal.coe_mul]
  rw [← IdealReal.coe_sum, ← EReal.coe_mul]
  rfl

end Cert.KernelIdeal.KPay

end
-- ==== Proof.KPay3.lean ====
/-
  The kernel body's accumulator update read at an index, at the ideal instance: the three products of the shifted
  exponentials with the target tiles (three coordinate rows, one weight row, sixty-four descriptor rows), laid side
  by side along the columns, added to the rescaled previous accumulator. Column j of row n reads the product whose
  span of columns holds j: the sum over the 2048 targets of the exponential at (n, i) times that tile's row at i.
-/
import proofs.«109630_j50577534877890_2_alg».proof.Proof.Gen.KernelIdeal.Skeleton
import proofs.«109630_j50577534877890_2_alg».proof.Proof.Spec
import proofs.«109630_j50577534877890_2_alg».proof.Proof.LibIdealReal
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.KPay

open Idealize.ShloMosaic Idealize.ShloMosaic.ValueIdx Cert.KernelIdeal Cert.KernelIdeal.Gen

/-! ## The three products over the target axis, read at an index -/

/-! ### The exponentials against the sixty-four descriptor rows -/

theorem mmD_lhs_0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
theorem mmD_lhs_1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
theorem mmD_rhs_0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
theorem mmD_rhs_1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- The product into a zero accumulator, read at (n, c): the sum over the 2048 targets of the operands' products. -/
theorem mmD_apply (x : FVec Ideal S1024x2048 .f32) (y : FVec Ideal S64x2048 .f32) (n : Fin 1024) (c : Fin 64) :
    matmul dot_S1024x2048_S64x2048_S1024x64_1_1_0_0_n_n (some .fp32) x y (constant (F := Ideal) S1024x64 .f32 0x00000000#32) (ix2 n c)
      = ∑ i : Fin 2048, x (ix2 n i) * y (ix2 c i) := by
  simp only [matmul]
  rw [Ideal.matmul_constant_zero_apply, ← Equiv.sum_comp (contrEquiv1 dot_S1024x2048_S64x2048_S1024x64_1_1_0_0_n_n 2048 rfl rfl).symm]
  refine Finset.sum_congr rfl fun i _ => ?_
  have hk := contrEquiv1_symm_val dot_S1024x2048_S64x2048_S1024x64_1_1_0_0_n_n 2048 rfl rfl i
  have el : dot_S1024x2048_S64x2048_S1024x64_1_1_0_0_n_n.lhsIdx (ix2 n c) ((contrEquiv1 dot_S1024x2048_S64x2048_S1024x64_1_1_0_0_n_n 2048 rfl rfl).symm i) = ix2 n i := funext fun a => Fin.ext (by
    match a with
    | ⟨0, _⟩ => exact mmD_lhs_0 _ _
    | ⟨1, _⟩ => exact (mmD_lhs_1 _ _).trans hk)
  have er : dot_S1024x2048_S64x2048_S1024x64_1_1_0_0_n_n.rhsIdx (ix2 n c) ((contrEquiv1 dot_S1024x2048_S64x2048_S1024x64_1_1_0_0_n_n 2048 rfl rfl).symm i) = ix2 c i := funext fun a => Fin.ext (by
    match a with
    | ⟨0, _⟩ => exact mmD_rhs_0 _ _
    | ⟨1, _⟩ => exact (mmD_rhs_1 _ _).trans hk)
  rw [el, er]

/-! ### The exponentials against the three coordinate rows -/

theorem mmC_lhs_0 (i : S1024x3.Idx) (q : dot_S1024x2048_S3x2048_S1024x3_1_1_0_0_n_n.contr.Idx) :
    (dot_S1024x2048_S3x2048_S1024x3_1_1_0_0_n_n.lhsIdx i q 0).val = (i 0).val := by
  unfold DotDims.lhsIdx
  rw [dif_neg (show ¬(0 : Fin S1024x2048.rank) ∈ dot_S1024x2048_S3x2048_S1024x3_1_1_0_0_n_n.lhsBatch by decide), dif_pos (show (0 : Fin S1024x2048.rank) ∈ dot_S1024x2048_S3x2048_S1024x3_1_1_0_0_n_n.lhsNonContracting by decide)]
  rfl
theorem mmC_lhs_1 (i : S1024x3.Idx) (q : dot_S1024x2048_S3x2048_S1024x3_1_1_0_0_n_n.contr.Idx) :
    (dot_S1024x2048_S3x2048_S1024x3_1_1_0_0_n_n.lhsIdx i q 1).val = (q ⟨0, by decide⟩).val :=
  dot_S1024x2048_S3x2048_S1024x3_1_1_0_0_n_n.lhsIdx_val_of_single rfl i q
theorem mmC_rhs_0 (i : S1024x3.Idx) (q : dot_S1024x2048_S3x2048_S1024x3_1_1_0_0_n_n.contr.Idx) :
    (dot_S1024x2048_S3x2048_S1024x3_1_1_0_0_n_n.rhsIdx i q 0).val = (i 1).val := by
  unfold DotDims.rhsIdx
  rw [dif_neg (show ¬(0 : Fin S3x2048.rank) ∈ dot_S1024x2048_S3x2048_S1024x3_1_1_0_0_n_n.rhsBatch by decide), dif_pos (show (0 : Fin S3x2048.rank) ∈ dot_S1024x2048_S3x2048_S1024x3_1_1_0_0_n_n.rhsNonContracting by decide)]
  rfl
theorem mmC_rhs_1 (i : S1024x3.Idx) (q : dot_S1024x2048_S3x2048_S1024x3_1_1_0_0_n_n.contr.Idx) :
    (dot_S1024x2048_S3x2048_S1024x3_1_1_0_0_n_n.rhsIdx i q 1).val = (q ⟨0, by decide⟩).val :=
  dot_S1024x2048_S3x2048_S1024x3_1_1_0_0_n_n.rhsIdx_val_of_single rfl i q

/-- The product into a zero accumulator, read at (n, c): the sum over the 2048 targets of the operands' products. -/
theorem mmC_apply (x : FVec Ideal S1024x2048 .f32) (y : FVec Ideal S3x2048 .f32) (n : Fin 1024) (c : Fin 3) :
    matmul dot_S1024x2048_S3x2048_S1024x3_1_1_0_0_n_n (some .fp32) x y (constant (F := Ideal) S1024x3 .f32 0x00000000#32) (ix2 n c)
      = ∑ i : Fin 2048, x (ix2 n i) * y (ix2 c i) := by
  simp only [matmul]
  rw [Ideal.matmul_constant_zero_apply, ← Equiv.sum_comp (contrEquiv1 dot_S1024x2048_S3x2048_S1024x3_1_1_0_0_n_n 2048 rfl rfl).symm]
  refine Finset.sum_congr rfl fun i _ => ?_
  have hk := contrEquiv1_symm_val dot_S1024x2048_S3x2048_S1024x3_1_1_0_0_n_n 2048 rfl rfl i
  have el : dot_S1024x2048_S3x2048_S1024x3_1_1_0_0_n_n.lhsIdx (ix2 n c) ((contrEquiv1 dot_S1024x2048_S3x2048_S1024x3_1_1_0_0_n_n 2048 rfl rfl).symm i) = ix2 n i := funext fun a => Fin.ext (by
    match a with
    | ⟨0, _⟩ => exact mmC_lhs_0 _ _
    | ⟨1, _⟩ => exact (mmC_lhs_1 _ _).trans hk)
  have er : dot_S1024x2048_S3x2048_S1024x3_1_1_0_0_n_n.rhsIdx (ix2 n c) ((contrEquiv1 dot_S1024x2048_S3x2048_S1024x3_1_1_0_0_n_n 2048 rfl rfl).symm i) = ix2 c i := funext fun a => Fin.ext (by
    match a with
    | ⟨0, _⟩ => exact mmC_rhs_0 _ _
    | ⟨1, _⟩ => exact (mmC_rhs_1 _ _).trans hk)
  rw [el, er]

/-! ### The exponentials against the one weight row -/

theorem mmW_lhs_0 (i : S1024x1.Idx) (q : dot_S1024x2048_S1x2048_S1024x1_1_1_0_0_n_n.contr.Idx) :
    (dot_S1024x2048_S1x2048_S1024x1_1_1_0_0_n_n.lhsIdx i q 0).val = (i 0).val := by
  unfold DotDims.lhsIdx
  rw [dif_neg (show ¬(0 : Fin S1024x2048.rank) ∈ dot_S1024x2048_S1x2048_S1024x1_1_1_0_0_n_n.lhsBatch by decide), dif_pos (show (0 : Fin S1024x2048.rank) ∈ dot_S1024x2048_S1x2048_S1024x1_1_1_0_0_n_n.lhsNonContracting by decide)]
  rfl
theorem mmW_lhs_1 (i : S1024x1.Idx) (q : dot_S1024x2048_S1x2048_S1024x1_1_1_0_0_n_n.contr.Idx) :
    (dot_S1024x2048_S1x2048_S1024x1_1_1_0_0_n_n.lhsIdx i q 1).val = (q ⟨0, by decide⟩).val :=
  dot_S1024x2048_S1x2048_S1024x1_1_1_0_0_n_n.lhsIdx_val_of_single rfl i q
theorem mmW_rhs_0 (i : S1024x1.Idx) (q : dot_S1024x2048_S1x2048_S1024x1_1_1_0_0_n_n.contr.Idx) :
    (dot_S1024x2048_S1x2048_S1024x1_1_1_0_0_n_n.rhsIdx i q 0).val = (i 1).val := by
  unfold DotDims.rhsIdx
  rw [dif_neg (show ¬(0 : Fin S1x2048.rank) ∈ dot_S1024x2048_S1x2048_S1024x1_1_1_0_0_n_n.rhsBatch by decide), dif_pos (show (0 : Fin S1x2048.rank) ∈ dot_S1024x2048_S1x2048_S1024x1_1_1_0_0_n_n.rhsNonContracting by decide)]
  rfl
theorem mmW_rhs_1 (i : S1024x1.Idx) (q : dot_S1024x2048_S1x2048_S1024x1_1_1_0_0_n_n.contr.Idx) :
    (dot_S1024x2048_S1x2048_S1024x1_1_1_0_0_n_n.rhsIdx i q 1).val = (q ⟨0, by decide⟩).val :=
  dot_S1024x2048_S1x2048_S1024x1_1_1_0_0_n_n.rhsIdx_val_of_single rfl i q

/-- The product into a zero accumulator, read at (n, c): the sum over the 2048 targets of the operands' products. -/
theorem mmW_apply (x : FVec Ideal S1024x2048 .f32) (y : FVec Ideal S1x2048 .f32) (n : Fin 1024) (c : Fin 1) :
    matmul dot_S1024x2048_S1x2048_S1024x1_1_1_0_0_n_n (some .fp32) x y (constant (F := Ideal) S1024x1 .f32 0x00000000#32) (ix2 n c)
      = ∑ i : Fin 2048, x (ix2 n i) * y (ix2 c i) := by
  simp only [matmul]
  rw [Ideal.matmul_constant_zero_apply, ← Equiv.sum_comp (contrEquiv1 dot_S1024x2048_S1x2048_S1024x1_1_1_0_0_n_n 2048 rfl rfl).symm]
  refine Finset.sum_congr rfl fun i _ => ?_
  have hk := contrEquiv1_symm_val dot_S1024x2048_S1x2048_S1024x1_1_1_0_0_n_n 2048 rfl rfl i
  have el : dot_S1024x2048_S1x2048_S1024x1_1_1_0_0_n_n.lhsIdx (ix2 n c) ((contrEquiv1 dot_S1024x2048_S1x2048_S1024x1_1_1_0_0_n_n 2048 rfl rfl).symm i) = ix2 n i := funext fun a => Fin.ext (by
    match a with
    | ⟨0, _⟩ => exact mmW_lhs_0 _ _
    | ⟨1, _⟩ => exact (mmW_lhs_1 _ _).trans hk)
  have er : dot_S1024x2048_S1x2048_S1024x1_1_1_0_0_n_n.rhsIdx (ix2 n c) ((contrEquiv1 dot_S1024x2048_S1x2048_S1024x1_1_1_0_0_n_n 2048 rfl rfl).symm i) = ix2 c i := funext fun a => Fin.ext (by
    match a with
    | ⟨0, _⟩ => exact mmW_rhs_0 _ _
    | ⟨1, _⟩ => exact (mmW_rhs_1 _ _).trans hk)
  rw [el, er]

/-! ## The accumulator update -/

/-- A per-row column broadcast over the 68 columns, read at (n, j): the row's one entry. -/
theorem bcastCol_apply (x : FVec Ideal S1024x1 .f32) (n : Fin 1024) (j : Fin 68) :
    broadcastTo S1024x68 x broadcasts_S1024x1_S1024x68 (ix2 n j) = x (ix2 n (0 : Fin 1)) :=
  broadcastTo_apply x _ (ix2 n j) (ix2 n (0 : Fin 1)) fun a => by
    match a with
    | ⟨0, _⟩ => rfl
    | ⟨1, _⟩ => rfl

section
variable (v6 : Vec Ideal S64x2048 .f32) (v8 : Vec Ideal S3x2048 .f32) (v10 : Vec Ideal S1x2048 .f32)
  (v27 : Vec Ideal S1024x2048 .f32) (v31 v33 : Vec Ideal S1024x1 .f32) (v49 : Vec Ideal S1024x68 .f32)
  (n : Fin 1024) (j : Fin 68)

/-- The update is the rescaled previous accumulator plus the three products side by side: the definition's bindings
    substituted. -/
theorem pay3_eq :
    k0_pay3 (F := Ideal) v6 v8 v10 v27 v31 v33 v49
      = shapeCast S1024x68
          (addf (mulf (broadcastTo S1024x68 v33 broadcasts_S1024x1_S1024x68) v49)
            (concatenate S1024x68 1
              [⟨S1024x3, matmul (φ₁ := .f32) (φ₂ := .f32) dot_S1024x2048_S3x2048_S1024x3_1_1_0_0_n_n (some .fp32) (k0_pay1 (F := Ideal) v27 v31) v8 (constant (F := Ideal) S1024x3 .f32 0x00000000#32)⟩,
          ⟨S1024x1, matmul (φ₁ := .f32) (φ₂ := .f32) dot_S1024x2048_S1x2048_S1024x1_1_1_0_0_n_n (some .fp32) (k0_pay1 (F := Ideal) v27 v31) v10 (constant (F := Ideal) S1024x1 .f32 0x00000000#32)⟩,
          ⟨S1024x64, matmul (φ₁ := .f32) (φ₂ := .f32) dot_S1024x2048_S64x2048_S1024x64_1_1_0_0_n_n (some .fp32) (k0_pay1 (F := Ideal) v27 v31) v6 (constant (F := Ideal) S1024x64 .f32 0x00000000#32)⟩]
              concatenates_S1024x3_S1024x1_S1024x64_S1024x68_d1))
          shapeCasts_S1024x68_S1024x68 := rfl

/-- The update read at (n, j), the products' concatenation not yet opened. -/
theorem pay3_apply :
    k0_pay3 (F := Ideal) v6 v8 v10 v27 v31 v33 v49 (ix2 n j)
      = v33 (ix2 n (0 : Fin 1)) * v49 (ix2 n j)
        + concatenate S1024x68 1
              [⟨S1024x3, matmul (φ₁ := .f32) (φ₂ := .f32) dot_S1024x2048_S3x2048_S1024x3_1_1_0_0_n_n (some .fp32) (k0_pay1 (F := Ideal) v27 v31) v8 (constant (F := Ideal) S1024x3 .f32 0x00000000#32)⟩,
          ⟨S1024x1, matmul (φ₁ := .f32) (φ₂ := .f32) dot_S1024x2048_S1x2048_S1024x1_1_1_0_0_n_n (some .fp32) (k0_pay1 (F := Ideal) v27 v31) v10 (constant (F := Ideal) S1024x1 .f32 0x00000000#32)⟩,
          ⟨S1024x64, matmul (φ₁ := .f32) (φ₂ := .f32) dot_S1024x2048_S64x2048_S1024x64_1_1_0_0_n_n (some .fp32) (k0_pay1 (F := Ideal) v27 v31) v6 (constant (F := Ideal) S1024x64 .f32 0x00000000#32)⟩]
              concatenates_S1024x3_S1024x1_S1024x64_S1024x68_d1 (ix2 n j) := by
  rw [pay3_eq, shapeCast_self, addf_apply, mulf_apply, bcastCol_apply]

/-- Columns 0, 1, 2: the coordinate rows. -/
theorem pay3_coords (hj : j.val < 3) :
    k0_pay3 (F := Ideal) v6 v8 v10 v27 v31 v33 v49 (ix2 n j)
      = v33 (ix2 n 0) * v49 (ix2 n j) + ∑ i : Fin 2048, k0_pay1 (F := Ideal) v27 v31 (ix2 n i) * v8 (ix2 ⟨j.val, hj⟩ i) := by
  rw [pay3_apply, ← mmC_apply (k0_pay1 (F := Ideal) v27 v31) v8 n ⟨j.val, hj⟩]
  congr 1
  refine concatenate_apply_piece (1 : Fin S1024x68.rank) _ _ (ix2 n j) 0 (by simp) S1024x3 _ rfl rfl 0 rfl
    (ix2 n (⟨j.val, hj⟩ : Fin 3)) (fun b hb => ?_) ?_
  · match b with
    | ⟨0, _⟩ => rfl
    | ⟨1, _⟩ => exact absurd rfl hb
  · show 0 + j.val = j.val
    omega

/-- Column 3: the weight row. -/
theorem pay3_weight (hj : j.val = 3) :
    k0_pay3 (F := Ideal) v6 v8 v10 v27 v31 v33 v49 (ix2 n j)
      = v33 (ix2 n 0) * v49 (ix2 n j) + ∑ i : Fin 2048, k0_pay1 (F := Ideal) v27 v31 (ix2 n i) * v10 (ix2 0 i) := by
  rw [pay3_apply, ← mmW_apply (k0_pay1 (F := Ideal) v27 v31) v10 n 0]
  congr 1
  refine concatenate_apply_piece (1 : Fin S1024x68.rank) _ _ (ix2 n j) 1 (by simp) S1024x1 _ rfl rfl 3 rfl
    (ix2 n (0 : Fin 1)) (fun b hb => ?_) ?_
  · match b with
    | ⟨0, _⟩ => rfl
    | ⟨1, _⟩ => exact absurd rfl hb
  · show 3 + 0 = j.val
    omega

/-- Columns 4 to 67: the descriptor rows. -/
theorem pay3_desc (hj : 4 ≤ j.val) :
    k0_pay3 (F := Ideal) v6 v8 v10 v27 v31 v33 v49 (ix2 n j)
      = v33 (ix2 n 0) * v49 (ix2 n j)
        + ∑ i : Fin 2048, k0_pay1 (F := Ideal) v27 v31 (ix2 n i) * v6 (ix2 ⟨j.val - 4, by have := j.isLt; omega⟩ i) := by
  rw [pay3_apply, ← mmD_apply (k0_pay1 (F := Ideal) v27 v31) v6 n ⟨j.val - 4, by have := j.isLt; omega⟩]
  congr 1
  refine concatenate_apply_piece (1 : Fin S1024x68.rank) _ _ (ix2 n j) 2 (by simp) S1024x64 _ rfl rfl 4 rfl
    (ix2 n (⟨j.val - 4, by have := j.isLt; omega⟩ : Fin 64)) (fun b hb => ?_) ?_
  · match b with
    | ⟨0, _⟩ => rfl
    | ⟨1, _⟩ => exact absurd rfl hb
  · show 4 + (j.val - 4) = j.val
    omega

end

end Cert.KernelIdeal.KPay

end
-- ==== Proof.KPay13.lean ====
/-
  The kernel body's running row maximum read at an index, at the ideal instance: the previous maximum against the
  maximum of the row's scores over the tile's 2048 targets, that maximum folded from minus infinity.
-/
import proofs.«109630_j50577534877890_2_alg».proof.Proof.Gen.KernelIdeal.Skeleton
import proofs.«109630_j50577534877890_2_alg».proof.Proof.Spec
import proofs.«109630_j50577534877890_2_alg».proof.Proof.LibIdealReal
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.KPay

open Idealize.ShloMosaic Idealize.ShloMosaic.ValueIdx Cert.KernelIdeal Cert.KernelIdeal.Gen

/-- The pattern of minus infinity denotes the bottom element. -/
theorem ofBits_ninf13 : Ideal.ofBits .f32 0xFF800000#32 = ⊥ := by simp [Ideal.ofBits, Ideal.ieee]

/-- A vector of `a` entries cast to one column reads, at (i, u), entry i, whatever the unit coordinate u. -/
theorem shapeCast_col13_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index over row n with the target coordinate put back is (n, k). -/
theorem lift_row13 (n : Fin 1024) (k : Fin (S1024x2048.size 1)) :
    reduces_S1024x2048_S1024.lift (ix1 n) k = ix2 n (⟨k.val, k.isLt⟩ : Fin 2048) := by
  funext c; apply Fin.ext
  fin_cases c <;> rfl

/-- A maximum over the target axis from minus infinity, read at row n: the maximum folded over the 2048 targets. The
    two folds are met by rewriting the folded function index by index, never by comparing them whole. -/
theorem rowmax13_apply (x : FVec Ideal S1024x2048 .f32) (hacc : (0xFF800000#32 : BitVec 32) = 0xFF800000#32) (n : Fin 1024) :
    multiReduction (F := Ideal) .maximumf [1] S1024 x 0xFF800000#32 reduces_S1024x2048_S1024 (.inl rfl) hacc (ix1 n)
      = (Finset.univ : Finset (Fin 2048)).fold max ⊥ (fun i => x (ix2 n i)) := by
  refine (Ideal.multiReduction_maximumf_single x 0xFF800000#32 reduces_S1024x2048_S1024 (.inl rfl) hacc (ix1 n)).trans ?_
  rw [Ideal.ofBits_def, ofBits_ninf13]
  have hf : (x ∘ reduces_S1024x2048_S1024.lift (ix1 n)) = fun i : Fin 2048 => x (ix2 n i) :=
    funext fun k => congrArg x (lift_row13 n k)
  exact congrArg (fun f => Finset.fold max (⊥ : EReal) f (Finset.univ : Finset (Fin 2048))) hf

/-- The running maximum is the previous one against the tile's row maximum: the definition's bindings substituted. -/
theorem pay13_eq (v3 : Vec Ideal S1x64x1024 .f32) (v5 : Vec Ideal S1x64x2048 .f32) (v28 : Vec Ideal S1024x1 .f32) :
    k0_pay13 (F := Ideal) v3 v5 v28
      = maximumf v28
          (shapeCast S1024x1
            (multiReduction (F := Ideal) .maximumf [1] S1024 (k0_pay12 (F := Ideal) v3 v5) 0xFF800000#32 reduces_S1024x2048_S1024
              (.inl rfl) rfl)
            shapeCasts_S1024_S1024x1) := rfl

/-- The running maximum read at (n, 0). -/
theorem pay13 (v3 : Vec Ideal S1x64x1024 .f32) (v5 : Vec Ideal S1x64x2048 .f32) (v28 : Vec Ideal S1024x1 .f32) (n : Fin 1024) :
    k0_pay13 (F := Ideal) v3 v5 v28 (ix2 n 0)
      = max (v28 (ix2 n 0)) ((Finset.univ : Finset (Fin 2048)).fold max ⊥ (fun i => k0_pay12 (F := Ideal) v3 v5 (ix2 n i))) := by
  rw [pay13_eq, maximumf_apply, shapeCast_col13_apply, rowmax13_apply]

end Cert.KernelIdeal.KPay

end
-- ==== Proof.RefRun.lean ====
/-
  The run of the reference program, read back as a list of its host operations.

  The program is a straight line of StableHLO operations: @main's own, with the three calls of the
  standard-deviation helper unfolded at their call sites (each is the variance helper's twenty operations, the
  three of the select helper it calls, and one square root), one hundred and twenty-nine operations in all.
  Once the helpers' definitions unfold, @main is that line (`main_eq`), so every weakly fair execution
  terminates with every buffer at the operations' fold over the launch contents (`run_main`).

  What the fold leaves in the three result buffers is then stated in stages, as pure functions of the argument
  arrays: `zn` — an array minus its mean over the second axis, divided by its standard deviation over that
  axis (the mean of squared deviations, its square root) —, `soft` — the batched product of two normalised
  arrays, divided by two constants, then the softmax over the last axis (subtract the row maximum,
  exponentiate, divide by the row sum) —, and the three batched products of an argument with that softmax,
  the last of them normalised again.
-/
import proofs.«109630_j50577534877890_2_alg».proof.ReferenceIdeal
import proofs.«109630_j50577534877890_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as pure functions of the arrays they read -/

/-- The mean over the second axis (length 64), kept as an axis of length one: the sum from zero, divided by 64. -/
def mean3 (x : (⟨S2x64x1024, .f32⟩ : BufTy).Contents (Elt F)) : (⟨S2x1x1024, .f32⟩ : BufTy).Contents (Elt F) :=
  Host.divf
    (broadcastInDim S2x1x1024 ![0, 2] bcast_S2x1024_S2x1x1024_0_2 (Host.reduceAdd x (constant S_ .f32 0x00000000#32) reducesTo_S2x64x1024_S2x1024_d1 h_S_))
    (broadcastInDim S2x1x1024 ![] bcast_S_S2x1x1024 (constant S_ .f32 0x42800000#32))

/-- The deviation from that mean, element by element. -/
def dev3 (x : (⟨S2x64x1024, .f32⟩ : BufTy).Contents (Elt F)) : (⟨S2x64x1024, .f32⟩ : BufTy).Contents (Elt F) :=
  subf x (broadcastInDim S2x64x1024 ![0, 1, 2] bcast_S2x1x1024_S2x64x1024_0_1_2 (mean3 x))

/-- The variance over the second axis with one degree of freedom removed: the sum of squared deviations divided
    by `64 - 1`, where that count is positive, and the not-a-number constant otherwise. -/
def var3 (x : (⟨S2x64x1024, .f32⟩ : BufTy).Contents (Elt F)) : (⟨S2x1x1024, .f32⟩ : BufTy).Contents (Elt F) :=
  select
    (broadcastInDim S2x1x1024 ![] bcast_S_S2x1x1024
      (cmpf .ogt (subf (constant S_ .f32 0x42800000#32) (sitofp .f32 (constantI S_ 32 1#32)) : (⟨S_, .f32⟩ : BufTy).Contents (Elt F))
        (constant S_ .f32 0x00000000#32)))
    (Host.divf
      (broadcastInDim S2x1x1024 ![0, 2] bcast_S2x1024_S2x1x1024_0_2
        (Host.reduceAdd (mulf (dev3 x) (dev3 x)) (constant S_ .f32 0x00000000#32) reducesTo_S2x64x1024_S2x1024_d1 h_S_))
      (broadcastInDim S2x1x1024 ![] bcast_S_S2x1x1024
        (subf (constant S_ .f32 0x42800000#32) (sitofp .f32 (constantI S_ 32 1#32)) : (⟨S_, .f32⟩ : BufTy).Contents (Elt F))))
    (broadcastInDim S2x1x1024 ![] bcast_S_S2x1x1024 (id (constant S_ .f32 0x7FC00000#32 : (⟨S_, .f32⟩ : BufTy).Contents (Elt F))))

/-- Zero mean and unit standard deviation along the second axis, for an array of last extent 1024: the deviation from the mean divided by the square root of the variance. -/
def zn3 (x : (⟨S2x64x1024, .f32⟩ : BufTy).Contents (Elt F)) : (⟨S2x64x1024, .f32⟩ : BufTy).Contents (Elt F) :=
  Host.divf
    (subf x (broadcastInDim S2x64x1024 ![0, 1, 2] bcast_S2x1x1024_S2x64x1024_0_1_2 (mean3 x)))
    (broadcastInDim S2x64x1024 ![0, 1, 2] bcast_S2x1x1024_S2x64x1024_0_1_2 (Host.sqrt (var3 x)))

/-- The mean over the second axis (length 64), kept as an axis of length one: the sum from zero, divided by 64. -/
def mean4 (x : (⟨S2x64x16384, .f32⟩ : BufTy).Contents (Elt F)) : (⟨S2x1x16384, .f32⟩ : BufTy).Contents (Elt F) :=
  Host.divf
    (broadcastInDim S2x1x16384 ![0, 2] bcast_S2x16384_S2x1x16384_0_2 (Host.reduceAdd x (constant S_ .f32 0x00000000#32) reducesTo_S2x64x16384_S2x16384_d1 h_S_))
    (broadcastInDim S2x1x16384 ![] bcast_S_S2x1x16384 (constant S_ .f32 0x42800000#32))

/-- The deviation from that mean, element by element. -/
def dev4 (x : (⟨S2x64x16384, .f32⟩ : BufTy).Contents (Elt F)) : (⟨S2x64x16384, .f32⟩ : BufTy).Contents (Elt F) :=
  subf x (broadcastInDim S2x64x16384 ![0, 1, 2] bcast_S2x1x16384_S2x64x16384_0_1_2 (mean4 x))

/-- The variance over the second axis with one degree of freedom removed: the sum of squared deviations divided
    by `64 - 1`, where that count is positive, and the not-a-number constant otherwise. -/
def var4 (x : (⟨S2x64x16384, .f32⟩ : BufTy).Contents (Elt F)) : (⟨S2x1x16384, .f32⟩ : BufTy).Contents (Elt F) :=
  select
    (broadcastInDim S2x1x16384 ![] bcast_S_S2x1x16384
      (cmpf .ogt (subf (constant S_ .f32 0x42800000#32) (sitofp .f32 (constantI S_ 32 1#32)) : (⟨S_, .f32⟩ : BufTy).Contents (Elt F))
        (constant S_ .f32 0x00000000#32)))
    (Host.divf
      (broadcastInDim S2x1x16384 ![0, 2] bcast_S2x16384_S2x1x16384_0_2
        (Host.reduceAdd (mulf (dev4 x) (dev4 x)) (constant S_ .f32 0x00000000#32) reducesTo_S2x64x16384_S2x16384_d1 h_S_))
      (broadcastInDim S2x1x16384 ![] bcast_S_S2x1x16384
        (subf (constant S_ .f32 0x42800000#32) (sitofp .f32 (constantI S_ 32 1#32)) : (⟨S_, .f32⟩ : BufTy).Contents (Elt F))))
    (broadcastInDim S2x1x16384 ![] bcast_S_S2x1x16384 (id (constant S_ .f32 0x7FC00000#32 : (⟨S_, .f32⟩ : BufTy).Contents (Elt F))))

/-- The same normalisation for an array of last extent 16384. -/
def zn4 (x : (⟨S2x64x16384, .f32⟩ : BufTy).Contents (Elt F)) : (⟨S2x64x16384, .f32⟩ : BufTy).Contents (Elt F) :=
  Host.divf
    (subf x (broadcastInDim S2x64x16384 ![0, 1, 2] bcast_S2x1x16384_S2x64x16384_0_1_2 (mean4 x)))
    (broadcastInDim S2x64x16384 ![0, 1, 2] bcast_S2x1x16384_S2x64x16384_0_1_2 (Host.sqrt (var4 x)))

/-- The scaled scores: the batched product of the two normalised arrays, contracting their second axes, divided by
    64 and then by the temperature constant. -/
def scores (q : (⟨S2x64x1024, .f32⟩ : BufTy).Contents (Elt F)) (k : (⟨S2x64x16384, .f32⟩ : BufTy).Contents (Elt F)) :
    (⟨S2x1024x16384, .f32⟩ : BufTy).Contents (Elt F) :=
  Host.divf
    (Host.divf (Host.dotGeneral dot_S2x64x1024_S2x64x16384_S2x1024x16384_1_1_2_2_0_0 none q k)
      (broadcastInDim S2x1024x16384 ![] bcast_S_S2x1024x16384 (constant S_ .f32 0x42800000#32)))
    (broadcastInDim S2x1024x16384 ![] bcast_S_S2x1024x16384 (constant S_ .f32 0x3CA3D70A#32))

/-- The exponentials of the scores less their row maximum (the maximum over the last axis, from minus infinity,
    taken once more against minus infinity). -/
def expo (s : (⟨S2x1024x16384, .f32⟩ : BufTy).Contents (Elt F)) : (⟨S2x1024x16384, .f32⟩ : BufTy).Contents (Elt F) :=
  Host.exp
    (subf s
      (broadcastInDim S2x1024x16384 ![0, 1, 2] bcast_S2x1024x1_S2x1024x16384_0_1_2
        (broadcastInDim S2x1024x1 ![0, 1] bcast_S2x1024_S2x1024x1_0_1
          (maximumf (broadcastInDim S2x1024 ![] bcast_S_S2x1024 (constant S_ .f32 0xFF800000#32))
            (Host.reduce FloatOps.maximumf s (constant S_ .f32 0xFF800000#32) reducesTo_S2x1024x16384_S2x1024_d2 h_S_)))))

/-- The softmax over the last axis of the scaled scores of two normalised arrays: each exponential divided by its
    row's sum of exponentials. -/
def soft (q : (⟨S2x64x1024, .f32⟩ : BufTy).Contents (Elt F)) (k : (⟨S2x64x16384, .f32⟩ : BufTy).Contents (Elt F)) :
    (⟨S2x1024x16384, .f32⟩ : BufTy).Contents (Elt F) :=
  Host.divf (expo (scores q k))
    (broadcastInDim S2x1024x16384 ![0, 1, 2] bcast_S2x1024x1_S2x1024x16384_0_1_2
      (broadcastInDim S2x1024x1 ![0, 1] bcast_S2x1024_S2x1024x1_0_1
        (Host.reduceAdd (expo (scores q k)) (constant S_ .f32 0x00000000#32) reducesTo_S2x1024x16384_S2x1024_d2 h_S_)))

/-- The third result's last stage: the same normalisation as `zn3`, of the product array. -/
def znOut (d : (⟨S2x64x1024, .f32⟩ : BufTy).Contents (Elt F)) : (⟨S2x64x1024, .f32⟩ : BufTy).Contents (Elt F) :=
  zn3 d

/-- The last stage is the first array's normalisation, applied to the product array. -/
theorem znOut_eq (d : (⟨S2x64x1024, .f32⟩ : BufTy).Contents (Elt F)) : znOut d = zn3 d := rfl

/-- @main's operations in order, the three calls unfolded in place: each call contributes the variance
    helper's twenty operations, the select helper's three, and the square root. -/
abbrev ops : List (HloOp τ sig (Elt F)) :=
  [ StableHlo.nullary main_cst (constant S_ .f32 0x00000000#32),
    StableHlo.binary main_arg3 main_cst main_v0 ((fun x v => Host.reduceAdd x v reducesTo_S2x64x1024_S2x1024_d1 h_S_) : (⟨S2x64x1024, .f32⟩ : BufTy).Contents (Elt F) → (⟨S_, .f32⟩ : BufTy).Contents (Elt F) → (⟨S2x1024, .f32⟩ : BufTy).Contents (Elt F)),
    StableHlo.unary main_v0 main_v1 (broadcastInDim S2x1x1024 ![0, 2] bcast_S2x1024_S2x1x1024_0_2 : (⟨S2x1024, .f32⟩ : BufTy).Contents (Elt F) → (⟨S2x1x1024, .f32⟩ : BufTy).Contents (Elt F)),
    StableHlo.nullary main_cst_0 (constant S_ .f32 0x42800000#32),
    StableHlo.unary main_cst_0 main_v2 (broadcastInDim S2x1x1024 ![] bcast_S_S2x1x1024 : (⟨S_, .f32⟩ : BufTy).Contents (Elt F) → (⟨S2x1x1024, .f32⟩ : BufTy).Contents (Elt F)),
    StableHlo.binary main_v1 main_v2 main_v3 (Host.divf : (⟨S2x1x1024, .f32⟩ : BufTy).Contents (Elt F) → (⟨S2x1x1024, .f32⟩ : BufTy).Contents (Elt F) → (⟨S2x1x1024, .f32⟩ : BufTy).Contents (Elt F)),
    StableHlo.nullary main_c (constantI S_ 32 1#32),
    StableHlo.TRef.nullary main_call0.call0.cst (constant S_ .f32 0x00000000#32),
    StableHlo.TRef.binary (TRef.of main_arg3 : TRef sig ⟨S2x64x1024, .f32⟩) main_call0.call0.cst main_call0.call0.v0 (fun x v => Host.reduceAdd x v reducesTo_S2x64x1024_S2x1024_d1 h_S_),
    StableHlo.TRef.unary main_call0.call0.v0 main_call0.call0.v1 (broadcastInDim S2x1x1024 ![0, 2] bcast_S2x1024_S2x1x1024_0_2),
    StableHlo.TRef.nullary main_call0.call0.cst_0 (constant S_ .f32 0x42800000#32),
    StableHlo.TRef.unary main_call0.call0.cst_0 main_call0.call0.v2 (broadcastInDim S2x1x1024 ![] bcast_S_S2x1x1024),
    StableHlo.TRef.binary main_call0.call0.v1 main_call0.call0.v2 main_call0.call0.v3 Host.divf,
    StableHlo.TRef.unary main_call0.call0.v3 main_call0.call0.v4 (broadcastInDim S2x64x1024 ![0, 1, 2] bcast_S2x1x1024_S2x64x1024_0_1_2),
    StableHlo.TRef.binary (TRef.of main_arg3 : TRef sig ⟨S2x64x1024, .f32⟩) main_call0.call0.v4 main_call0.call0.v5 subf,
    StableHlo.TRef.binary main_call0.call0.v5 main_call0.call0.v5 main_call0.call0.v6 mulf,
    StableHlo.TRef.unary (TRef.of main_c : TRef sig ⟨S_, .i32⟩) main_call0.call0.v7 (sitofp .f32),
    StableHlo.TRef.nullary main_call0.call0.cst_1 (constant S_ .f32 0x42800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S2x64x1024_S2x1024_d1 h_S_),
    StableHlo.TRef.unary main_call0.call0.v9 main_call0.call0.v10 (broadcastInDim S2x1x1024 ![0, 2] bcast_S2x1024_S2x1x1024_0_2),
    StableHlo.TRef.unary main_call0.call0.v8 main_call0.call0.v11 (broadcastInDim S2x1x1024 ![] bcast_S_S2x1x1024),
    StableHlo.TRef.binary main_call0.call0.v10 main_call0.call0.v11 main_call0.call0.v12 Host.divf,
    StableHlo.TRef.nullary main_call0.call0.cst_3 (constant S_ .f32 0x00000000#32),
    StableHlo.TRef.binary main_call0.call0.v8 main_call0.call0.cst_3 main_call0.call0.v13 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S2x1x1024 ![] bcast_S_S2x1x1024),
    StableHlo.TRef.ternary main_call0.call0.v13 main_call0.call0.v12 main_call0.call0.call0.v1 main_call0.call0.call0.v2 (fun p a b => select (broadcastInDim S2x1x1024 ![] bcast_S_S2x1x1024 p) a b),
    StableHlo.TRef.unary main_call0.call0.call0.v2 main_call0.v1 Host.sqrt,
    StableHlo.unary main_v3 main_v5 (broadcastInDim S2x64x1024 ![0, 1, 2] bcast_S2x1x1024_S2x64x1024_0_1_2 : (⟨S2x1x1024, .f32⟩ : BufTy).Contents (Elt F) → (⟨S2x64x1024, .f32⟩ : BufTy).Contents (Elt F)),
    StableHlo.binary main_arg3 main_v5 main_v6 (subf : (⟨S2x64x1024, .f32⟩ : BufTy).Contents (Elt F) → (⟨S2x64x1024, .f32⟩ : BufTy).Contents (Elt F) → (⟨S2x64x1024, .f32⟩ : BufTy).Contents (Elt F)),
    StableHlo.unary main_v4 main_v7 (broadcastInDim S2x64x1024 ![0, 1, 2] bcast_S2x1x1024_S2x64x1024_0_1_2 : (⟨S2x1x1024, .f32⟩ : BufTy).Contents (Elt F) → (⟨S2x64x1024, .f32⟩ : BufTy).Contents (Elt F)),
    StableHlo.binary main_v6 main_v7 main_v8 (Host.divf : (⟨S2x64x1024, .f32⟩ : BufTy).Contents (Elt F) → (⟨S2x64x1024, .f32⟩ : BufTy).Contents (Elt F) → (⟨S2x64x1024, .f32⟩ : BufTy).Contents (Elt F)),
    StableHlo.nullary main_cst_1 (constant S_ .f32 0x00000000#32),
    StableHlo.binary main_arg4 main_cst_1 main_v9 ((fun x v => Host.reduceAdd x v reducesTo_S2x64x16384_S2x16384_d1 h_S_) : (⟨S2x64x16384, .f32⟩ : BufTy).Contents (Elt F) → (⟨S_, .f32⟩ : BufTy).Contents (Elt F) → (⟨S2x16384, .f32⟩ : BufTy).Contents (Elt F)),
    StableHlo.unary main_v9 main_v10 (broadcastInDim S2x1x16384 ![0, 2] bcast_S2x16384_S2x1x16384_0_2 : (⟨S2x16384, .f32⟩ : BufTy).Contents (Elt F) → (⟨S2x1x16384, .f32⟩ : BufTy).Contents (Elt F)),
    StableHlo.nullary main_cst_2 (constant S_ .f32 0x42800000#32),
    StableHlo.unary main_cst_2 main_v11 (broadcastInDim S2x1x16384 ![] bcast_S_S2x1x16384 : (⟨S_, .f32⟩ : BufTy).Contents (Elt F) → (⟨S2x1x16384, .f32⟩ : BufTy).Contents (Elt F)),
    StableHlo.binary main_v10 main_v11 main_v12 (Host.divf : (⟨S2x1x16384, .f32⟩ : BufTy).Contents (Elt F) → (⟨S2x1x16384, .f32⟩ : BufTy).Contents (Elt F) → (⟨S2x1x16384, .f32⟩ : BufTy).Contents (Elt F)),
    StableHlo.nullary main_c_3 (constantI S_ 32 1#32),
    StableHlo.TRef.nullary main_call1.call0.cst (constant S_ .f32 0x00000000#32),
    StableHlo.TRef.binary (TRef.of main_arg4 : TRef sig ⟨S2x64x16384, .f32⟩) main_call1.call0.cst main_call1.call0.v0 (fun x v => Host.reduceAdd x v reducesTo_S2x64x16384_S2x16384_d1 h_S_),
    StableHlo.TRef.unary main_call1.call0.v0 main_call1.call0.v1 (broadcastInDim S2x1x16384 ![0, 2] bcast_S2x16384_S2x1x16384_0_2),
    StableHlo.TRef.nullary main_call1.call0.cst_0 (constant S_ .f32 0x42800000#32),
    StableHlo.TRef.unary main_call1.call0.cst_0 main_call1.call0.v2 (broadcastInDim S2x1x16384 ![] bcast_S_S2x1x16384),
    StableHlo.TRef.binary main_call1.call0.v1 main_call1.call0.v2 main_call1.call0.v3 Host.divf,
    StableHlo.TRef.unary main_call1.call0.v3 main_call1.call0.v4 (broadcastInDim S2x64x16384 ![0, 1, 2] bcast_S2x1x16384_S2x64x16384_0_1_2),
    StableHlo.TRef.binary (TRef.of main_arg4 : TRef sig ⟨S2x64x16384, .f32⟩) main_call1.call0.v4 main_call1.call0.v5 subf,
    StableHlo.TRef.binary main_call1.call0.v5 main_call1.call0.v5 main_call1.call0.v6 mulf,
    StableHlo.TRef.unary (TRef.of main_c_3 : TRef sig ⟨S_, .i32⟩) main_call1.call0.v7 (sitofp .f32),
    StableHlo.TRef.nullary main_call1.call0.cst_1 (constant S_ .f32 0x42800000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S2x64x16384_S2x16384_d1 h_S_),
    StableHlo.TRef.unary main_call1.call0.v9 main_call1.call0.v10 (broadcastInDim S2x1x16384 ![0, 2] bcast_S2x16384_S2x1x16384_0_2),
    StableHlo.TRef.unary main_call1.call0.v8 main_call1.call0.v11 (broadcastInDim S2x1x16384 ![] bcast_S_S2x1x16384),
    StableHlo.TRef.binary main_call1.call0.v10 main_call1.call0.v11 main_call1.call0.v12 Host.divf,
    StableHlo.TRef.nullary main_call1.call0.cst_3 (constant S_ .f32 0x00000000#32),
    StableHlo.TRef.binary main_call1.call0.v8 main_call1.call0.cst_3 main_call1.call0.v13 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S2x1x16384 ![] bcast_S_S2x1x16384),
    StableHlo.TRef.ternary main_call1.call0.v13 main_call1.call0.v12 main_call1.call0.call0.v1 main_call1.call0.call0.v2 (fun p a b => select (broadcastInDim S2x1x16384 ![] bcast_S_S2x1x16384 p) a b),
    StableHlo.TRef.unary main_call1.call0.call0.v2 main_call1.v1 Host.sqrt,
    StableHlo.unary main_v12 main_v14 (broadcastInDim S2x64x16384 ![0, 1, 2] bcast_S2x1x16384_S2x64x16384_0_1_2 : (⟨S2x1x16384, .f32⟩ : BufTy).Contents (Elt F) → (⟨S2x64x16384, .f32⟩ : BufTy).Contents (Elt F)),
    StableHlo.binary main_arg4 main_v14 main_v15 (subf : (⟨S2x64x16384, .f32⟩ : BufTy).Contents (Elt F) → (⟨S2x64x16384, .f32⟩ : BufTy).Contents (Elt F) → (⟨S2x64x16384, .f32⟩ : BufTy).Contents (Elt F)),
    StableHlo.unary main_v13 main_v16 (broadcastInDim S2x64x16384 ![0, 1, 2] bcast_S2x1x16384_S2x64x16384_0_1_2 : (⟨S2x1x16384, .f32⟩ : BufTy).Contents (Elt F) → (⟨S2x64x16384, .f32⟩ : BufTy).Contents (Elt F)),
    StableHlo.binary main_v15 main_v16 main_v17 (Host.divf : (⟨S2x64x16384, .f32⟩ : BufTy).Contents (Elt F) → (⟨S2x64x16384, .f32⟩ : BufTy).Contents (Elt F) → (⟨S2x64x16384, .f32⟩ : BufTy).Contents (Elt F)),
    StableHlo.binary main_v8 main_v17 main_v18 ((fun l r => Host.dotGeneral dot_S2x64x1024_S2x64x16384_S2x1024x16384_1_1_2_2_0_0 none l r) : (⟨S2x64x1024, .f32⟩ : BufTy).Contents (Elt F) → (⟨S2x64x16384, .f32⟩ : BufTy).Contents (Elt F) → (⟨S2x1024x16384, .f32⟩ : BufTy).Contents (Elt F)),
    StableHlo.nullary main_cst_4 (constant S_ .f32 0x42800000#32),
    StableHlo.unary main_cst_4 main_v19 (broadcastInDim S2x1024x16384 ![] bcast_S_S2x1024x16384 : (⟨S_, .f32⟩ : BufTy).Contents (Elt F) → (⟨S2x1024x16384, .f32⟩ : BufTy).Contents (Elt F)),
    StableHlo.binary main_v18 main_v19 main_v20 (Host.divf : (⟨S2x1024x16384, .f32⟩ : BufTy).Contents (Elt F) → (⟨S2x1024x16384, .f32⟩ : BufTy).Contents (Elt F) → (⟨S2x1024x16384, .f32⟩ : BufTy).Contents (Elt F)),
    StableHlo.nullary main_cst_5 (constant S_ .f32 0x3CA3D70A#32),
    StableHlo.unary main_cst_5 main_v21 (broadcastInDim S2x1024x16384 ![] bcast_S_S2x1024x16384 : (⟨S_, .f32⟩ : BufTy).Contents (Elt F) → (⟨S2x1024x16384, .f32⟩ : BufTy).Contents (Elt F)),
    StableHlo.binary main_v20 main_v21 main_v22 (Host.divf : (⟨S2x1024x16384, .f32⟩ : BufTy).Contents (Elt F) → (⟨S2x1024x16384, .f32⟩ : BufTy).Contents (Elt F) → (⟨S2x1024x16384, .f32⟩ : BufTy).Contents (Elt F)),
    StableHlo.nullary main_cst_6 (constant S_ .f32 0xFF800000#32),
    StableHlo.binary main_v22 main_cst_6 main_v23 ((fun x v => Host.reduce FloatOps.maximumf x v reducesTo_S2x1024x16384_S2x1024_d2 h_S_) : (⟨S2x1024x16384, .f32⟩ : BufTy).Contents (Elt F) → (⟨S_, .f32⟩ : BufTy).Contents (Elt F) → (⟨S2x1024, .f32⟩ : BufTy).Contents (Elt F)),
    StableHlo.nullary main_cst_7 (constant S_ .f32 0xFF800000#32),
    StableHlo.unary main_cst_7 main_v24 (broadcastInDim S2x1024 ![] bcast_S_S2x1024 : (⟨S_, .f32⟩ : BufTy).Contents (Elt F) → (⟨S2x1024, .f32⟩ : BufTy).Contents (Elt F)),
    StableHlo.binary main_v24 main_v23 main_v25 (maximumf : (⟨S2x1024, .f32⟩ : BufTy).Contents (Elt F) → (⟨S2x1024, .f32⟩ : BufTy).Contents (Elt F) → (⟨S2x1024, .f32⟩ : BufTy).Contents (Elt F)),
    StableHlo.unary main_v25 main_v26 (broadcastInDim S2x1024x1 ![0, 1] bcast_S2x1024_S2x1024x1_0_1 : (⟨S2x1024, .f32⟩ : BufTy).Contents (Elt F) → (⟨S2x1024x1, .f32⟩ : BufTy).Contents (Elt F)),
    StableHlo.unary main_v26 main_v27 (broadcastInDim S2x1024x16384 ![0, 1, 2] bcast_S2x1024x1_S2x1024x16384_0_1_2 : (⟨S2x1024x1, .f32⟩ : BufTy).Contents (Elt F) → (⟨S2x1024x16384, .f32⟩ : BufTy).Contents (Elt F)),
    StableHlo.binary main_v22 main_v27 main_v28 (subf : (⟨S2x1024x16384, .f32⟩ : BufTy).Contents (Elt F) → (⟨S2x1024x16384, .f32⟩ : BufTy).Contents (Elt F) → (⟨S2x1024x16384, .f32⟩ : BufTy).Contents (Elt F)),
    StableHlo.unary main_v28 main_v29 (Host.exp : (⟨S2x1024x16384, .f32⟩ : BufTy).Contents (Elt F) → (⟨S2x1024x16384, .f32⟩ : BufTy).Contents (Elt F)),
    StableHlo.nullary main_cst_8 (constant S_ .f32 0x00000000#32),
    StableHlo.binary main_v29 main_cst_8 main_v30 ((fun x v => Host.reduceAdd x v reducesTo_S2x1024x16384_S2x1024_d2 h_S_) : (⟨S2x1024x16384, .f32⟩ : BufTy).Contents (Elt F) → (⟨S_, .f32⟩ : BufTy).Contents (Elt F) → (⟨S2x1024, .f32⟩ : BufTy).Contents (Elt F)),
    StableHlo.unary main_v30 main_v31 (broadcastInDim S2x1024x1 ![0, 1] bcast_S2x1024_S2x1024x1_0_1 : (⟨S2x1024, .f32⟩ : BufTy).Contents (Elt F) → (⟨S2x1024x1, .f32⟩ : BufTy).Contents (Elt F)),
    StableHlo.unary main_v31 main_v32 (broadcastInDim S2x1024x16384 ![0, 1, 2] bcast_S2x1024x1_S2x1024x16384_0_1_2 : (⟨S2x1024x1, .f32⟩ : BufTy).Contents (Elt F) → (⟨S2x1024x16384, .f32⟩ : BufTy).Contents (Elt F)),
    StableHlo.binary main_v29 main_v32 main_v33 (Host.divf : (⟨S2x1024x16384, .f32⟩ : BufTy).Contents (Elt F) → (⟨S2x1024x16384, .f32⟩ : BufTy).Contents (Elt F) → (⟨S2x1024x16384, .f32⟩ : BufTy).Contents (Elt F)),
    StableHlo.binary main_arg1 main_v33 main_v34 ((fun l r => Host.dotGeneral dot_S2x3x16384_S2x1024x16384_S2x3x1024_2_2_1_1_0_0 none l r) : (⟨S2x3x16384, .f32⟩ : BufTy).Contents (Elt F) → (⟨S2x1024x16384, .f32⟩ : BufTy).Contents (Elt F) → (⟨S2x3x1024, .f32⟩ : BufTy).Contents (Elt F)),
    StableHlo.binary main_arg2 main_v33 main_v35 ((fun l r => Host.dotGeneral dot_S2x1x16384_S2x1024x16384_S2x1x1024_2_2_1_1_0_0 none l r) : (⟨S2x1x16384, .f32⟩ : BufTy).Contents (Elt F) → (⟨S2x1024x16384, .f32⟩ : BufTy).Contents (Elt F) → (⟨S2x1x1024, .f32⟩ : BufTy).Contents (Elt F)),
    StableHlo.binary main_arg4 main_v33 main_v36 ((fun l r => Host.dotGeneral dot_S2x64x16384_S2x1024x16384_S2x64x1024_2_2_1_1_0_0 none l r) : (⟨S2x64x16384, .f32⟩ : BufTy).Contents (Elt F) → (⟨S2x1024x16384, .f32⟩ : BufTy).Contents (Elt F) → (⟨S2x64x1024, .f32⟩ : BufTy).Contents (Elt F)),
    StableHlo.nullary main_cst_9 (constant S_ .f32 0x00000000#32),
    StableHlo.binary main_v36 main_cst_9 main_v37 ((fun x v => Host.reduceAdd x v reducesTo_S2x64x1024_S2x1024_d1 h_S_) : (⟨S2x64x1024, .f32⟩ : BufTy).Contents (Elt F) → (⟨S_, .f32⟩ : BufTy).Contents (Elt F) → (⟨S2x1024, .f32⟩ : BufTy).Contents (Elt F)),
    StableHlo.unary main_v37 main_v38 (broadcastInDim S2x1x1024 ![0, 2] bcast_S2x1024_S2x1x1024_0_2 : (⟨S2x1024, .f32⟩ : BufTy).Contents (Elt F) → (⟨S2x1x1024, .f32⟩ : BufTy).Contents (Elt F)),
    StableHlo.nullary main_cst_10 (constant S_ .f32 0x42800000#32),
    StableHlo.unary main_cst_10 main_v39 (broadcastInDim S2x1x1024 ![] bcast_S_S2x1x1024 : (⟨S_, .f32⟩ : BufTy).Contents (Elt F) → (⟨S2x1x1024, .f32⟩ : BufTy).Contents (Elt F)),
    StableHlo.binary main_v38 main_v39 main_v40 (Host.divf : (⟨S2x1x1024, .f32⟩ : BufTy).Contents (Elt F) → (⟨S2x1x1024, .f32⟩ : BufTy).Contents (Elt F) → (⟨S2x1x1024, .f32⟩ : BufTy).Contents (Elt F)),
    StableHlo.nullary main_c_11 (constantI S_ 32 1#32),
    StableHlo.TRef.nullary main_call2.call0.cst (constant S_ .f32 0x00000000#32),
    StableHlo.TRef.binary (TRef.of main_v36 : TRef sig ⟨S2x64x1024, .f32⟩) main_call2.call0.cst main_call2.call0.v0 (fun x v => Host.reduceAdd x v reducesTo_S2x64x1024_S2x1024_d1 h_S_),
    StableHlo.TRef.unary main_call2.call0.v0 main_call2.call0.v1 (broadcastInDim S2x1x1024 ![0, 2] bcast_S2x1024_S2x1x1024_0_2),
    StableHlo.TRef.nullary main_call2.call0.cst_0 (constant S_ .f32 0x42800000#32),
    StableHlo.TRef.unary main_call2.call0.cst_0 main_call2.call0.v2 (broadcastInDim S2x1x1024 ![] bcast_S_S2x1x1024),
    StableHlo.TRef.binary main_call2.call0.v1 main_call2.call0.v2 main_call2.call0.v3 Host.divf,
    StableHlo.TRef.unary main_call2.call0.v3 main_call2.call0.v4 (broadcastInDim S2x64x1024 ![0, 1, 2] bcast_S2x1x1024_S2x64x1024_0_1_2),
    StableHlo.TRef.binary (TRef.of main_v36 : TRef sig ⟨S2x64x1024, .f32⟩) main_call2.call0.v4 main_call2.call0.v5 subf,
    StableHlo.TRef.binary main_call2.call0.v5 main_call2.call0.v5 main_call2.call0.v6 mulf,
    StableHlo.TRef.unary (TRef.of main_c_11 : TRef sig ⟨S_, .i32⟩) main_call2.call0.v7 (sitofp .f32),
    StableHlo.TRef.nullary main_call2.call0.cst_1 (constant S_ .f32 0x42800000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S2x64x1024_S2x1024_d1 h_S_),
    StableHlo.TRef.unary main_call2.call0.v9 main_call2.call0.v10 (broadcastInDim S2x1x1024 ![0, 2] bcast_S2x1024_S2x1x1024_0_2),
    StableHlo.TRef.unary main_call2.call0.v8 main_call2.call0.v11 (broadcastInDim S2x1x1024 ![] bcast_S_S2x1x1024),
    StableHlo.TRef.binary main_call2.call0.v10 main_call2.call0.v11 main_call2.call0.v12 Host.divf,
    StableHlo.TRef.nullary main_call2.call0.cst_3 (constant S_ .f32 0x00000000#32),
    StableHlo.TRef.binary main_call2.call0.v8 main_call2.call0.cst_3 main_call2.call0.v13 (cmpf .ogt),
    StableHlo.TRef.nullary main_call2.call0.cst_4 (constant S_ .f32 0x7FC00000#32),
    StableHlo.TRef.unary main_call2.call0.cst_4 main_call2.call0.call0.v0 id,
    StableHlo.TRef.unary main_call2.call0.call0.v0 main_call2.call0.call0.v1 (broadcastInDim S2x1x1024 ![] bcast_S_S2x1x1024),
    StableHlo.TRef.ternary main_call2.call0.v13 main_call2.call0.v12 main_call2.call0.call0.v1 main_call2.call0.call0.v2 (fun p a b => select (broadcastInDim S2x1x1024 ![] bcast_S_S2x1x1024 p) a b),
    StableHlo.TRef.unary main_call2.call0.call0.v2 main_call2.v1 Host.sqrt,
    StableHlo.unary main_v40 main_v42 (broadcastInDim S2x64x1024 ![0, 1, 2] bcast_S2x1x1024_S2x64x1024_0_1_2 : (⟨S2x1x1024, .f32⟩ : BufTy).Contents (Elt F) → (⟨S2x64x1024, .f32⟩ : BufTy).Contents (Elt F)),
    StableHlo.binary main_v36 main_v42 main_v43 (subf : (⟨S2x64x1024, .f32⟩ : BufTy).Contents (Elt F) → (⟨S2x64x1024, .f32⟩ : BufTy).Contents (Elt F) → (⟨S2x64x1024, .f32⟩ : BufTy).Contents (Elt F)),
    StableHlo.unary main_v41 main_v44 (broadcastInDim S2x64x1024 ![0, 1, 2] bcast_S2x1x1024_S2x64x1024_0_1_2 : (⟨S2x1x1024, .f32⟩ : BufTy).Contents (Elt F) → (⟨S2x64x1024, .f32⟩ : BufTy).Contents (Elt F)),
    StableHlo.binary main_v43 main_v44 main_v45 (Host.divf : (⟨S2x64x1024, .f32⟩ : BufTy).Contents (Elt F) → (⟨S2x64x1024, .f32⟩ : BufTy).Contents (Elt F) → (⟨S2x64x1024, .f32⟩ : BufTy).Contents (Elt F)) ]

-- one hundred and twenty-nine binds re-associated: the rewrite under the chain recurses once per statement
set_option maxRecDepth 16384 in
set_option maxHeartbeats 4000000 in
/-- @main is that straight line: the two windows and the helpers' definitions unfolded at their calls, both
    sides are one chain of operation steps once sequencing is re-associated. -/
theorem main_eq (c : Dev nD) : main (F := F) c = seq ops := by
  simp only [main, main_part0, main_part1, fn_std.body, fn_var.body, fn_where.body, fn_std_0.body, fn_var_1.body,
    fn_where_2.body, fn_std_3.body, fn_var_4.body, seq, bind_assoc, pure_bind]

/-- The signature scopes no TensorCore buffer and no semaphore: every buffer is a tensor value of @main. -/
theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., binary_bufs_sub ..⟩

set_option maxRecDepth 16384 in
/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves: the arguments unchanged, the results as the staged functions of the arguments -/

set_option maxRecDepth 16384 in
set_option maxHeartbeats 4000000 in
/-- No operation writes argument 0: the fold leaves it as it was. -/
theorem arg0_eq (V : Valuation τ sig (Elt F)) :
    after ops V (main_arg0 : DevRef τ sig) = V (main_arg0 : DevRef τ sig) := by
  after_results_simp

set_option maxRecDepth 16384 in
set_option maxHeartbeats 4000000 in
/-- No operation writes argument 1: the fold leaves it as it was. -/
theorem arg1_eq (V : Valuation τ sig (Elt F)) :
    after ops V (main_arg1 : DevRef τ sig) = V (main_arg1 : DevRef τ sig) := by
  after_results_simp

set_option maxRecDepth 16384 in
set_option maxHeartbeats 4000000 in
/-- No operation writes argument 2: the fold leaves it as it was. -/
theorem arg2_eq (V : Valuation τ sig (Elt F)) :
    after ops V (main_arg2 : DevRef τ sig) = V (main_arg2 : DevRef τ sig) := by
  after_results_simp

set_option maxRecDepth 16384 in
set_option maxHeartbeats 4000000 in
/-- No operation writes argument 3: the fold leaves it as it was. -/
theorem arg3_eq (V : Valuation τ sig (Elt F)) :
    after ops V (main_arg3 : DevRef τ sig) = V (main_arg3 : DevRef τ sig) := by
  after_results_simp

set_option maxRecDepth 16384 in
set_option maxHeartbeats 4000000 in
/-- No operation writes argument 4: the fold leaves it as it was. -/
theorem arg4_eq (V : Valuation τ sig (Elt F)) :
    after ops V (main_arg4 : DevRef τ sig) = V (main_arg4 : DevRef τ sig) := by
  after_results_simp

attribute [local irreducible] Host.reduce Host.reduceAdd Host.sqrt Host.exp Host.divf in
set_option maxRecDepth 16384 in
set_option maxHeartbeats 8000000 in
/-- The first result: the batched product of the second argument with the softmax, contracting the last axes. -/
theorem v34_eq (V : Valuation τ sig (Elt F)) :
    after ops V (main_v34 : DevRef τ sig)
      = Host.dotGeneral dot_S2x3x16384_S2x1024x16384_S2x3x1024_2_2_1_1_0_0 none (V (main_arg1 : DevRef τ sig))
          (soft (zn3 (V (main_arg3 : DevRef τ sig))) (zn4 (V (main_arg4 : DevRef τ sig)))) := by
  after_results_simp
  rfl

attribute [local irreducible] Host.reduce Host.reduceAdd Host.sqrt Host.exp Host.divf in
set_option maxRecDepth 16384 in
set_option maxHeartbeats 8000000 in
/-- The second result: the same product for the third argument. -/
theorem v35_eq (V : Valuation τ sig (Elt F)) :
    after ops V (main_v35 : DevRef τ sig)
      = Host.dotGeneral dot_S2x1x16384_S2x1024x16384_S2x1x1024_2_2_1_1_0_0 none (V (main_arg2 : DevRef τ sig))
          (soft (zn3 (V (main_arg3 : DevRef τ sig))) (zn4 (V (main_arg4 : DevRef τ sig)))) := by
  after_results_simp
  rfl

attribute [local irreducible] Host.reduce Host.reduceAdd Host.sqrt Host.exp Host.divf in
set_option maxRecDepth 16384 in
set_option maxHeartbeats 8000000 in
/-- The third result: the same product for the fifth argument, normalised along its second axis. -/
theorem v45_eq (V : Valuation τ sig (Elt F)) :
    after ops V (main_v45 : DevRef τ sig)
      = znOut (Host.dotGeneral dot_S2x64x16384_S2x1024x16384_S2x64x1024_2_2_1_1_0_0 none (V (main_arg4 : DevRef τ sig))
          (soft (zn3 (V (main_arg3 : DevRef τ sig))) (zn4 (V (main_arg4 : DevRef τ sig))))) := by
  after_results_simp
  rfl

/-- The run, read at the results and the arguments: on every device, for any float values, from any memory with zero
    counters, every weakly fair execution of @main terminates with the three results at the staged functions of the
    arguments' launch contents and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = Host.dotGeneral dot_S2x3x16384_S2x1024x16384_S2x3x1024_2_2_1_1_0_0 none (m ((c.tc : Thread nD τ).loc main_arg1)) (soft (zn3 (m ((c.tc : Thread nD τ).loc main_arg3))) (zn4 (m ((c.tc : Thread nD τ).loc main_arg4))))
      ∧ r.2.mem ((c.tc : Thread nD τ).loc main_v35)
          = Host.dotGeneral dot_S2x1x16384_S2x1024x16384_S2x1x1024_2_2_1_1_0_0 none (m ((c.tc : Thread nD τ).loc main_arg2)) (soft (zn3 (m ((c.tc : Thread nD τ).loc main_arg3))) (zn4 (m ((c.tc : Thread nD τ).loc main_arg4))))
      ∧ r.2.mem ((c.tc : Thread nD τ).loc main_v45)
          = znOut (Host.dotGeneral dot_S2x64x16384_S2x1024x16384_S2x64x1024_2_2_1_1_0_0 none (m ((c.tc : Thread nD τ).loc main_arg4)) (soft (zn3 (m ((c.tc : Thread nD τ).loc main_arg3))) (zn4 (m ((c.tc : Thread nD τ).loc main_arg4)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v34).trans (v34_eq _), (h c main_v35).trans (v35_eq _),
      (h c main_v45).trans (v45_eq _), (h c main_arg0).trans (arg0_eq _), (h c main_arg1).trans (arg1_eq _),
      (h c main_arg2).trans (arg2_eq _), (h c main_arg3).trans (arg3_eq _), (h c main_arg4).trans (arg4_eq _)⟩)
    (run_main m ρ)

end Cert.ReferenceIdeal.RefRun

end
-- ==== Proof.LibOnlineSoftmax.lean ====
import Mathlib.Analysis.SpecialFunctions.Exp

/-!
# The online (tiled) computation of a softmax-weighted average

A softmax-weighted average `∑ i, v i * (exp (s i - M) / ∑ j, exp (s j - M))`, with `M` the
largest score, can be accumulated one block of indices at a time.  The running state is the
largest score seen so far `m`, the sum `l` of the exponentials shifted by `m`, and the sum
`acc` of the same exponentials weighted by the values.  When a new block raises the maximum
from `m` to `m'`, the two running sums are rescaled by `exp (m - m')`, because
`exp (m - m') * exp (x - m) = exp (x - m')`.  At the end `acc / l` is the weighted average.
-/

namespace OnlineSoftmax

variable {ι : Type*} [DecidableEq ι]

/-- the online-softmax state over the finite nonempty set I of targets seen so far: m is the
largest score, l the sum of the shifted exponentials, acc their sum weighted by the values -/
structure Inv (I : Finset ι) (hI : I.Nonempty) (s v : ι → ℝ) (m l acc : ℝ) : Prop where
  m_eq : m = I.sup' hI s
  l_eq : l = ∑ i ∈ I, Real.exp (s i - m)
  acc_eq : acc = ∑ i ∈ I, Real.exp (s i - m) * v i

/-- changing the shift of an exponential from `m` to `m'` multiplies it by `exp (m - m')` -/
theorem exp_rescale (x m m' : ℝ) :
    Real.exp (m - m') * Real.exp (x - m) = Real.exp (x - m') := by
  rw [← Real.exp_add]
  congr 1
  ring

/-- the state after the first block `J`: its largest score and its two shifted sums -/
theorem Inv.first (J : Finset ι) (hJ : J.Nonempty) (s v : ι → ℝ) :
    Inv J hJ s v (J.sup' hJ s) (∑ i ∈ J, Real.exp (s i - J.sup' hJ s))
      (∑ i ∈ J, Real.exp (s i - J.sup' hJ s) * v i) :=
  ⟨rfl, rfl, rfl⟩

/-- absorbing a new disjoint block `J`: the maximum becomes `max m (sup J)`, and both running
sums are rescaled by `exp (m - m')` before the block's own shifted terms are added -/
theorem Inv.step {I : Finset ι} {hI : I.Nonempty} {s v : ι → ℝ} {m l acc : ℝ}
    (h : Inv I hI s v m l acc) (J : Finset ι) (hJ : J.Nonempty) (hd : Disjoint I J) :
    Inv (I ∪ J) (hI.mono Finset.subset_union_left) s v (max m (J.sup' hJ s))
      (Real.exp (m - max m (J.sup' hJ s)) * l
        + ∑ i ∈ J, Real.exp (s i - max m (J.sup' hJ s)))
      (Real.exp (m - max m (J.sup' hJ s)) * acc
        + ∑ i ∈ J, Real.exp (s i - max m (J.sup' hJ s)) * v i) := by
  obtain ⟨hm, hl, hacc⟩ := h
  refine ⟨?_, ?_, ?_⟩
  · rw [Finset.sup'_union hI hJ, ← hm]
  · rw [Finset.sum_union hd, hl, Finset.mul_sum]
    congr 1
    exact Finset.sum_congr rfl fun i _ => exp_rescale _ _ _
  · rw [Finset.sum_union hd, hacc, Finset.mul_sum]
    congr 1
    refine Finset.sum_congr rfl fun i _ => ?_
    rw [← mul_assoc, exp_rescale]

/-- the sum of the shifted exponentials over a nonempty set is positive -/
theorem Inv.l_pos {I : Finset ι} {hI : I.Nonempty} {s v : ι → ℝ} {m l acc : ℝ}
    (h : Inv I hI s v m l acc) : 0 < l := by
  rw [h.l_eq]
  exact Finset.sum_pos (fun i _ => Real.exp_pos _) hI

/-- the quotient of the two running sums is the softmax-weighted average of the values -/
theorem Inv.final {I : Finset ι} {hI : I.Nonempty} {s v : ι → ℝ} {m l acc : ℝ}
    (h : Inv I hI s v m l acc) :
    acc / l = ∑ i ∈ I, v i *
      (Real.exp (s i - I.sup' hI s) / ∑ j ∈ I, Real.exp (s j - I.sup' hI s)) := by
  obtain ⟨rfl, rfl, rfl⟩ := h
  rw [div_eq_mul_inv, Finset.sum_mul]
  refine Finset.sum_congr rfl fun i _ => ?_
  ring

end OnlineSoftmax
-- ==== Proof.LibSoftmaxIdeal.lean ====
import proofs.«109630_j50577534877890_2_alg».proof.Proof.LibOnlineSoftmax
import proofs.«109630_j50577534877890_2_alg».proof.Proof.LibIdealReal

/-!
# The online softmax average and the plain softmax average on extended reals

The scores and values are real functions `s v : ι → ℝ`; what a program holds are extended
reals that equal their coercions.  A block (tile) of `T > 0` targets is the image of `Fin T`
under an injection `emb : Fin T ↪ ι`; its data are functions `g w : Fin T → EReal` with
`g i = ↑(s (emb i))` and `w i = ↑(v (emb i))`.

One step of the online computation, written with the extended-real operations
(`max` folded from `-∞`, `Ideal.exp`, sums over `Fin T`), produces the coercions of the
real state of `OnlineSoftmax.Inv.step` (`Inv.first` for the first block, where the old maximum
is `-∞` and the old sums are `0`).  The final quotient `Ideal.div ↑acc ↑l` and the plain
softmax-weighted average over all targets, written with the same operations, are both the
coercion of the real softmax-weighted average, hence equal.
-/

namespace SoftmaxIdeal

open Idealize.ShloMosaic OnlineSoftmax

variable {ι : Type*} [DecidableEq ι] {T : ℕ} [NeZero T]

/-- the set of targets of a block: the image of `Fin T` under the injection -/
abbrev tile (emb : Fin T ↪ ι) : Finset ι := Finset.univ.map emb

/-- a block of `T > 0` targets is nonempty -/
theorem tile_nonempty (emb : Fin T ↪ ι) : (tile emb).Nonempty :=
  Finset.univ_nonempty.map

/-- the exponential of a difference of two reals, taken in the extended reals -/
theorem exp_sub_coe (x M : ℝ) :
    Ideal.exp ((x : EReal) - (M : EReal)) = ((Real.exp (x - M) : ℝ) : EReal) := by
  rw [← EReal.coe_sub]
  rfl

/-- the rescaling factor from the maximum `-∞` is `exp (-∞) = 0` -/
theorem exp_bot_sub (x : EReal) : Ideal.exp ((⊥ : EReal) - x) = 0 := by
  rw [EReal.bot_sub]
  rfl

/-- the maximum of a block's scores, folded from `-∞`, is the coercion of their real supremum -/
theorem tile_fold_max (emb : Fin T ↪ ι) (s : ι → ℝ) (g : Fin T → EReal)
    (hg : ∀ i, g i = ((s (emb i) : ℝ) : EReal)) :
    (Finset.univ : Finset (Fin T)).fold max ⊥ g
      = (((tile emb).sup' (tile_nonempty emb) s : ℝ) : EReal) := by
  rw [IdealReal.fold_max_eq_sup'_of_eq Finset.univ Finset.univ_nonempty g (fun i => s (emb i))
    (fun i _ => hg i), Finset.sup'_map]
  rfl

/-- the sum over a block of the exponentials shifted by a real `M` -/
theorem tile_sum_exp (emb : Fin T ↪ ι) (s : ι → ℝ) (g : Fin T → EReal)
    (hg : ∀ i, g i = ((s (emb i) : ℝ) : EReal)) (M : ℝ) :
    ∑ i : Fin T, Ideal.exp (g i - (M : EReal))
      = ((∑ j ∈ tile emb, Real.exp (s j - M) : ℝ) : EReal) := by
  rw [Finset.sum_map, IdealReal.coe_sum]
  refine Finset.sum_congr rfl fun i _ => ?_
  rw [hg i, exp_sub_coe]

/-- the sum over a block of the shifted exponentials weighted by the values -/
theorem tile_sum_exp_mul (emb : Fin T ↪ ι) (s v : ι → ℝ) (g w : Fin T → EReal)
    (hg : ∀ i, g i = ((s (emb i) : ℝ) : EReal)) (hw : ∀ i, w i = ((v (emb i) : ℝ) : EReal))
    (M : ℝ) :
    ∑ i : Fin T, Ideal.exp (g i - (M : EReal)) * w i
      = ((∑ j ∈ tile emb, Real.exp (s j - M) * v j : ℝ) : EReal) := by
  rw [Finset.sum_map, IdealReal.coe_sum]
  refine Finset.sum_congr rfl fun i _ => ?_
  rw [hg i, hw i, exp_sub_coe]
  exact (EReal.coe_mul _ _).symm

/-- the first block, started from the maximum `-∞` and the sums `0`: the new maximum and the two
new sums are the coercions of the real state of `Inv.first` -/
theorem first_step (emb : Fin T ↪ ι) (s v : ι → ℝ) (g w : Fin T → EReal)
    (hg : ∀ i, g i = ((s (emb i) : ℝ) : EReal)) (hw : ∀ i, w i = ((v (emb i) : ℝ) : EReal))
    (mNew : EReal) (hmNew : mNew = max ⊥ ((Finset.univ : Finset (Fin T)).fold max ⊥ g)) :
    mNew = (((tile emb).sup' (tile_nonempty emb) s : ℝ) : EReal)
    ∧ Ideal.exp (⊥ - mNew) * 0 + ∑ i : Fin T, Ideal.exp (g i - mNew)
        = ((∑ j ∈ tile emb, Real.exp (s j - (tile emb).sup' (tile_nonempty emb) s) : ℝ) : EReal)
    ∧ Ideal.exp (⊥ - mNew) * 0 + ∑ i : Fin T, Ideal.exp (g i - mNew) * w i
        = ((∑ j ∈ tile emb, Real.exp (s j - (tile emb).sup' (tile_nonempty emb) s) * v j : ℝ)
            : EReal) := by
  have hm : mNew = (((tile emb).sup' (tile_nonempty emb) s : ℝ) : EReal) := by
    rw [hmNew, IdealReal.bot_max, tile_fold_max emb s g hg]
  refine ⟨hm, ?_, ?_⟩
  · rw [exp_bot_sub, zero_mul, zero_add, hm, tile_sum_exp emb s g hg]
  · rw [exp_bot_sub, zero_mul, zero_add, hm, tile_sum_exp_mul emb s v g w hg hw]

/-- the state after the first block, packaged: real `m l acc` whose coercions are the three
extended-real expressions, and which satisfy the invariant over the block -/
theorem first_step_inv (emb : Fin T ↪ ι) (s v : ι → ℝ) (g w : Fin T → EReal)
    (hg : ∀ i, g i = ((s (emb i) : ℝ) : EReal)) (hw : ∀ i, w i = ((v (emb i) : ℝ) : EReal))
    (mNew : EReal) (hmNew : mNew = max ⊥ ((Finset.univ : Finset (Fin T)).fold max ⊥ g)) :
    ∃ m l acc : ℝ, mNew = (m : EReal)
      ∧ Ideal.exp (⊥ - mNew) * 0 + ∑ i : Fin T, Ideal.exp (g i - mNew) = (l : EReal)
      ∧ Ideal.exp (⊥ - mNew) * 0 + ∑ i : Fin T, Ideal.exp (g i - mNew) * w i = (acc : EReal)
      ∧ Inv (tile emb) (tile_nonempty emb) s v m l acc :=
  ⟨_, _, _, (first_step emb s v g w hg hw mNew hmNew).1,
    (first_step emb s v g w hg hw mNew hmNew).2.1, (first_step emb s v g w hg hw mNew hmNew).2.2,
    Inv.first (tile emb) (tile_nonempty emb) s v⟩

/-- a later block, disjoint from the targets seen so far: the new maximum and the two rescaled
and extended sums are the coercions of the real state of `Inv.step` -/
theorem step {I : Finset ι} {hI : I.Nonempty} {s v : ι → ℝ} {m l acc : ℝ}
    (_h : Inv I hI s v m l acc) (emb : Fin T ↪ ι) (g w : Fin T → EReal)
    (hg : ∀ i, g i = ((s (emb i) : ℝ) : EReal)) (hw : ∀ i, w i = ((v (emb i) : ℝ) : EReal))
    (mNew : EReal)
    (hmNew : mNew = max (m : EReal) ((Finset.univ : Finset (Fin T)).fold max ⊥ g)) :
    mNew = ((max m ((tile emb).sup' (tile_nonempty emb) s) : ℝ) : EReal)
    ∧ Ideal.exp ((m : EReal) - mNew) * (l : EReal) + ∑ i : Fin T, Ideal.exp (g i - mNew)
        = ((Real.exp (m - max m ((tile emb).sup' (tile_nonempty emb) s)) * l
            + ∑ j ∈ tile emb, Real.exp (s j - max m ((tile emb).sup' (tile_nonempty emb) s)) : ℝ)
            : EReal)
    ∧ Ideal.exp ((m : EReal) - mNew) * (acc : EReal) + ∑ i : Fin T, Ideal.exp (g i - mNew) * w i
        = ((Real.exp (m - max m ((tile emb).sup' (tile_nonempty emb) s)) * acc
            + ∑ j ∈ tile emb,
                Real.exp (s j - max m ((tile emb).sup' (tile_nonempty emb) s)) * v j : ℝ)
            : EReal) := by
  have hm : mNew = ((max m ((tile emb).sup' (tile_nonempty emb) s) : ℝ) : EReal) := by
    rw [hmNew, tile_fold_max emb s g hg, IdealReal.coe_max]
  refine ⟨hm, ?_, ?_⟩
  · rw [hm, exp_sub_coe, ← EReal.coe_mul, tile_sum_exp emb s g hg, ← EReal.coe_add]
  · rw [hm, exp_sub_coe, ← EReal.coe_mul, tile_sum_exp_mul emb s v g w hg hw, ← EReal.coe_add]

/-- the state after a later block, packaged: real `m' l' acc'` whose coercions are the three
extended-real expressions, and which satisfy the invariant over the enlarged set -/
theorem step_inv {I : Finset ι} {hI : I.Nonempty} {s v : ι → ℝ} {m l acc : ℝ}
    (h : Inv I hI s v m l acc) (emb : Fin T ↪ ι) (hd : Disjoint I (tile emb))
    (g w : Fin T → EReal)
    (hg : ∀ i, g i = ((s (emb i) : ℝ) : EReal)) (hw : ∀ i, w i = ((v (emb i) : ℝ) : EReal))
    (mNew : EReal)
    (hmNew : mNew = max (m : EReal) ((Finset.univ : Finset (Fin T)).fold max ⊥ g)) :
    ∃ m' l' acc' : ℝ, mNew = (m' : EReal)
      ∧ Ideal.exp ((m : EReal) - mNew) * (l : EReal) + ∑ i : Fin T, Ideal.exp (g i - mNew)
          = (l' : EReal)
      ∧ Ideal.exp ((m : EReal) - mNew) * (acc : EReal)
          + ∑ i : Fin T, Ideal.exp (g i - mNew) * w i = (acc' : EReal)
      ∧ Inv (I ∪ tile emb) (hI.mono Finset.subset_union_left) s v m' l' acc' :=
  ⟨_, _, _, (step h emb g w hg hw mNew hmNew).1, (step h emb g w hg hw mNew hmNew).2.1,
    (step h emb g w hg hw mNew hmNew).2.2, h.step (tile emb) (tile_nonempty emb) hd⟩

/-- the final quotient of the two running sums, taken in the extended reals, is the real one -/
theorem final_div {I : Finset ι} {hI : I.Nonempty} {s v : ι → ℝ} {m l acc : ℝ}
    (h : Inv I hI s v m l acc) :
    Ideal.div ((acc : ℝ) : EReal) ((l : ℝ) : EReal) = ((acc / l : ℝ) : EReal) :=
  IdealReal.div_coe_coe acc l h.l_pos.ne'

/-- the plain softmax-weighted average over a nonempty finite set, written with the
extended-real operations on data that are coerced reals, is the coercion of the real average;
`X` is the maximum (folded from `-∞`, and compared with `-∞` once more), `e` the shifted
exponentials and `L` their sum started from `0` -/
theorem reference_avg' (I : Finset ι) (hI : I.Nonempty) (s v : ι → ℝ) (gs ws : ι → EReal)
    (hgs : ∀ i ∈ I, gs i = ((s i : ℝ) : EReal)) (hws : ∀ i ∈ I, ws i = ((v i : ℝ) : EReal))
    (X L : EReal) (e : ι → EReal)
    (hX : X = max ⊥ (I.fold max ⊥ gs)) (he : ∀ i ∈ I, e i = Ideal.exp (gs i - X))
    (hL : L = 0 + ∑ j ∈ I, e j) :
    ∑ i ∈ I, ws i * Ideal.div (e i) L
      = ((∑ i ∈ I, v i * (Real.exp (s i - I.sup' hI s) / ∑ j ∈ I, Real.exp (s j - I.sup' hI s))
          : ℝ) : EReal) := by
  have hX' : X = ((I.sup' hI s : ℝ) : EReal) := by
    rw [hX, IdealReal.bot_max, IdealReal.fold_max_eq_sup'_of_eq I hI gs s hgs]
  have he' : ∀ i ∈ I, e i = ((Real.exp (s i - I.sup' hI s) : ℝ) : EReal) := fun i hi => by
    rw [he i hi, hgs i hi, hX', exp_sub_coe]
  have hL' : L = ((∑ j ∈ I, Real.exp (s j - I.sup' hI s) : ℝ) : EReal) := by
    rw [hL, zero_add, IdealReal.coe_sum]
    exact Finset.sum_congr rfl he'
  have hpos : (∑ j ∈ I, Real.exp (s j - I.sup' hI s)) ≠ 0 :=
    (Finset.sum_pos (fun j _ => Real.exp_pos _) hI).ne'
  rw [IdealReal.coe_sum]
  refine Finset.sum_congr rfl fun i hi => ?_
  rw [he' i hi, hL', hws i hi, IdealReal.div_coe_coe _ _ hpos]
  exact (EReal.coe_mul _ _).symm

/-- the same with the maximum, the exponentials and their sum written out -/
theorem reference_avg (I : Finset ι) (hI : I.Nonempty) (s v : ι → ℝ) (gs ws : ι → EReal)
    (hgs : ∀ i ∈ I, gs i = ((s i : ℝ) : EReal)) (hws : ∀ i ∈ I, ws i = ((v i : ℝ) : EReal)) :
    ∑ i ∈ I, ws i * Ideal.div (Ideal.exp (gs i - max ⊥ (I.fold max ⊥ gs)))
        (0 + ∑ j ∈ I, Ideal.exp (gs j - max ⊥ (I.fold max ⊥ gs)))
      = ((∑ i ∈ I, v i * (Real.exp (s i - I.sup' hI s) / ∑ j ∈ I, Real.exp (s j - I.sup' hI s))
          : ℝ) : EReal) :=
  reference_avg' I hI s v gs ws hgs hws _ _ _ rfl (fun _ _ => rfl) rfl

/-- the quotient of the online running sums equals the plain softmax-weighted average, both
written with the extended-real operations -/
theorem online_eq_reference' {I : Finset ι} {hI : I.Nonempty} {s v : ι → ℝ} {m l acc : ℝ}
    (h : Inv I hI s v m l acc) (gs ws : ι → EReal)
    (hgs : ∀ i ∈ I, gs i = ((s i : ℝ) : EReal)) (hws : ∀ i ∈ I, ws i = ((v i : ℝ) : EReal))
    (X L : EReal) (e : ι → EReal)
    (hX : X = max ⊥ (I.fold max ⊥ gs)) (he : ∀ i ∈ I, e i = Ideal.exp (gs i - X))
    (hL : L = 0 + ∑ j ∈ I, e j) :
    Ideal.div ((acc : ℝ) : EReal) ((l : ℝ) : EReal) = ∑ i ∈ I, ws i * Ideal.div (e i) L := by
  rw [final_div h, h.final, reference_avg' I hI s v gs ws hgs hws X L e hX he hL]

/-- the same with the maximum, the exponentials and their sum written out -/
theorem online_eq_reference {I : Finset ι} {hI : I.Nonempty} {s v : ι → ℝ} {m l acc : ℝ}
    (h : Inv I hI s v m l acc) (gs ws : ι → EReal)
    (hgs : ∀ i ∈ I, gs i = ((s i : ℝ) : EReal)) (hws : ∀ i ∈ I, ws i = ((v i : ℝ) : EReal)) :
    Ideal.div ((acc : ℝ) : EReal) ((l : ℝ) : EReal)
      = ∑ i ∈ I, ws i * Ideal.div (Ideal.exp (gs i - max ⊥ (I.fold max ⊥ gs)))
          (0 + ∑ j ∈ I, Ideal.exp (gs j - max ⊥ (I.fold max ⊥ gs))) :=
  online_eq_reference' h gs ws hgs hws _ _ _ rfl (fun _ _ => rfl) rfl

end SoftmaxIdeal
-- ==== Proof.RefRead.lean ====
/-
  The reference's results read at an index, at the ideal instance (a float an extended real, every operation exact),
  for argument arrays whose entries are coerced reals: each stage of the run is, entry by entry, the coercion of the
  real-number specification — the normalised columns, the scaled inner products, and the softmax-weighted averages.
-/
import proofs.«109630_j50577534877890_2_alg».proof.Proof.RefRun
import proofs.«109630_j50577534877890_2_alg».proof.Proof.Spec
import proofs.«109630_j50577534877890_2_alg».proof.Proof.LibSoftmaxIdeal
import proofs.«109630_j50577534877890_2_alg».proof.Proof.LibIdealReal
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx

/-! ## The constants the program spells, as the extended reals their patterns denote -/

/-- `64.0` denotes the real 64. -/
theorem ofBits_64 : Ideal.ofBits .f32 0x42800000#32 = ((64 : ℝ) : EReal) := by
  simp [Ideal.ofBits, Ideal.ieee, -EReal.coe_mul]; norm_num

/-- The temperature's pattern denotes the binary fraction 5368709 / 2^28. -/
theorem ofBits_D : Ideal.ofBits .f32 0x3CA3D70A#32 = ((Matcher.D : ℝ) : EReal) := by
  unfold Matcher.D
  simp [Ideal.ofBits, Ideal.ieee, -EReal.coe_mul]; norm_num

/-- Minus infinity, and the not-a-number pattern, both denote the bottom element. -/
theorem ofBits_ninf : Ideal.ofBits .f32 0xFF800000#32 = ⊥ := by simp [Ideal.ofBits, Ideal.ieee]
theorem ofBits_nan : Ideal.ofBits .f32 0x7FC00000#32 = ⊥ := by simp [Ideal.ofBits, Ideal.ieee]

/-- The divisor of the unbiased variance as the program computes it, `64 - 1` with the one converted from an
    integer, is the real 63. -/
theorem count_eq (k : S_.Idx) :
    (subf (constant S_ .f32 0x42800000#32) (sitofp .f32 (constantI S_ 32 1#32)) : FVec Ideal S_ .f32) k
      = ((63 : ℝ) : EReal) := by
  show Ideal.ofBits .f32 0x42800000#32 - (((1#32 : BitVec 32).toInt : ℝ) : EReal) = _
  rw [ofBits_64, show ((1#32 : BitVec 32).toInt) = 1 from by decide, ← EReal.coe_sub]
  norm_num

/-- That count is positive: the comparison the select reads is the bit one. -/
theorem count_pos (k : S_.Idx) :
    (cmpf .ogt (subf (constant S_ .f32 0x42800000#32) (sitofp .f32 (constantI S_ 32 1#32)) : FVec Ideal S_ .f32)
      (constant S_ .f32 0x00000000#32)) k = 1#1 := by
  rw [cmpf_apply, count_eq, Ideal.cmpf_def]
  show BitVec.ofBool (decide (Ideal.ofBits .f32 0x00000000#32 < ((63 : ℝ) : EReal))) = 1#1
  rw [Ideal.ofBits_zero_f32, decide_eq_true (by exact_mod_cast (by norm_num : (0 : ℝ) < 63))]
  rfl

/-! ## The normalisation along the channel axis, last extent 1024 -/

/-- The host's sum over the channel axis from zero, read at (b, n): the sum over the 64 channels. -/
theorem reduceAdd3_apply (x : FVec Ideal S2x64x1024 .f32) (b : Fin 2) (n : Fin 1024) :
    Host.reduceAdd x (constant S_ .f32 0x00000000#32) reducesTo_S2x64x1024_S2x1024_d1 h_S_ (ix2 b n) = ∑ c : Fin 64, x (ix3 b c n) := by
  have h : S2x64x1024.Reduces [1] S2x1024 := by decide
  unfold Host.reduceAdd
  rw [Ideal.hostReduceAdd_def, Ideal.hostReduceAdd_single _ h, constant_apply, Ideal.ofBits_zero_f32, zero_add]
  refine Finset.sum_congr rfl fun k _ => congrArg x ?_
  funext c; apply Fin.ext
  fin_cases c <;> rfl

/-- A (batch, position) array kept as a unit channel axis, read at (b, 0, n). -/
theorem bcast02_3_apply (y : FVec Ideal S2x1024 .f32) (b : Fin 2) (z : Fin 1) (n : Fin 1024) :
    broadcastInDim S2x1x1024 ![0, 2] bcast_S2x1024_S2x1x1024_0_2 y (ix3 b z n) = y (ix2 b n) :=
  broadcastInDim_apply _ _ _ _ (ix2 b n) fun a => by fin_cases a <;> rfl

/-- A scalar broadcast to the unit-channel shape reads the scalar. -/
theorem bcast0_3_apply {α : Type} (y : S_.Idx → α) (j : S2x1x1024.Idx) :
    broadcastInDim S2x1x1024 ![] bcast_S_S2x1x1024 y j = y ix0 :=
  broadcastInDim_apply _ _ _ _ ix0 fun a => a.elim0

/-- The unit channel axis broadcast back over the 64 channels, read at (b, c, n). -/
theorem bcast012_3_apply (y : FVec Ideal S2x1x1024 .f32) (b : Fin 2) (c : Fin 64) (n : Fin 1024) :
    broadcastInDim S2x64x1024 ![0, 1, 2] bcast_S2x1x1024_S2x64x1024_0_1_2 y (ix3 b c n) = y (ix3 b (0 : Fin 1) n) :=
  broadcastInDim_apply _ _ _ _ (ix3 b (0 : Fin 1) n) fun a => by fin_cases a <;> rfl

section
variable (r : Fin 2 → Fin 64 → Fin 1024 → ℝ) (a : FVec Ideal S2x64x1024 .f32)
  (ha : ∀ b c n, a (ix3 b c n) = ((r b c n : ℝ) : EReal))
include ha

/-- The mean of a column, read at (b, 0, n). -/
theorem mean3_apply (b : Fin 2) (n : Fin 1024) :
    mean3 (F := Ideal) a (ix3 b (0 : Fin 1) n) = ((Matcher.mean (fun c => r b c n) : ℝ) : EReal) := by
  unfold mean3 Host.divf
  rw [Ideal.hostDivf_def, bcast02_3_apply, bcast0_3_apply, reduceAdd3_apply, constant_apply, ofBits_64]
  simp only [ha]
  rw [← IdealReal.coe_sum, IdealReal.div_coe_coe _ _ (by norm_num)]
  rfl

/-- The deviation from the mean, read at (b, c, n). -/
theorem dev3_apply (b : Fin 2) (c : Fin 64) (n : Fin 1024) :
    dev3 (F := Ideal) a (ix3 b c n) = ((r b c n - Matcher.mean (fun c => r b c n) : ℝ) : EReal) := by
  unfold dev3
  rw [subf_apply, bcast012_3_apply, mean3_apply r a ha, ha, ← EReal.coe_sub]

/-- The unbiased variance of a column, read at (b, 0, n). -/
theorem var3_apply (b : Fin 2) (n : Fin 1024) :
    var3 (F := Ideal) a (ix3 b (0 : Fin 1) n) = ((Matcher.var (fun c => r b c n) : ℝ) : EReal) := by
  unfold var3 Host.divf
  rw [select_apply, bcast0_3_apply, count_pos, select_one, Ideal.hostDivf_def, bcast02_3_apply, bcast0_3_apply,
    reduceAdd3_apply, count_eq]
  simp only [mulf_apply, dev3_apply r a ha, ← EReal.coe_mul]
  rw [← IdealReal.coe_sum, IdealReal.div_coe_coe _ _ (by norm_num)]
  rfl

/-- A normalised column, read at (b, c, n): the coercion of the real normalisation, the standard deviation positive. -/
theorem zn3_apply (hsd : ∀ b n, 0 < Matcher.sd (fun c => r b c n)) (b : Fin 2) (c : Fin 64) (n : Fin 1024) :
    zn3 (F := Ideal) a (ix3 b c n) = ((Matcher.zn (fun c => r b c n) c : ℝ) : EReal) := by
  unfold zn3 Host.divf Host.sqrt
  rw [Ideal.hostDivf_def, subf_apply, bcast012_3_apply, bcast012_3_apply, Ideal.hostUnary_sqrt_def, mean3_apply r a ha,
    var3_apply r a ha, ha, ← EReal.coe_sub, IdealReal.sqrt_coe _ (Matcher.var_nonneg _),
    IdealReal.div_coe_coe _ _ (ne_of_gt (show 0 < Real.sqrt (Matcher.var fun c => r b c n) from hsd b n))]
  rfl

end

/-! ## The normalisation along the channel axis, last extent 16384 -/

/-- The host's sum over the channel axis from zero, read at (b, n): the sum over the 64 channels. -/
theorem reduceAdd4_apply (x : FVec Ideal S2x64x16384 .f32) (b : Fin 2) (n : Fin 16384) :
    Host.reduceAdd x (constant S_ .f32 0x00000000#32) reducesTo_S2x64x16384_S2x16384_d1 h_S_ (ix2 b n) = ∑ c : Fin 64, x (ix3 b c n) := by
  have h : S2x64x16384.Reduces [1] S2x16384 := by decide
  unfold Host.reduceAdd
  rw [Ideal.hostReduceAdd_def, Ideal.hostReduceAdd_single _ h, constant_apply, Ideal.ofBits_zero_f32, zero_add]
  refine Finset.sum_congr rfl fun k _ => congrArg x ?_
  funext c; apply Fin.ext
  fin_cases c <;> rfl

/-- A (batch, position) array kept as a unit channel axis, read at (b, 0, n). -/
theorem bcast02_4_apply (y : FVec Ideal S2x16384 .f32) (b : Fin 2) (z : Fin 1) (n : Fin 16384) :
    broadcastInDim S2x1x16384 ![0, 2] bcast_S2x16384_S2x1x16384_0_2 y (ix3 b z n) = y (ix2 b n) :=
  broadcastInDim_apply _ _ _ _ (ix2 b n) fun a => by fin_cases a <;> rfl

/-- A scalar broadcast to the unit-channel shape reads the scalar. -/
theorem bcast0_4_apply {α : Type} (y : S_.Idx → α) (j : S2x1x16384.Idx) :
    broadcastInDim S2x1x16384 ![] bcast_S_S2x1x16384 y j = y ix0 :=
  broadcastInDim_apply _ _ _ _ ix0 fun a => a.elim0

/-- The unit channel axis broadcast back over the 64 channels, read at (b, c, n). -/
theorem bcast012_4_apply (y : FVec Ideal S2x1x16384 .f32) (b : Fin 2) (c : Fin 64) (n : Fin 16384) :
    broadcastInDim S2x64x16384 ![0, 1, 2] bcast_S2x1x16384_S2x64x16384_0_1_2 y (ix3 b c n) = y (ix3 b (0 : Fin 1) n) :=
  broadcastInDim_apply _ _ _ _ (ix3 b (0 : Fin 1) n) fun a => by fin_cases a <;> rfl

section
variable (r : Fin 2 → Fin 64 → Fin 16384 → ℝ) (a : FVec Ideal S2x64x16384 .f32)
  (ha : ∀ b c n, a (ix3 b c n) = ((r b c n : ℝ) : EReal))
include ha

/-- The mean of a column, read at (b, 0, n). -/
theorem mean4_apply (b : Fin 2) (n : Fin 16384) :
    mean4 (F := Ideal) a (ix3 b (0 : Fin 1) n) = ((Matcher.mean (fun c => r b c n) : ℝ) : EReal) := by
  unfold mean4 Host.divf
  rw [Ideal.hostDivf_def, bcast02_4_apply, bcast0_4_apply, reduceAdd4_apply, constant_apply, ofBits_64]
  simp only [ha]
  rw [← IdealReal.coe_sum, IdealReal.div_coe_coe _ _ (by norm_num)]
  rfl

/-- The deviation from the mean, read at (b, c, n). -/
theorem dev4_apply (b : Fin 2) (c : Fin 64) (n : Fin 16384) :
    dev4 (F := Ideal) a (ix3 b c n) = ((r b c n - Matcher.mean (fun c => r b c n) : ℝ) : EReal) := by
  unfold dev4
  rw [subf_apply, bcast012_4_apply, mean4_apply r a ha, ha, ← EReal.coe_sub]

/-- The unbiased variance of a column, read at (b, 0, n). -/
theorem var4_apply (b : Fin 2) (n : Fin 16384) :
    var4 (F := Ideal) a (ix3 b (0 : Fin 1) n) = ((Matcher.var (fun c => r b c n) : ℝ) : EReal) := by
  unfold var4 Host.divf
  rw [select_apply, bcast0_4_apply, count_pos, select_one, Ideal.hostDivf_def, bcast02_4_apply, bcast0_4_apply,
    reduceAdd4_apply, count_eq]
  simp only [mulf_apply, dev4_apply r a ha, ← EReal.coe_mul]
  rw [← IdealReal.coe_sum, IdealReal.div_coe_coe _ _ (by norm_num)]
  rfl

/-- A normalised column, read at (b, c, n): the coercion of the real normalisation, the standard deviation positive. -/
theorem zn4_apply (hsd : ∀ b n, 0 < Matcher.sd (fun c => r b c n)) (b : Fin 2) (c : Fin 64) (n : Fin 16384) :
    zn4 (F := Ideal) a (ix3 b c n) = ((Matcher.zn (fun c => r b c n) c : ℝ) : EReal) := by
  unfold zn4 Host.divf Host.sqrt
  rw [Ideal.hostDivf_def, subf_apply, bcast012_4_apply, bcast012_4_apply, Ideal.hostUnary_sqrt_def, mean4_apply r a ha,
    var4_apply r a ha, ha, ← EReal.coe_sub, IdealReal.sqrt_coe _ (Matcher.var_nonneg _),
    IdealReal.div_coe_coe _ _ (ne_of_gt (show 0 < Real.sqrt (Matcher.var fun c => r b c n) from hsd b n))]
  rfl

end

/-! ## The batched products read at an index -/

/-! ### The product of the two normalised arrays, contracting the channel axis -/

theorem dotS_lhs_0 (i : S2x1024x16384.Idx) (q : dot_S2x64x1024_S2x64x16384_S2x1024x16384_1_1_2_2_0_0.contr.Idx) :
    (dot_S2x64x1024_S2x64x16384_S2x1024x16384_1_1_2_2_0_0.lhsIdx i q 0).val = (i 0).val := by
  unfold DotDims.lhsIdx
  rw [dif_pos (show (0 : Fin S2x64x1024.rank) ∈ dot_S2x64x1024_S2x64x16384_S2x1024x16384_1_1_2_2_0_0.lhsBatch by decide)]
  rfl
theorem dotS_lhs_1 (i : S2x1024x16384.Idx) (q : dot_S2x64x1024_S2x64x16384_S2x1024x16384_1_1_2_2_0_0.contr.Idx) :
    (dot_S2x64x1024_S2x64x16384_S2x1024x16384_1_1_2_2_0_0.lhsIdx i q 1).val = (q ⟨0, by decide⟩).val :=
  dot_S2x64x1024_S2x64x16384_S2x1024x16384_1_1_2_2_0_0.lhsIdx_val_of_single rfl i q
theorem dotS_lhs_2 (i : S2x1024x16384.Idx) (q : dot_S2x64x1024_S2x64x16384_S2x1024x16384_1_1_2_2_0_0.contr.Idx) :
    (dot_S2x64x1024_S2x64x16384_S2x1024x16384_1_1_2_2_0_0.lhsIdx i q 2).val = (i 1).val := by
  unfold DotDims.lhsIdx
  rw [dif_neg (show ¬(2 : Fin S2x64x1024.rank) ∈ dot_S2x64x1024_S2x64x16384_S2x1024x16384_1_1_2_2_0_0.lhsBatch by decide), dif_pos (show (2 : Fin S2x64x1024.rank) ∈ dot_S2x64x1024_S2x64x16384_S2x1024x16384_1_1_2_2_0_0.lhsNonContracting by decide)]
  rfl
theorem dotS_rhs_0 (i : S2x1024x16384.Idx) (q : dot_S2x64x1024_S2x64x16384_S2x1024x16384_1_1_2_2_0_0.contr.Idx) :
    (dot_S2x64x1024_S2x64x16384_S2x1024x16384_1_1_2_2_0_0.rhsIdx i q 0).val = (i 0).val := by
  unfold DotDims.rhsIdx
  rw [dif_pos (show (0 : Fin S2x64x16384.rank) ∈ dot_S2x64x1024_S2x64x16384_S2x1024x16384_1_1_2_2_0_0.rhsBatch by decide)]
  rfl
theorem dotS_rhs_1 (i : S2x1024x16384.Idx) (q : dot_S2x64x1024_S2x64x16384_S2x1024x16384_1_1_2_2_0_0.contr.Idx) :
    (dot_S2x64x1024_S2x64x16384_S2x1024x16384_1_1_2_2_0_0.rhsIdx i q 1).val = (q ⟨0, by decide⟩).val :=
  dot_S2x64x1024_S2x64x16384_S2x1024x16384_1_1_2_2_0_0.rhsIdx_val_of_single rfl i q
theorem dotS_rhs_2 (i : S2x1024x16384.Idx) (q : dot_S2x64x1024_S2x64x16384_S2x1024x16384_1_1_2_2_0_0.contr.Idx) :
    (dot_S2x64x1024_S2x64x16384_S2x1024x16384_1_1_2_2_0_0.rhsIdx i q 2).val = (i 2).val := by
  unfold DotDims.rhsIdx
  rw [dif_neg (show ¬(2 : Fin S2x64x16384.rank) ∈ dot_S2x64x1024_S2x64x16384_S2x1024x16384_1_1_2_2_0_0.rhsBatch by decide), dif_pos (show (2 : Fin S2x64x16384.rank) ∈ dot_S2x64x1024_S2x64x16384_S2x1024x16384_1_1_2_2_0_0.rhsNonContracting by decide)]
  rfl

/-- The product read at an index: the sum over the contracted axis of the operands' products. -/
theorem dotS_apply (x : FVec Ideal S2x64x1024 .f32) (y : FVec Ideal S2x64x16384 .f32) (b : Fin 2) (n : Fin 1024) (mm : Fin 16384) :
    Host.dotGeneral dot_S2x64x1024_S2x64x16384_S2x1024x16384_1_1_2_2_0_0 none x y (ix3 b n mm) = ∑ k : Fin 64, x (ix3 b k n) * y (ix3 b k mm) := by
  simp only [Host.dotGeneral]
  rw [Ideal.dotGeneral_apply, ← Equiv.sum_comp (contrEquiv1 dot_S2x64x1024_S2x64x16384_S2x1024x16384_1_1_2_2_0_0 64 rfl rfl).symm]
  refine Finset.sum_congr rfl fun k _ => ?_
  have hk := contrEquiv1_symm_val dot_S2x64x1024_S2x64x16384_S2x1024x16384_1_1_2_2_0_0 64 rfl rfl k
  have el : dot_S2x64x1024_S2x64x16384_S2x1024x16384_1_1_2_2_0_0.lhsIdx (ix3 b n mm) ((contrEquiv1 dot_S2x64x1024_S2x64x16384_S2x1024x16384_1_1_2_2_0_0 64 rfl rfl).symm k) = ix3 b k n := funext fun a => Fin.ext (by
    match a with
    | ⟨0, _⟩ => exact dotS_lhs_0 _ _
    | ⟨1, _⟩ => exact (dotS_lhs_1 _ _).trans hk
    | ⟨2, _⟩ => exact dotS_lhs_2 _ _)
  have er : dot_S2x64x1024_S2x64x16384_S2x1024x16384_1_1_2_2_0_0.rhsIdx (ix3 b n mm) ((contrEquiv1 dot_S2x64x1024_S2x64x16384_S2x1024x16384_1_1_2_2_0_0 64 rfl rfl).symm k) = ix3 b k mm := funext fun a => Fin.ext (by
    match a with
    | ⟨0, _⟩ => exact dotS_rhs_0 _ _
    | ⟨1, _⟩ => exact (dotS_rhs_1 _ _).trans hk
    | ⟨2, _⟩ => exact dotS_rhs_2 _ _)
  rw [el, er]

/-! ### A three-row array against the weights, contracting the target axis -/

theorem dotA_lhs_0 (i : S2x3x1024.Idx) (q : dot_S2x3x16384_S2x1024x16384_S2x3x1024_2_2_1_1_0_0.contr.Idx) :
    (dot_S2x3x16384_S2x1024x16384_S2x3x1024_2_2_1_1_0_0.lhsIdx i q 0).val = (i 0).val := by
  unfold DotDims.lhsIdx
  rw [dif_pos (show (0 : Fin S2x3x16384.rank) ∈ dot_S2x3x16384_S2x1024x16384_S2x3x1024_2_2_1_1_0_0.lhsBatch by decide)]
  rfl
theorem dotA_lhs_1 (i : S2x3x1024.Idx) (q : dot_S2x3x16384_S2x1024x16384_S2x3x1024_2_2_1_1_0_0.contr.Idx) :
    (dot_S2x3x16384_S2x1024x16384_S2x3x1024_2_2_1_1_0_0.lhsIdx i q 1).val = (i 1).val := by
  unfold DotDims.lhsIdx
  rw [dif_neg (show ¬(1 : Fin S2x3x16384.rank) ∈ dot_S2x3x16384_S2x1024x16384_S2x3x1024_2_2_1_1_0_0.lhsBatch by decide), dif_pos (show (1 : Fin S2x3x16384.rank) ∈ dot_S2x3x16384_S2x1024x16384_S2x3x1024_2_2_1_1_0_0.lhsNonContracting by decide)]
  rfl
theorem dotA_lhs_2 (i : S2x3x1024.Idx) (q : dot_S2x3x16384_S2x1024x16384_S2x3x1024_2_2_1_1_0_0.contr.Idx) :
    (dot_S2x3x16384_S2x1024x16384_S2x3x1024_2_2_1_1_0_0.lhsIdx i q 2).val = (q ⟨0, by decide⟩).val :=
  dot_S2x3x16384_S2x1024x16384_S2x3x1024_2_2_1_1_0_0.lhsIdx_val_of_single rfl i q
theorem dotA_rhs_0 (i : S2x3x1024.Idx) (q : dot_S2x3x16384_S2x1024x16384_S2x3x1024_2_2_1_1_0_0.contr.Idx) :
    (dot_S2x3x16384_S2x1024x16384_S2x3x1024_2_2_1_1_0_0.rhsIdx i q 0).val = (i 0).val := by
  unfold DotDims.rhsIdx
  rw [dif_pos (show (0 : Fin S2x1024x16384.rank) ∈ dot_S2x3x16384_S2x1024x16384_S2x3x1024_2_2_1_1_0_0.rhsBatch by decide)]
  rfl
theorem dotA_rhs_1 (i : S2x3x1024.Idx) (q : dot_S2x3x16384_S2x1024x16384_S2x3x1024_2_2_1_1_0_0.contr.Idx) :
    (dot_S2x3x16384_S2x1024x16384_S2x3x1024_2_2_1_1_0_0.rhsIdx i q 1).val = (i 2).val := by
  unfold DotDims.rhsIdx
  rw [dif_neg (show ¬(1 : Fin S2x1024x16384.rank) ∈ dot_S2x3x16384_S2x1024x16384_S2x3x1024_2_2_1_1_0_0.rhsBatch by decide), dif_pos (show (1 : Fin S2x1024x16384.rank) ∈ dot_S2x3x16384_S2x1024x16384_S2x3x1024_2_2_1_1_0_0.rhsNonContracting by decide)]
  rfl
theorem dotA_rhs_2 (i : S2x3x1024.Idx) (q : dot_S2x3x16384_S2x1024x16384_S2x3x1024_2_2_1_1_0_0.contr.Idx) :
    (dot_S2x3x16384_S2x1024x16384_S2x3x1024_2_2_1_1_0_0.rhsIdx i q 2).val = (q ⟨0, by decide⟩).val :=
  dot_S2x3x16384_S2x1024x16384_S2x3x1024_2_2_1_1_0_0.rhsIdx_val_of_single rfl i q

/-- The product read at an index: the sum over the contracted axis of the operands' products. -/
theorem dotA_apply (x : FVec Ideal S2x3x16384 .f32) (y : FVec Ideal S2x1024x16384 .f32) (b : Fin 2) (j : Fin 3) (n : Fin 1024) :
    Host.dotGeneral dot_S2x3x16384_S2x1024x16384_S2x3x1024_2_2_1_1_0_0 none x y (ix3 b j n) = ∑ k : Fin 16384, x (ix3 b j k) * y (ix3 b n k) := by
  simp only [Host.dotGeneral]
  rw [Ideal.dotGeneral_apply, ← Equiv.sum_comp (contrEquiv1 dot_S2x3x16384_S2x1024x16384_S2x3x1024_2_2_1_1_0_0 16384 rfl rfl).symm]
  refine Finset.sum_congr rfl fun k _ => ?_
  have hk := contrEquiv1_symm_val dot_S2x3x16384_S2x1024x16384_S2x3x1024_2_2_1_1_0_0 16384 rfl rfl k
  have el : dot_S2x3x16384_S2x1024x16384_S2x3x1024_2_2_1_1_0_0.lhsIdx (ix3 b j n) ((contrEquiv1 dot_S2x3x16384_S2x1024x16384_S2x3x1024_2_2_1_1_0_0 16384 rfl rfl).symm k) = ix3 b j k := funext fun a => Fin.ext (by
    match a with
    | ⟨0, _⟩ => exact dotA_lhs_0 _ _
    | ⟨1, _⟩ => exact dotA_lhs_1 _ _
    | ⟨2, _⟩ => exact (dotA_lhs_2 _ _).trans hk)
  have er : dot_S2x3x16384_S2x1024x16384_S2x3x1024_2_2_1_1_0_0.rhsIdx (ix3 b j n) ((contrEquiv1 dot_S2x3x16384_S2x1024x16384_S2x3x1024_2_2_1_1_0_0 16384 rfl rfl).symm k) = ix3 b n k := funext fun a => Fin.ext (by
    match a with
    | ⟨0, _⟩ => exact dotA_rhs_0 _ _
    | ⟨1, _⟩ => exact dotA_rhs_1 _ _
    | ⟨2, _⟩ => exact (dotA_rhs_2 _ _).trans hk)
  rw [el, er]

/-! ### A one-row array against the weights, contracting the target axis -/

theorem dotB_lhs_0 (i : S2x1x1024.Idx) (q : dot_S2x1x16384_S2x1024x16384_S2x1x1024_2_2_1_1_0_0.contr.Idx) :
    (dot_S2x1x16384_S2x1024x16384_S2x1x1024_2_2_1_1_0_0.lhsIdx i q 0).val = (i 0).val := by
  unfold DotDims.lhsIdx
  rw [dif_pos (show (0 : Fin S2x1x16384.rank) ∈ dot_S2x1x16384_S2x1024x16384_S2x1x1024_2_2_1_1_0_0.lhsBatch by decide)]
  rfl
theorem dotB_lhs_1 (i : S2x1x1024.Idx) (q : dot_S2x1x16384_S2x1024x16384_S2x1x1024_2_2_1_1_0_0.contr.Idx) :
    (dot_S2x1x16384_S2x1024x16384_S2x1x1024_2_2_1_1_0_0.lhsIdx i q 1).val = (i 1).val := by
  unfold DotDims.lhsIdx
  rw [dif_neg (show ¬(1 : Fin S2x1x16384.rank) ∈ dot_S2x1x16384_S2x1024x16384_S2x1x1024_2_2_1_1_0_0.lhsBatch by decide), dif_pos (show (1 : Fin S2x1x16384.rank) ∈ dot_S2x1x16384_S2x1024x16384_S2x1x1024_2_2_1_1_0_0.lhsNonContracting by decide)]
  rfl
theorem dotB_lhs_2 (i : S2x1x1024.Idx) (q : dot_S2x1x16384_S2x1024x16384_S2x1x1024_2_2_1_1_0_0.contr.Idx) :
    (dot_S2x1x16384_S2x1024x16384_S2x1x1024_2_2_1_1_0_0.lhsIdx i q 2).val = (q ⟨0, by decide⟩).val :=
  dot_S2x1x16384_S2x1024x16384_S2x1x1024_2_2_1_1_0_0.lhsIdx_val_of_single rfl i q
theorem dotB_rhs_0 (i : S2x1x1024.Idx) (q : dot_S2x1x16384_S2x1024x16384_S2x1x1024_2_2_1_1_0_0.contr.Idx) :
    (dot_S2x1x16384_S2x1024x16384_S2x1x1024_2_2_1_1_0_0.rhsIdx i q 0).val = (i 0).val := by
  unfold DotDims.rhsIdx
  rw [dif_pos (show (0 : Fin S2x1024x16384.rank) ∈ dot_S2x1x16384_S2x1024x16384_S2x1x1024_2_2_1_1_0_0.rhsBatch by decide)]
  rfl
theorem dotB_rhs_1 (i : S2x1x1024.Idx) (q : dot_S2x1x16384_S2x1024x16384_S2x1x1024_2_2_1_1_0_0.contr.Idx) :
    (dot_S2x1x16384_S2x1024x16384_S2x1x1024_2_2_1_1_0_0.rhsIdx i q 1).val = (i 2).val := by
  unfold DotDims.rhsIdx
  rw [dif_neg (show ¬(1 : Fin S2x1024x16384.rank) ∈ dot_S2x1x16384_S2x1024x16384_S2x1x1024_2_2_1_1_0_0.rhsBatch by decide), dif_pos (show (1 : Fin S2x1024x16384.rank) ∈ dot_S2x1x16384_S2x1024x16384_S2x1x1024_2_2_1_1_0_0.rhsNonContracting by decide)]
  rfl
theorem dotB_rhs_2 (i : S2x1x1024.Idx) (q : dot_S2x1x16384_S2x1024x16384_S2x1x1024_2_2_1_1_0_0.contr.Idx) :
    (dot_S2x1x16384_S2x1024x16384_S2x1x1024_2_2_1_1_0_0.rhsIdx i q 2).val = (q ⟨0, by decide⟩).val :=
  dot_S2x1x16384_S2x1024x16384_S2x1x1024_2_2_1_1_0_0.rhsIdx_val_of_single rfl i q

/-- The product read at an index: the sum over the contracted axis of the operands' products. -/
theorem dotB_apply (x : FVec Ideal S2x1x16384 .f32) (y : FVec Ideal S2x1024x16384 .f32) (b : Fin 2) (j : Fin 1) (n : Fin 1024) :
    Host.dotGeneral dot_S2x1x16384_S2x1024x16384_S2x1x1024_2_2_1_1_0_0 none x y (ix3 b j n) = ∑ k : Fin 16384, x (ix3 b j k) * y (ix3 b n k) := by
  simp only [Host.dotGeneral]
  rw [Ideal.dotGeneral_apply, ← Equiv.sum_comp (contrEquiv1 dot_S2x1x16384_S2x1024x16384_S2x1x1024_2_2_1_1_0_0 16384 rfl rfl).symm]
  refine Finset.sum_congr rfl fun k _ => ?_
  have hk := contrEquiv1_symm_val dot_S2x1x16384_S2x1024x16384_S2x1x1024_2_2_1_1_0_0 16384 rfl rfl k
  have el : dot_S2x1x16384_S2x1024x16384_S2x1x1024_2_2_1_1_0_0.lhsIdx (ix3 b j n) ((contrEquiv1 dot_S2x1x16384_S2x1024x16384_S2x1x1024_2_2_1_1_0_0 16384 rfl rfl).symm k) = ix3 b j k := funext fun a => Fin.ext (by
    match a with
    | ⟨0, _⟩ => exact dotB_lhs_0 _ _
    | ⟨1, _⟩ => exact dotB_lhs_1 _ _
    | ⟨2, _⟩ => exact (dotB_lhs_2 _ _).trans hk)
  have er : dot_S2x1x16384_S2x1024x16384_S2x1x1024_2_2_1_1_0_0.rhsIdx (ix3 b j n) ((contrEquiv1 dot_S2x1x16384_S2x1024x16384_S2x1x1024_2_2_1_1_0_0 16384 rfl rfl).symm k) = ix3 b n k := funext fun a => Fin.ext (by
    match a with
    | ⟨0, _⟩ => exact dotB_rhs_0 _ _
    | ⟨1, _⟩ => exact dotB_rhs_1 _ _
    | ⟨2, _⟩ => exact (dotB_rhs_2 _ _).trans hk)
  rw [el, er]

/-! ### A sixty-four-row array against the weights, contracting the target axis -/

theorem dotC_lhs_0 (i : S2x64x1024.Idx) (q : dot_S2x64x16384_S2x1024x16384_S2x64x1024_2_2_1_1_0_0.contr.Idx) :
    (dot_S2x64x16384_S2x1024x16384_S2x64x1024_2_2_1_1_0_0.lhsIdx i q 0).val = (i 0).val := by
  unfold DotDims.lhsIdx
  rw [dif_pos (show (0 : Fin S2x64x16384.rank) ∈ dot_S2x64x16384_S2x1024x16384_S2x64x1024_2_2_1_1_0_0.lhsBatch by decide)]
  rfl
theorem dotC_lhs_1 (i : S2x64x1024.Idx) (q : dot_S2x64x16384_S2x1024x16384_S2x64x1024_2_2_1_1_0_0.contr.Idx) :
    (dot_S2x64x16384_S2x1024x16384_S2x64x1024_2_2_1_1_0_0.lhsIdx i q 1).val = (i 1).val := by
  unfold DotDims.lhsIdx
  rw [dif_neg (show ¬(1 : Fin S2x64x16384.rank) ∈ dot_S2x64x16384_S2x1024x16384_S2x64x1024_2_2_1_1_0_0.lhsBatch by decide), dif_pos (show (1 : Fin S2x64x16384.rank) ∈ dot_S2x64x16384_S2x1024x16384_S2x64x1024_2_2_1_1_0_0.lhsNonContracting by decide)]
  rfl
theorem dotC_lhs_2 (i : S2x64x1024.Idx) (q : dot_S2x64x16384_S2x1024x16384_S2x64x1024_2_2_1_1_0_0.contr.Idx) :
    (dot_S2x64x16384_S2x1024x16384_S2x64x1024_2_2_1_1_0_0.lhsIdx i q 2).val = (q ⟨0, by decide⟩).val :=
  dot_S2x64x16384_S2x1024x16384_S2x64x1024_2_2_1_1_0_0.lhsIdx_val_of_single rfl i q
theorem dotC_rhs_0 (i : S2x64x1024.Idx) (q : dot_S2x64x16384_S2x1024x16384_S2x64x1024_2_2_1_1_0_0.contr.Idx) :
    (dot_S2x64x16384_S2x1024x16384_S2x64x1024_2_2_1_1_0_0.rhsIdx i q 0).val = (i 0).val := by
  unfold DotDims.rhsIdx
  rw [dif_pos (show (0 : Fin S2x1024x16384.rank) ∈ dot_S2x64x16384_S2x1024x16384_S2x64x1024_2_2_1_1_0_0.rhsBatch by decide)]
  rfl
theorem dotC_rhs_1 (i : S2x64x1024.Idx) (q : dot_S2x64x16384_S2x1024x16384_S2x64x1024_2_2_1_1_0_0.contr.Idx) :
    (dot_S2x64x16384_S2x1024x16384_S2x64x1024_2_2_1_1_0_0.rhsIdx i q 1).val = (i 2).val := by
  unfold DotDims.rhsIdx
  rw [dif_neg (show ¬(1 : Fin S2x1024x16384.rank) ∈ dot_S2x64x16384_S2x1024x16384_S2x64x1024_2_2_1_1_0_0.rhsBatch by decide), dif_pos (show (1 : Fin S2x1024x16384.rank) ∈ dot_S2x64x16384_S2x1024x16384_S2x64x1024_2_2_1_1_0_0.rhsNonContracting by decide)]
  rfl
theorem dotC_rhs_2 (i : S2x64x1024.Idx) (q : dot_S2x64x16384_S2x1024x16384_S2x64x1024_2_2_1_1_0_0.contr.Idx) :
    (dot_S2x64x16384_S2x1024x16384_S2x64x1024_2_2_1_1_0_0.rhsIdx i q 2).val = (q ⟨0, by decide⟩).val :=
  dot_S2x64x16384_S2x1024x16384_S2x64x1024_2_2_1_1_0_0.rhsIdx_val_of_single rfl i q

/-- The product read at an index: the sum over the contracted axis of the operands' products. -/
theorem dotC_apply (x : FVec Ideal S2x64x16384 .f32) (y : FVec Ideal S2x1024x16384 .f32) (b : Fin 2) (j : Fin 64) (n : Fin 1024) :
    Host.dotGeneral dot_S2x64x16384_S2x1024x16384_S2x64x1024_2_2_1_1_0_0 none x y (ix3 b j n) = ∑ k : Fin 16384, x (ix3 b j k) * y (ix3 b n k) := by
  simp only [Host.dotGeneral]
  rw [Ideal.dotGeneral_apply, ← Equiv.sum_comp (contrEquiv1 dot_S2x64x16384_S2x1024x16384_S2x64x1024_2_2_1_1_0_0 16384 rfl rfl).symm]
  refine Finset.sum_congr rfl fun k _ => ?_
  have hk := contrEquiv1_symm_val dot_S2x64x16384_S2x1024x16384_S2x64x1024_2_2_1_1_0_0 16384 rfl rfl k
  have el : dot_S2x64x16384_S2x1024x16384_S2x64x1024_2_2_1_1_0_0.lhsIdx (ix3 b j n) ((contrEquiv1 dot_S2x64x16384_S2x1024x16384_S2x64x1024_2_2_1_1_0_0 16384 rfl rfl).symm k) = ix3 b j k := funext fun a => Fin.ext (by
    match a with
    | ⟨0, _⟩ => exact dotC_lhs_0 _ _
    | ⟨1, _⟩ => exact dotC_lhs_1 _ _
    | ⟨2, _⟩ => exact (dotC_lhs_2 _ _).trans hk)
  have er : dot_S2x64x16384_S2x1024x16384_S2x64x1024_2_2_1_1_0_0.rhsIdx (ix3 b j n) ((contrEquiv1 dot_S2x64x16384_S2x1024x16384_S2x64x1024_2_2_1_1_0_0 16384 rfl rfl).symm k) = ix3 b n k := funext fun a => Fin.ext (by
    match a with
    | ⟨0, _⟩ => exact dotC_rhs_0 _ _
    | ⟨1, _⟩ => exact dotC_rhs_1 _ _
    | ⟨2, _⟩ => exact (dotC_rhs_2 _ _).trans hk)
  rw [el, er]

/-! ## The scores, the softmax and the weighted averages -/

/-- A scalar broadcast to the score shape reads the scalar. -/
theorem bcastS_apply {α : Type} (y : S_.Idx → α) (j : S2x1024x16384.Idx) :
    broadcastInDim S2x1024x16384 ![] bcast_S_S2x1024x16384 y j = y ix0 :=
  broadcastInDim_apply _ _ _ _ ix0 fun a => a.elim0

/-- A scalar broadcast to the row shape reads the scalar. -/
theorem bcastR_apply {α : Type} (y : S_.Idx → α) (j : S2x1024.Idx) :
    broadcastInDim S2x1024 ![] bcast_S_S2x1024 y j = y ix0 :=
  broadcastInDim_apply _ _ _ _ ix0 fun a => a.elim0

/-- A per-row value kept as a unit last axis, read at (b, n, 0). -/
theorem bcast01_apply (y : FVec Ideal S2x1024 .f32) (b : Fin 2) (n : Fin 1024) (z : Fin 1) :
    broadcastInDim S2x1024x1 ![0, 1] bcast_S2x1024_S2x1024x1_0_1 y (ix3 b n z) = y (ix2 b n) :=
  broadcastInDim_apply _ _ _ _ (ix2 b n) fun a => by fin_cases a <;> rfl

/-- The unit last axis broadcast over the targets, read at (b, n, mm). -/
theorem bcast012_apply (y : FVec Ideal S2x1024x1 .f32) (b : Fin 2) (n : Fin 1024) (mm : Fin 16384) :
    broadcastInDim S2x1024x16384 ![0, 1, 2] bcast_S2x1024x1_S2x1024x16384_0_1_2 y (ix3 b n mm) = y (ix3 b n (0 : Fin 1)) :=
  broadcastInDim_apply _ _ _ _ (ix3 b n (0 : Fin 1)) fun a => by fin_cases a <;> rfl

/-- The source index over (b, n) with the target coordinate put back is (b, n, mm). -/
theorem lift_row (h : S2x1024x16384.Reduces [2] S2x1024) (b : Fin 2) (n : Fin 1024) (k : Fin (S2x1024x16384.size 2)) :
    h.lift (ix2 b n) k = ix3 b n (⟨k.val, k.isLt⟩ : Fin 16384) := by
  funext c; apply Fin.ext
  fin_cases c <;> rfl

/-- The host's maximum over the target axis from minus infinity, read at (b, n): the maximum folded over the targets. -/
theorem rowmax_apply (s : FVec Ideal S2x1024x16384 .f32) (b : Fin 2) (n : Fin 1024) :
    Host.reduce FloatOps.maximumf s (constant S_ .f32 0xFF800000#32) reducesTo_S2x1024x16384_S2x1024_d2 h_S_ (ix2 b n)
      = (Finset.univ : Finset (Fin 16384)).fold max ⊥ (fun mm => s (ix3 b n mm)) := by
  have h : S2x1024x16384.Reduces [2] S2x1024 := by decide
  rw [Host.reduce_eq_fold_single FloatOps.maximumf s _ reducesTo_S2x1024x16384_S2x1024_d2 h h_S_, constant_apply, ofBits_ninf]
  have hf : (s ∘ h.lift (ix2 b n)) = fun mm : Fin 16384 => s (ix3 b n mm) :=
    funext fun k => congrArg s (lift_row h b n k)
  exact congrArg (fun f => Finset.fold max (⊥ : EReal) f (Finset.univ : Finset (Fin 16384))) hf

/-- The host's sum over the target axis from zero, read at (b, n): the sum over the targets. -/
theorem rowsum_apply (x : FVec Ideal S2x1024x16384 .f32) (b : Fin 2) (n : Fin 1024) :
    Host.reduceAdd x (constant S_ .f32 0x00000000#32) reducesTo_S2x1024x16384_S2x1024_d2 h_S_ (ix2 b n)
      = ∑ mm : Fin 16384, x (ix3 b n mm) := by
  have h : S2x1024x16384.Reduces [2] S2x1024 := by decide
  unfold Host.reduceAdd
  rw [Ideal.hostReduceAdd_def, Ideal.hostReduceAdd_single _ h, constant_apply, Ideal.ofBits_zero_f32, zero_add]
  exact Finset.sum_congr rfl fun k _ => congrArg x (lift_row h b n k)

/-- The shifted exponential read at (b, n, mm): the exponential of the score less the row's maximum, that maximum
    folded from minus infinity and compared with minus infinity once more. -/
theorem expo_apply (s : FVec Ideal S2x1024x16384 .f32) (b : Fin 2) (n : Fin 1024) (mm : Fin 16384) :
    expo (F := Ideal) s (ix3 b n mm)
      = Ideal.exp (s (ix3 b n mm) - max ⊥ ((Finset.univ : Finset (Fin 16384)).fold max ⊥ (fun mm' => s (ix3 b n mm')))) := by
  unfold expo Host.exp
  rw [Ideal.hostUnary_exp_def, subf_apply, bcast012_apply, bcast01_apply, maximumf_apply, bcastR_apply, constant_apply,
    ofBits_ninf, rowmax_apply]

/-- The softmax read at (b, n, mm): the shifted exponential over the row's sum of them. -/
theorem soft_apply (q : FVec Ideal S2x64x1024 .f32) (k : FVec Ideal S2x64x16384 .f32) (b : Fin 2) (n : Fin 1024) (mm : Fin 16384) :
    soft (F := Ideal) q k (ix3 b n mm)
      = Ideal.div (expo (F := Ideal) (scores q k) (ix3 b n mm)) (∑ mm' : Fin 16384, expo (F := Ideal) (scores q k) (ix3 b n mm')) := by
  unfold soft Host.divf
  rw [Ideal.hostDivf_def, bcast012_apply, bcast01_apply, rowsum_apply]

section
variable (r1 : Fin 2 → Fin 3 → Fin 16384 → ℝ) (r2 : Fin 2 → Fin 1 → Fin 16384 → ℝ)
  (r3 : Fin 2 → Fin 64 → Fin 1024 → ℝ) (r4 : Fin 2 → Fin 64 → Fin 16384 → ℝ)
  (a1 : FVec Ideal S2x3x16384 .f32) (a2 : FVec Ideal S2x1x16384 .f32)
  (a3 : FVec Ideal S2x64x1024 .f32) (a4 : FVec Ideal S2x64x16384 .f32)
  (h1 : ∀ b j mm, a1 (ix3 b j mm) = ((r1 b j mm : ℝ) : EReal)) (h2 : ∀ b j mm, a2 (ix3 b j mm) = ((r2 b j mm : ℝ) : EReal))
  (h3 : ∀ b c n, a3 (ix3 b c n) = ((r3 b c n : ℝ) : EReal)) (h4 : ∀ b c mm, a4 (ix3 b c mm) = ((r4 b c mm : ℝ) : EReal))
  (hsd3 : ∀ b n, 0 < Matcher.sd (fun c => r3 b c n)) (hsd4 : ∀ b mm, 0 < Matcher.sd (fun c => r4 b c mm))
include h3 h4 hsd3 hsd4

/-- The scaled score of source n against target mm, read at (b, n, mm): the inner product of the two normalised
    columns over 64, then over the temperature. -/
theorem scores_apply (b : Fin 2) (n : Fin 1024) (mm : Fin 16384) :
    scores (F := Ideal) (zn3 a3) (zn4 a4) (ix3 b n mm)
      = ((Matcher.scoreRef (fun c => r3 b c n) (fun c => r4 b c mm) : ℝ) : EReal) := by
  unfold scores Host.divf
  rw [Ideal.hostDivf_def, Ideal.hostDivf_def, bcastS_apply, bcastS_apply, constant_apply, constant_apply, ofBits_64, ofBits_D,
    dotS_apply]
  simp only [zn3_apply r3 a3 h3 hsd3, zn4_apply r4 a4 h4 hsd4, ← EReal.coe_mul]
  rw [← IdealReal.coe_sum, IdealReal.div_coe_coe _ _ (by norm_num), IdealReal.div_coe_coe _ _ (ne_of_gt Matcher.D_pos)]
  rfl

/-- A product of an array of coerced reals with the softmax, read at an index: the softmax-weighted average of that
    array's row over the targets, under the source's scores. -/
theorem avg_apply (w : Fin 16384 → EReal) (v : Fin 16384 → ℝ) (hw : ∀ mm, w mm = ((v mm : ℝ) : EReal)) (b : Fin 2) (n : Fin 1024) :
    ∑ mm : Fin 16384, w mm * soft (F := Ideal) (zn3 a3) (zn4 a4) (ix3 b n mm)
      = ((Matcher.avg Finset.univ Finset.univ_nonempty
            (fun mm => Matcher.scoreRef (fun c => r3 b c n) (fun c => r4 b c mm)) v : ℝ) : EReal) := by
  simp only [soft_apply]
  exact SoftmaxIdeal.reference_avg' Finset.univ Finset.univ_nonempty
    (fun mm => Matcher.scoreRef (fun c => r3 b c n) (fun c => r4 b c mm)) v
    (fun mm => scores (F := Ideal) (zn3 a3) (zn4 a4) (ix3 b n mm)) w
    (fun mm _ => scores_apply r3 r4 a3 a4 h3 h4 hsd3 hsd4 b n mm) (fun mm _ => hw mm)
    (max ⊥ ((Finset.univ : Finset (Fin 16384)).fold max ⊥ fun mm => scores (F := Ideal) (zn3 a3) (zn4 a4) (ix3 b n mm)))
    (∑ mm' : Fin 16384, expo (F := Ideal) (scores (zn3 a3) (zn4 a4)) (ix3 b n mm'))
    (fun mm => expo (F := Ideal) (scores (zn3 a3) (zn4 a4)) (ix3 b n mm))
    rfl (fun mm _ => expo_apply _ b n mm) (zero_add _).symm

include h1 in
/-- The first result read at (b, j, n): the weighted average of the second argument's row j. -/
theorem v34_apply (b : Fin 2) (j : Fin 3) (n : Fin 1024) :
    Host.dotGeneral (φ₂ := .f32) dot_S2x3x16384_S2x1024x16384_S2x3x1024_2_2_1_1_0_0 none a1 (soft (F := Ideal) (zn3 a3) (zn4 a4)) (ix3 b j n)
      = ((Matcher.avg Finset.univ Finset.univ_nonempty
            (fun mm => Matcher.scoreRef (fun c => r3 b c n) (fun c => r4 b c mm)) (fun mm => r1 b j mm) : ℝ) : EReal) := by
  rw [dotA_apply]
  exact avg_apply r3 r4 a3 a4 h3 h4 hsd3 hsd4 (fun mm => a1 (ix3 b j mm)) (fun mm => r1 b j mm) (fun mm => h1 b j mm) b n

include h2 in
/-- The second result read at (b, j, n): the weighted average of the third argument's one row. -/
theorem v35_apply (b : Fin 2) (j : Fin 1) (n : Fin 1024) :
    Host.dotGeneral (φ₂ := .f32) dot_S2x1x16384_S2x1024x16384_S2x1x1024_2_2_1_1_0_0 none a2 (soft (F := Ideal) (zn3 a3) (zn4 a4)) (ix3 b j n)
      = ((Matcher.avg Finset.univ Finset.univ_nonempty
            (fun mm => Matcher.scoreRef (fun c => r3 b c n) (fun c => r4 b c mm)) (fun mm => r2 b j mm) : ℝ) : EReal) := by
  rw [dotB_apply]
  exact avg_apply r3 r4 a3 a4 h3 h4 hsd3 hsd4 (fun mm => a2 (ix3 b j mm)) (fun mm => r2 b j mm) (fun mm => h2 b j mm) b n

/-- The product array under the third result's normalisation, read at (b, j, n): the weighted average of the fifth
    argument's row j. -/
theorem v36_apply (b : Fin 2) (j : Fin 64) (n : Fin 1024) :
    Host.dotGeneral (φ₂ := .f32) dot_S2x64x16384_S2x1024x16384_S2x64x1024_2_2_1_1_0_0 none a4 (soft (F := Ideal) (zn3 a3) (zn4 a4)) (ix3 b j n)
      = ((Matcher.avg Finset.univ Finset.univ_nonempty
            (fun mm => Matcher.scoreRef (fun c => r3 b c n) (fun c => r4 b c mm)) (fun mm => r4 b j mm) : ℝ) : EReal) := by
  rw [dotC_apply]
  exact avg_apply r3 r4 a3 a4 h3 h4 hsd3 hsd4 (fun mm => a4 (ix3 b j mm)) (fun mm => r4 b j mm) (fun mm => h4 b j mm) b n

end

end Cert.ReferenceIdeal.RefRead

end
-- ==== Proof.LibTiles.lean ====
import Mathlib.Data.Fintype.Basic
import Mathlib.Data.Finset.Image

/-!
# Sixteen thousand targets as eight consecutive blocks

The `16384 = 8 * 2048` targets `Fin 16384` are cut into eight consecutive blocks of `2048`:
block `k` is the image of `i ↦ 2048 * k + i`.  The targets seen after blocks `0, …, k` are those
below `2048 * (k + 1)`; each new block is disjoint from what was seen before and extends it, and
after the last block every target has been seen.
-/

namespace Tiles

/-- the `k`-th block of `2048` consecutive targets: `i ↦ 2048 * k + i` -/
def emb (k : Fin 8) : Fin 2048 ↪ Fin 16384 :=
  ⟨fun i => ⟨2048 * k.val + i.val, by have := k.isLt; have := i.isLt; omega⟩,
    fun i j h => by
      have h' : 2048 * k.val + i.val = 2048 * k.val + j.val := congrArg Fin.val h
      exact Fin.ext (by omega)⟩

/-- the position of the `i`-th target of block `k` -/
theorem emb_val (k : Fin 8) (i : Fin 2048) : (emb k i).val = 2048 * k.val + i.val := rfl

/-- the targets seen after blocks `0, …, k`: those below `2048 * (k + 1)` -/
def seen (k : ℕ) : Finset (Fin 16384) := Finset.univ.filter fun j => j.val < 2048 * (k + 1)

/-- membership in the targets seen so far -/
theorem mem_seen {k : ℕ} {j : Fin 16384} : j ∈ seen k ↔ j.val < 2048 * (k + 1) := by
  simp [seen]

/-- membership in a block: the position lies in `[2048 * k, 2048 * (k + 1))` -/
theorem mem_tile {k : Fin 8} {j : Fin 16384} :
    j ∈ Finset.univ.map (emb k) ↔ 2048 * k.val ≤ j.val ∧ j.val < 2048 * (k.val + 1) := by
  simp only [Finset.mem_map, Finset.mem_univ, true_and]
  constructor
  · rintro ⟨i, rfl⟩
    rw [emb_val]
    have := i.isLt
    omega
  · rintro ⟨h1, h2⟩
    refine ⟨⟨j.val - 2048 * k.val, by omega⟩, Fin.ext ?_⟩
    rw [emb_val]
    show 2048 * k.val + (j.val - 2048 * k.val) = j.val
    omega

/-- after the first block, exactly that block has been seen -/
theorem seen_zero : seen 0 = Finset.univ.map (emb 0) := by
  ext j
  rw [mem_seen, mem_tile]
  show j.val < 2048 * (0 + 1) ↔ 2048 * 0 ≤ j.val ∧ j.val < 2048 * (0 + 1)
  omega

/-- each further block extends the targets seen so far -/
theorem seen_succ (k : ℕ) (hk : k + 1 < 8) :
    seen (k + 1) = seen k ∪ Finset.univ.map (emb ⟨k + 1, hk⟩) := by
  ext j
  rw [Finset.mem_union, mem_seen, mem_seen, mem_tile]
  show j.val < 2048 * (k + 1 + 1) ↔
    j.val < 2048 * (k + 1) ∨ (2048 * (k + 1) ≤ j.val ∧ j.val < 2048 * (k + 1 + 1))
  omega

/-- each further block is disjoint from the targets seen so far -/
theorem seen_disjoint (k : ℕ) (hk : k + 1 < 8) :
    Disjoint (seen k) (Finset.univ.map (emb ⟨k + 1, hk⟩)) := by
  refine Finset.disjoint_left.mpr fun j hj hj' => ?_
  rw [mem_seen] at hj
  rw [mem_tile] at hj'
  have h1 : 2048 * (k + 1) ≤ j.val := hj'.1
  omega

/-- some target has always been seen -/
theorem seen_nonempty (k : ℕ) : (seen k).Nonempty :=
  ⟨⟨0, by omega⟩, mem_seen.mpr (by show 0 < 2048 * (k + 1); omega)⟩

/-- after the last block every target has been seen -/
theorem seen_last : seen 7 = Finset.univ := by
  ext j
  rw [mem_seen]
  have := j.isLt
  simp only [Finset.mem_univ, iff_true]
  omega

end Tiles
-- ==== Proof.KCore.lean ====
import proofs.«109630_j50577534877890_2_alg».proof.Proof.KBlocks
import proofs.«109630_j50577534877890_2_alg».proof.Proof.KHost
import proofs.«109630_j50577534877890_2_alg».proof.Proof.KPay
import proofs.«109630_j50577534877890_2_alg».proof.Proof.KPay12
import proofs.«109630_j50577534877890_2_alg».proof.Proof.KPay3
import proofs.«109630_j50577534877890_2_alg».proof.Proof.KPay13
import proofs.«109630_j50577534877890_2_alg».proof.Proof.RefRead
import proofs.«109630_j50577534877890_2_alg».proof.Proof.LibSoftmaxIdeal
import proofs.«109630_j50577534877890_2_alg».proof.Proof.LibTiles
import proofs.«109630_j50577534877890_2_alg».proof.Proof.Spec

/-!
  The region's result array is the softmax-weighted average, entry by entry.

  Fix real arrays behind the four inputs, every descriptor column of positive standard deviation. For batch entry `b`
  and source point `n` the scores against the 16384 targets are `sc b n`; the 68 value channels of a target are its 3
  coordinates, its weight and its 64 raw descriptor channels (`val b j`). After the tile `k` of batch entry `b` the three
  carried arrays hold, at row `n` (and channel `j`), real numbers in the online-softmax relation over the targets of
  tiles `0 … k`: the largest score so far, the sum of the exponentials shifted by it, and that sum weighted by the
  values. This is an induction on the grid point; one point is one step of the relation (the first tile of a batch entry
  starts it afresh from `-∞, 0, 0`). After the eighth tile all targets have been seen and the written-back quotient is
  the softmax-weighted average.
-/

set_option maxRecDepth 16384

noncomputable section

open Idealize.ShloMosaic Idealize.ShloMosaic.TcCoe Idealize.SL.Sem Idealize.ShloMosaic.ValueIdx
open OnlineSoftmax (Inv)

namespace Cert.KernelIdeal.KCore

open Cert.KernelIdeal Cert.KernelIdeal.Gen Cert.KernelIdeal.KFinal Cert.KernelIdeal.KState Cert.KernelIdeal.KBlocks
open Cert.KernelIdeal.KPay

/-- the relation does not care how its index set is spelled -/
theorem inv_of_eq {ι : Type*} [DecidableEq ι] {I J : Finset ι} (e : I = J) {hI : I.Nonempty} (hJ : J.Nonempty)
    {s v : ι → ℝ} {mk lk ak : ℝ} (h : Inv I hI s v mk lk ak) : Inv J hJ s v mk lk ak := by
  subst e; exact h

/-- nor does the average -/
theorem avg_of_eq {ι : Type*} {I J : Finset ι} (e : I = J) (hI : I.Nonempty) (hJ : J.Nonempty) (s v : ι → ℝ) :
    Matcher.avg I hI s v = Matcher.avg J hJ s v := by
  subst e; rfl

/-! ### One step of the body at a row, over variables -/

section Row

variable (x0 : Vec Ideal S1x64x1024 .f32) (x1 : Vec Ideal S1x64x2048 .f32) (x2 : Vec Ideal S1x3x2048 .f32) (x3 : Vec Ideal S1x1x2048 .f32)
variable (s : Carried Ideal) (n : Fin 1024)

/-- the tile's scores of row `n` -/
def g (i : Fin 2048) : EReal := k0_pay12 x0 x1 (ix2 n i)

/-- the tile's values of channel `j`: a coordinate, the weight, or a raw descriptor channel -/
def wv (j : Fin 68) (i : Fin 2048) : EReal :=
  if h : j.val < 3 then x2 (ix3 (0 : Fin 1) (⟨j.val, h⟩ : Fin 3) i)
  else if j.val = 3 then x3 (ix3 (0 : Fin 1) (0 : Fin 1) i)
  else x1 (ix3 (0 : Fin 1) (⟨j.val - 4, by have := j.isLt; omega⟩ : Fin 64) i)

/-- the new running maximum of row `n` -/
def mNew : EReal := max (s.1 (ix2 n 0)) ((Finset.univ : Finset (Fin 2048)).fold max ⊥ (g x0 x1 n))

theorem step_m : (step x0 x1 x2 x3 s).1 (ix2 n 0) = mNew x0 x1 s n := by
  show k0_pay4 (k0_pay13 x0 x1 s.1) (ix2 n 0) = _
  rw [pay4, pay13]
  rfl

theorem step_l : (step x0 x1 x2 x3 s).2.1 (ix2 n 0)
    = Ideal.exp (s.1 (ix2 n 0) - mNew x0 x1 s n) * s.2.1 (ix2 n 0) + ∑ i : Fin 2048, Ideal.exp (g x0 x1 n i - mNew x0 x1 s n) := by
  show k0_pay2 (k0_pay12 x0 x1) (k0_pay13 x0 x1 s.1) (k0_pay14 x0 x1 s.1) s.2.1 (ix2 n 0) = _
  rw [pay2, pay14]
  simp only [pay1, pay13]
  rfl

theorem step_acc (j : Fin 68) : (step x0 x1 x2 x3 s).2.2 (ix2 n j)
    = Ideal.exp (s.1 (ix2 n 0) - mNew x0 x1 s n) * s.2.2 (ix2 n j) + ∑ i : Fin 2048, Ideal.exp (g x0 x1 n i - mNew x0 x1 s n) * wv x1 x2 x3 j i := by
  show k0_pay3 (k0_pay9 x1) (k0_pay10 x2) (k0_pay11 x3) (k0_pay12 x0 x1) (k0_pay13 x0 x1 s.1) (k0_pay14 x0 x1 s.1) s.2.2 (ix2 n j) = _
  unfold wv
  by_cases h3 : j.val < 3
  · rw [pay3_coords _ _ _ _ _ _ _ n j h3, pay14]
    simp only [pay1, pay13, pay10, dif_pos h3]
    rfl
  · by_cases h4 : j.val = 3
    · rw [pay3_weight _ _ _ _ _ _ _ n j h4, pay14]
      simp only [pay1, pay13, pay11, dif_neg h3, if_pos h4]
      rfl
    · have h5 : 4 ≤ j.val := by omega
      rw [pay3_desc _ _ _ _ _ _ _ n j h5, pay14]
      simp only [pay1, pay13, pay9, dif_neg h3, if_neg h4]
      rfl

end Row

/-! ### The real data -/

variable (m : (ℓ : Loc nD τ sig) → Buf (Elt Ideal) ℓ) (c : Dev nD)
variable (r1 : Fin 2 → Fin 3 → Fin 16384 → ℝ) (r2 : Fin 2 → Fin 1 → Fin 16384 → ℝ)
variable (r3 : Fin 2 → Fin 64 → Fin 1024 → ℝ) (r4 : Fin 2 → Fin 64 → Fin 16384 → ℝ)

/-- the score of source point `n` against target `mm` in batch entry `b` -/
def sc (b : Fin 2) (n : Fin 1024) (mm : Fin 16384) : ℝ := Matcher.score (fun cc => r3 b cc n) (fun cc => r4 b cc mm)

/-- value channel `j` of target `mm`: coordinates, weight, raw descriptor channels -/
def val (b : Fin 2) (j : Fin 68) (mm : Fin 16384) : ℝ :=
  if h : j.val < 3 then r1 b (⟨j.val, h⟩ : Fin 3) mm
  else if j.val = 3 then r2 b (0 : Fin 1) mm
  else r4 b (⟨j.val - 4, by have := j.isLt; omega⟩ : Fin 64) mm

/-- the four inputs are these real arrays, every descriptor column of positive standard deviation -/
structure Data : Prop where
  h1 : ∀ b j mm, (m ((c.tc : Thread nD τ).loc main_arg1) : FVec Ideal S2x3x16384 .f32) (ix3 b j mm) = ((r1 b j mm : ℝ) : EReal)
  h2 : ∀ b j mm, (m ((c.tc : Thread nD τ).loc main_arg2) : FVec Ideal S2x1x16384 .f32) (ix3 b j mm) = ((r2 b j mm : ℝ) : EReal)
  h3 : ∀ b cc n, (m ((c.tc : Thread nD τ).loc main_arg3) : FVec Ideal S2x64x1024 .f32) (ix3 b cc n) = ((r3 b cc n : ℝ) : EReal)
  h4 : ∀ b cc mm, (m ((c.tc : Thread nD τ).loc main_arg4) : FVec Ideal S2x64x16384 .f32) (ix3 b cc mm) = ((r4 b cc mm : ℝ) : EReal)
  hsd3 : ∀ b n, 0 < Matcher.sd (fun cc => r3 b cc n)
  hsd4 : ∀ b mm, 0 < Matcher.sd (fun cc => r4 b cc mm)

variable {m c r1 r2 r3 r4}

/-- the batch entry and the tile of a point -/
def bOf (t : Fin cfg0.N) : Fin 2 := ⟨t.val / 8, by have := lt_of_lt_of_eq t.isLt N16; omega⟩
def kOf (t : Fin cfg0.N) : Fin 8 := ⟨t.val % 8, Nat.mod_lt _ (by decide)⟩

/-! ### The blocks of a point as real data -/

theorem x0_real (D : Data m c r1 r2 r3 r4) (t : Fin cfg0.N) (cc : Fin 64) (n : Fin 1024) :
    (iblk m c 0 t : Vec Ideal S1x64x1024 .f32) (ix3 (0 : Fin 1) cc n) = ((Matcher.zn (fun cc => r3 (bOf t) cc n) cc : ℝ) : EReal) := by
  rw [blk0 m c t cc n, KHost.V_main_v8 m c]
  exact Cert.ReferenceIdeal.RefRead.zn3_apply r3 _ D.h3 D.hsd3 (bOf t) cc n

theorem x1_real (D : Data m c r1 r2 r3 r4) (t : Fin cfg0.N) (cc : Fin 64) (i : Fin 2048) :
    (iblk m c 1 t : Vec Ideal S1x64x2048 .f32) (ix3 (0 : Fin 1) cc i) = ((r4 (bOf t) cc (Tiles.emb (kOf t) i) : ℝ) : EReal) := by
  rw [blk1 m c t cc i, V_main_arg4 m c]
  exact D.h4 (bOf t) cc (Tiles.emb (kOf t) i)

theorem x2_real (D : Data m c r1 r2 r3 r4) (t : Fin cfg0.N) (j : Fin 3) (i : Fin 2048) :
    (iblk m c 2 t : Vec Ideal S1x3x2048 .f32) (ix3 (0 : Fin 1) j i) = ((r1 (bOf t) j (Tiles.emb (kOf t) i) : ℝ) : EReal) := by
  rw [blk2 m c t j i, V_main_arg1 m c]
  exact D.h1 (bOf t) j (Tiles.emb (kOf t) i)

theorem x3_real (D : Data m c r1 r2 r3 r4) (t : Fin cfg0.N) (j : Fin 1) (i : Fin 2048) :
    (iblk m c 3 t : Vec Ideal S1x1x2048 .f32) (ix3 (0 : Fin 1) j i) = ((r2 (bOf t) j (Tiles.emb (kOf t) i) : ℝ) : EReal) := by
  rw [blk3 m c t j i, V_main_arg2 m c]
  exact D.h2 (bOf t) j (Tiles.emb (kOf t) i)

/-- the tile's scores of a row are the real scores -/
theorem g_real (D : Data m c r1 r2 r3 r4) (t : Fin cfg0.N) (n : Fin 1024) (i : Fin 2048) :
    g (iblk m c 0 t) (iblk m c 1 t) n i = ((sc r3 r4 (bOf t) n (Tiles.emb (kOf t) i) : ℝ) : EReal) := by
  unfold g
  exact pay12 (iblk m c 0 t) (iblk m c 1 t) (fun cc n => Matcher.zn (fun cc => r3 (bOf t) cc n) cc) (fun cc i => r4 (bOf t) cc (Tiles.emb (kOf t) i))
    (fun cc n => x0_real D t cc n) (fun cc i => x1_real D t cc i) (fun i => D.hsd4 (bOf t) (Tiles.emb (kOf t) i)) n i

/-- the tile's values of a channel are the real values -/
theorem wv_real (D : Data m c r1 r2 r3 r4) (t : Fin cfg0.N) (j : Fin 68) (i : Fin 2048) :
    wv (iblk m c 1 t) (iblk m c 2 t) (iblk m c 3 t) j i = ((val r1 r2 r4 (bOf t) j (Tiles.emb (kOf t) i) : ℝ) : EReal) := by
  unfold wv val
  by_cases h3 : j.val < 3
  · rw [dif_pos h3, dif_pos h3]; exact x2_real D t _ i
  · by_cases h4 : j.val = 3
    · rw [dif_neg h3, dif_neg h3, if_pos h4, if_pos h4]; exact x3_real D t 0 i
    · rw [dif_neg h3, dif_neg h3, if_neg h4, if_neg h4]; exact x1_real D t _ i

/-! ### The recursion of the carried arrays, unfolded once -/

theorem st_first (t : Fin cfg0.N) (h0 : t.val % 8 = 0) :
    st m c t.val t.isLt = step (iblk m c 0 t) (iblk m c 1 t) (iblk m c 2 t) (iblk m c 3 t) reset := by
  obtain ⟨n, hn⟩ := t
  cases n with
  | zero => rfl
  | succ n => show step _ _ _ _ (if (n + 1) % 8 = 0 then reset else st m c n _) = _; rw [if_pos h0]

theorem st_next (t : Fin cfg0.N) (h0 : ¬t.val % 8 = 0) :
    st m c t.val t.isLt = step (iblk m c 0 t) (iblk m c 1 t) (iblk m c 2 t) (iblk m c 3 t)
      (st m c (t.val - 1) (Nat.lt_of_le_of_lt (Nat.sub_le _ _) t.isLt)) := by
  obtain ⟨n, hn⟩ := t
  cases n with
  | zero => exact absurd (Nat.zero_mod 8) h0
  | succ n => show step _ _ _ _ (if (n + 1) % 8 = 0 then reset else st m c n _) = _; rw [if_neg h0]; rfl

/-! ### The invariant -/

/-- after point `t`: at row `n` and channel `j` the carried arrays are reals in the online-softmax relation over the
    targets of the batch entry's tiles up to `t`'s -/
def RowInv (m : (ℓ : Loc nD τ sig) → Buf (Elt Ideal) ℓ) (c : Dev nD) (r1 : Fin 2 → Fin 3 → Fin 16384 → ℝ) (r2 : Fin 2 → Fin 1 → Fin 16384 → ℝ)
    (r3 : Fin 2 → Fin 64 → Fin 1024 → ℝ) (r4 : Fin 2 → Fin 64 → Fin 16384 → ℝ) (t : Fin cfg0.N) : Prop :=
  ∀ (n : Fin 1024) (j : Fin 68), ∃ mk lk ak : ℝ,
    (st m c t.val t.isLt).1 (ix2 n 0) = ((mk : ℝ) : EReal)
    ∧ (st m c t.val t.isLt).2.1 (ix2 n 0) = ((lk : ℝ) : EReal)
    ∧ (st m c t.val t.isLt).2.2 (ix2 n j) = ((ak : ℝ) : EReal)
    ∧ Inv (Tiles.seen (t.val % 8)) (Tiles.seen_nonempty _) (sc r3 r4 (bOf t) n) (val r1 r2 r4 (bOf t) j) mk lk ak

/-- the first tile of a batch entry -/
theorem rowInv_first (D : Data m c r1 r2 r3 r4) (t : Fin cfg0.N) (h0 : t.val % 8 = 0) : RowInv m c r1 r2 r3 r4 t := by
  intro n j
  have hk : kOf t = (0 : Fin 8) := Fin.ext h0
  obtain ⟨mk, lk, ak, hm, hl, ha, inv⟩ := SoftmaxIdeal.first_step_inv (Tiles.emb (kOf t)) (sc r3 r4 (bOf t) n) (val r1 r2 r4 (bOf t) j)
    (g (iblk m c 0 t) (iblk m c 1 t) n) (wv (iblk m c 1 t) (iblk m c 2 t) (iblk m c 3 t) j)
    (fun i => g_real D t n i) (fun i => wv_real D t j i)
    (mNew (iblk m c 0 t) (iblk m c 1 t) reset n) (by unfold mNew; rw [show (reset (F := Ideal)).1 (ix2 n 0) = ⊥ from pay6 n])
  refine ⟨mk, lk, ak, ?_, ?_, ?_, ?_⟩
  · rw [st_first t h0, step_m]; exact hm
  · rw [st_first t h0, step_l, show (reset (F := Ideal)).1 (ix2 n 0) = ⊥ from pay6 n, show (reset (F := Ideal)).2.1 (ix2 n 0) = 0 from pay7 n]; exact hl
  · rw [st_first t h0, step_acc, show (reset (F := Ideal)).1 (ix2 n 0) = ⊥ from pay6 n, show (reset (F := Ideal)).2.2 (ix2 n j) = 0 from pay8 n j]; exact ha
  · have e : SoftmaxIdeal.tile (Tiles.emb (kOf t)) = Tiles.seen (t.val % 8) := by rw [h0, hk]; exact Tiles.seen_zero.symm
    exact inv_of_eq e _ inv

/-- a later tile, from the point before -/
theorem rowInv_next (D : Data m c r1 r2 r3 r4) (t : Fin cfg0.N) (h0 : ¬t.val % 8 = 0)
    (ih : RowInv m c r1 r2 r3 r4 ⟨t.val - 1, Nat.lt_of_le_of_lt (Nat.sub_le _ _) t.isLt⟩) : RowInv m c r1 r2 r3 r4 t := by
  intro n j
  obtain ⟨mk, lk, ak, hm, hl, ha, inv⟩ := ih n j
  have hb : bOf (⟨t.val - 1, Nat.lt_of_le_of_lt (Nat.sub_le _ _) t.isLt⟩ : Fin cfg0.N) = bOf t := by
    apply Fin.ext; show (t.val - 1) / 8 = t.val / 8; omega
  have hk1 : (t.val - 1) % 8 + 1 < 8 := by omega
  have hke : (⟨(t.val - 1) % 8 + 1, hk1⟩ : Fin 8) = kOf t := by apply Fin.ext; show (t.val - 1) % 8 + 1 = t.val % 8; omega
  rw [hb] at inv
  have hd := Tiles.seen_disjoint ((t.val - 1) % 8) hk1
  rw [hke] at hd
  obtain ⟨m', l', a', hm', hl', ha', inv'⟩ := SoftmaxIdeal.step_inv inv (Tiles.emb (kOf t)) hd
    (g (iblk m c 0 t) (iblk m c 1 t) n) (wv (iblk m c 1 t) (iblk m c 2 t) (iblk m c 3 t) j)
    (fun i => g_real D t n i) (fun i => wv_real D t j i)
    (mNew (iblk m c 0 t) (iblk m c 1 t) (st m c (t.val - 1) (Nat.lt_of_le_of_lt (Nat.sub_le _ _) t.isLt)) n) (by unfold mNew; rw [hm])
  refine ⟨m', l', a', ?_, ?_, ?_, ?_⟩
  · rw [st_next t h0, step_m]; exact hm'
  · rw [st_next t h0, step_l, hm, hl]; exact hl'
  · rw [st_next t h0, step_acc, hm, ha]; exact ha'
  · have e : Tiles.seen ((t.val - 1) % 8) ∪ SoftmaxIdeal.tile (Tiles.emb (kOf t)) = Tiles.seen (t.val % 8) := by
      have := Tiles.seen_succ ((t.val - 1) % 8) hk1
      rw [hke] at this
      rw [← this]; congr 1; omega
    exact inv_of_eq e _ inv'

/-- every point -/
theorem rowInv (D : Data m c r1 r2 r3 r4) : ∀ (n : ℕ) (h : n < cfg0.N), RowInv m c r1 r2 r3 r4 ⟨n, h⟩
  | 0, h => rowInv_first D ⟨0, h⟩ (Nat.zero_mod 8)
  | n + 1, h => by
    by_cases h0 : (n + 1) % 8 = 0
    · exact rowInv_first D ⟨n + 1, h⟩ h0
    · exact rowInv_next D ⟨n + 1, h⟩ h0 (rowInv D n (Nat.lt_of_succ_lt h))

/-! ### The result array -/

/-- THE REGION'S RESULT: at (batch entry, source point, channel) the softmax-weighted average of the channel over
    all 16384 targets -/
theorem result_apply (D : Data m c r1 r2 r3 r4) (b : Fin 2) (n : Fin 1024) (j : Fin 68) :
    result m c (ix3 b n j) = ((Matcher.avg Finset.univ Finset.univ_nonempty (sc r3 r4 b n) (val r1 r2 r4 b j) : ℝ) : EReal) := by
  have hb2 : b.val < 2 := b.isLt
  obtain ⟨mk, lk, ak, hm, hl, ha, inv⟩ := rowInv D (8 * b.val + 7) (by rw [N16]; omega) n j
  have hbt : bOf (⟨8 * b.val + 7, by rw [N16]; omega⟩ : Fin cfg0.N) = b := by apply Fin.ext; show (8 * b.val + 7) / 8 = b.val; omega
  have h7 : (8 * b.val + 7) % 8 = 7 := by omega
  rw [hbt] at inv
  show slab m c (lastPt b.val b.isLt) (ix3 (0 : Fin 1) (⟨n.val, n.isLt⟩ : Fin 1024) (⟨j.val, j.isLt⟩ : Fin 68)) = _
  show k0_pay5 (st m c (8 * b.val + 7) _).2.2 (st m c (8 * b.val + 7) _).2.1 (ix3 (0 : Fin 1) n j) = _
  rw [pay5, ha, hl, SoftmaxIdeal.final_div inv, inv.final]
  have e : Tiles.seen ((8 * b.val + 7) % 8) = Finset.univ := by rw [h7]; exact Tiles.seen_last
  exact congrArg (fun x : ℝ => (x : EReal)) (avg_of_eq e (Tiles.seen_nonempty _) Finset.univ_nonempty _ _)

end Cert.KernelIdeal.KCore
end
-- ==== Proof.KTail.lean ====
import proofs.«109630_j50577534877890_2_alg».proof.Proof.KHost
import Idealize.ShloMosaic.Lib.ValueIdx
import Idealize.ShloMosaic.Lib.ValueLayout

/-!
  The tail's three cuts of the region's result array, read at an index.

  The result array is indexed (batch entry, source point, value channel); channels 0–2 are the coordinates, channel 3
  the weight, channels 4–67 the descriptors. Each program result is a cut along the channel axis, transposed to
  (batch entry, channel, source point).
-/

noncomputable section

open Idealize.ShloMosaic Idealize.ShloMosaic.TcCoe Idealize.ShloMosaic.ValueIdx

namespace Cert.KernelIdeal.KTail

open Cert.KernelIdeal Cert.KernelIdeal.KHost

variable {F : FTy → Type} [FloatOps F] [Named F]

/-- coordinate channel `j` of source point `n` -/
theorem coordsOf_apply (o : (⟨S2x1024x68, .f32⟩ : BufTy).Contents (Elt F)) (b : Fin 2) (j : Fin 3) (n : Fin 1024) :
    coordsOf o (ix3 b j n) = o (ix3 b n (⟨j.val, by have := j.isLt; omega⟩ : Fin 68)) := by
  unfold coordsOf
  refine (transpose_ix3_021_apply _ _ b j n).trans ?_
  exact extractStridedSlice_apply _ o _ _ _ fun a => match a with
    | ⟨0, _⟩ => by show b.val = 0 + b.val; omega
    | ⟨1, _⟩ => by show n.val = 0 + n.val; omega
    | ⟨2, _⟩ => by show j.val = 0 + j.val; omega

/-- the weight channel of source point `n` -/
theorem weightsOf_apply (o : (⟨S2x1024x68, .f32⟩ : BufTy).Contents (Elt F)) (b : Fin 2) (j : Fin 1) (n : Fin 1024) :
    weightsOf o (ix3 b j n) = o (ix3 b n (3 : Fin 68)) := by
  unfold weightsOf
  refine (transpose_ix3_021_apply _ _ b j n).trans ?_
  exact extractStridedSlice_apply _ o _ _ _ fun a => match a with
    | ⟨0, _⟩ => by show b.val = 0 + b.val; omega
    | ⟨1, _⟩ => by show n.val = 0 + n.val; omega
    | ⟨2, _⟩ => by show (3 : Fin 68).val = 3 + j.val; have := j.isLt; show 3 = 3 + j.val; omega

/-- descriptor channel `cc` of source point `n` -/
theorem descOf_apply (o : (⟨S2x1024x68, .f32⟩ : BufTy).Contents (Elt F)) (b : Fin 2) (cc : Fin 64) (n : Fin 1024) :
    descOf o (ix3 b cc n) = o (ix3 b n (⟨cc.val + 4, by have := cc.isLt; omega⟩ : Fin 68)) := by
  unfold descOf
  refine (transpose_ix3_021_apply _ _ b cc n).trans ?_
  exact extractStridedSlice_apply _ o _ _ _ fun a => match a with
    | ⟨0, _⟩ => by show b.val = 0 + b.val; omega
    | ⟨1, _⟩ => by show n.val = 0 + n.val; omega
    | ⟨2, _⟩ => by show cc.val + 4 = 4 + cc.val; omega

end Cert.KernelIdeal.KTail
end
-- ==== Proof.PreReals.lean ====
import proofs.«109630_j50577534877890_2_alg».proof.Pre_finite_inputs
import proofs.«109630_j50577534877890_2_alg».proof.Proof.Spec
import Idealize.ShloMosaic.Lib.ValueIdx
import Idealize.ShloMosaic.Lib.ReduceAll
import Idealize.ShloMosaic.Lib.Pipeline.Value
import Idealize.ShloMosaic.PureOps.Ideal.Laws
import proofs.«109630_j50577534877890_2_alg».proof.Proof.LibIdealReal

/-!
# What the precondition says, over the reals

The precondition asks of each of the five input arrays that every entry `x` has `|x| < +∞`, and of
the two descriptor arrays that every column's unbiased standard deviation over its 64 channels is
positive.  Read on the extended reals, the first says that every entry is (the coercion of) a real
number; given that, the second says that the real standard deviation of every column is positive.
-/

noncomputable section

namespace Cert.PreReals

open Idealize.ShloMosaic Idealize.ShloMosaic.ValueIdx Cert.Pre_finite_inputs

/-- the scalar shape has one index -/
instance : Subsingleton S_.Idx := ⟨fun _ _ => funext fun d => d.elim0⟩

/-- the pattern of `+∞` denotes `⊤` -/
theorem ofBits_inf : Ideal.ofBits .f32 0x7F800000#32 = ⊤ := by
  simp [Ideal.ofBits, Ideal.ieee]

/-- an extended real whose absolute value `max x (-x)` is below `⊤` is a real number -/
theorem real_of_abs_lt_top (x : EReal) (h : Ideal.cmp .olt (max x (-x)) ⊤ = 1#1) :
    ∃ r : ℝ, x = (r : EReal) := by
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | top => simp at hlt
  | coe r => exact ⟨r, rfl⟩

/-- if "every entry has absolute value below `+∞`" holds of an array, every entry is a real -/
theorem finite_of_all {s : Shape} {axes : List (Fin s.rank)} (a : FVec Ideal s .f32)
    (dims : Fin S_.rank → Fin s.rank) (hb : S_.BroadcastsInDim s dims)
    (hr : s.ReducesTo axes S_) (hu : 0 < S_.numel)
    (e : Host.reduce IntOp.andi
          (cmpf .olt (Host.absf a) (broadcastInDim s dims hb (constant S_ .f32 0x7F800000#32)))
          (constantI S_ 1 1#1) hr hu ix0 = 1#1)
    (i : s.Idx) : ∃ r : ℝ, a i = (r : EReal) := by
  have h1 := Host.reduce_andi_all _ _ hr hu ix0 e i
  refine real_of_abs_lt_top (a i) ?_
  rw [← ofBits_inf]
  exact h1

/-- the pattern of `64.0` denotes the real `64` -/
theorem ofBits_64 : Ideal.ofBits .f32 0x42800000#32 = ((64 : ℝ) : EReal) := by
  simp [Ideal.ofBits, Ideal.ieee, -EReal.coe_mul]; norm_num

/-- the pattern of `63.0` denotes the real `63` -/
theorem ofBits_63 : Ideal.ofBits .f32 0x427C0000#32 = ((63 : ℝ) : EReal) := by
  simp [Ideal.ofBits, Ideal.ieee, -EReal.coe_mul]; norm_num

/-- a comparison "greater than" that holds gives the strict inequality -/
theorem lt_of_cmp_ogt (x y : EReal) (h : Ideal.cmp .ogt x y = 1#1) : y < x := by
  by_contra hn
  have h0 : Ideal.cmp .ogt x y = 0#1 := by simp [Ideal.cmp, hn]
  rw [h0] at h
  exact absurd h (by decide)

/-! ### The standard deviation of every column

The arrays have shape `2 × 64 × N`; a column is the 64 entries at a fixed `(b, n)`. -/

section SD

variable {N : ℕ}

/-- the shape `2 × 64 × N` of a descriptor array -/
abbrev SIn (N : ℕ) : Shape := ⟨3, ![2, 64, N]⟩
/-- the shape `2 × N` of its column sums -/
abbrev SRed (N : ℕ) : Shape := ⟨2, ![2, N]⟩
/-- the shape `2 × 1 × N` of its column statistics -/
abbrev SOne (N : ℕ) : Shape := ⟨3, ![2, 1, N]⟩

/-- the index of the array over column `(b, n)` with channel `k` inserted is `(b, k, n)` -/
theorem lift_eq (hR : (SIn N).Reduces [1] (SRed N)) (b : Fin 2) (n : Fin N) (k : Fin 64) :
    hR.lift (ix2 b n) k = ix3 b k n := by
  funext c
  apply Fin.ext
  fin_cases c <;> rfl

/-- reading a column statistic `(b, 0, n)` off the column sums reads `(b, n)` -/
theorem hk1 (b : Fin 2) (n : Fin N) : ∀ a : Fin 2,
    ((ix2 b n : (SRed N).Idx) a).val
      = if (SRed N).size a = 1 then 0
        else ((ix3 b (0 : Fin 1) n : (SOne N).Idx) ((![0, 2] : Fin 2 → Fin 3) a)).val := by
  intro a
  fin_cases a
  · rfl
  · show n.val = if N = 1 then 0 else n.val
    split_ifs with hN
    · have := n.isLt; omega
    · rfl

/-- reading an entry `(b, c, n)` off the broadcast column statistics reads `(b, 0, n)` -/
theorem hk2 (b : Fin 2) (c : Fin 64) (n : Fin N) : ∀ a : Fin 3,
    ((ix3 b (0 : Fin 1) n : (SOne N).Idx) a).val
      = if (SOne N).size a = 1 then 0
        else ((ix3 b c n : (SIn N).Idx) ((![0, 1, 2] : Fin 3 → Fin 3) a)).val := by
  intro a
  fin_cases a
  · rfl
  · rfl
  · show n.val = if N = 1 then 0 else n.val
    split_ifs with hN
    · have := n.isLt; omega
    · rfl

variable (x : FVec Ideal (SIn N) .f32) (r : Fin 2 → Fin 64 → Fin N → ℝ)
  (hRT : (SIn N).ReducesTo [1] (SRed N)) (hu : 0 < S_.numel)
  (hb1 : (SRed N).BroadcastsInDim (SOne N) ![0, 2]) (hb0 : S_.BroadcastsInDim (SOne N) ![])
  (hb2 : (SOne N).BroadcastsInDim (SIn N) ![0, 1, 2])

/-- the sum over the 64 channels of a column of real entries is the real sum -/
theorem reduceAdd_col (hx : ∀ b c n, x (ix3 b c n) = ((r b c n : ℝ) : EReal))
    (hR : (SIn N).Reduces [1] (SRed N)) (b : Fin 2) (n : Fin N) :
    Host.reduceAdd x (constant S_ .f32 0x00000000#32) hRT hu (ix2 b n)
      = ((∑ c : Fin 64, r b c n : ℝ) : EReal) := by
  show Ideal.hostReduceAdd hRT x (Ideal.ofBits .f32 0x00000000#32) (ix2 b n) = _
  rw [Ideal.hostReduceAdd_single hRT hR x _ (ix2 b n), Ideal.ofBits_zero_f32, zero_add,
    IdealReal.coe_sum]
  show ∑ k : Fin 64, x (hR.lift (ix2 b n) k) = _
  refine Finset.sum_congr rfl fun k _ => ?_
  rw [lift_eq hR b n k, hx]

/-- the column means, as the program computes them: the column sums over `64` -/
def meanV : FVec Ideal (SOne N) .f32 :=
  Host.divf (broadcastInDim (SOne N) ![0, 2] hb1
      (Host.reduceAdd x (constant S_ .f32 0x00000000#32) hRT hu))
    (broadcastInDim (SOne N) ![] hb0 (constant S_ .f32 0x42800000#32))

/-- the squares of the centred entries, as the program computes them -/
def sqV : FVec Ideal (SIn N) .f32 :=
  mulf (subf x (broadcastInDim (SIn N) ![0, 1, 2] hb2 (meanV x hRT hu hb1 hb0)))
    (subf x (broadcastInDim (SIn N) ![0, 1, 2] hb2 (meanV x hRT hu hb1 hb0)))

/-- the unbiased column variances, as the program computes them: the sums of squares over `63` -/
def varV : FVec Ideal (SOne N) .f32 :=
  Host.divf (broadcastInDim (SOne N) ![0, 2] hb1
      (Host.reduceAdd (sqV x hRT hu hb1 hb0 hb2) (constant S_ .f32 0x00000000#32) hRT hu))
    (broadcastInDim (SOne N) ![] hb0 (constant S_ .f32 0x427C0000#32))

/-- the program's column mean is the real mean -/
theorem meanV_apply (hx : ∀ b c n, x (ix3 b c n) = ((r b c n : ℝ) : EReal))
    (hR : (SIn N).Reduces [1] (SRed N)) (b : Fin 2) (n : Fin N) :
    meanV x hRT hu hb1 hb0 (ix3 b 0 n) = ((Matcher.mean (fun c => r b c n) : ℝ) : EReal) := by
  show Ideal.div (broadcastInDim (SOne N) _ hb1 _ (ix3 b 0 n))
    (Ideal.ofBits .f32 0x42800000#32) = _
  rw [broadcastInDim_apply ![0, 2] hb1 _ (ix3 b 0 n) (ix2 b n) (hk1 b n),
    reduceAdd_col x r hRT hu hx hR b n, ofBits_64, IdealReal.div_coe_coe _ _ (by norm_num)]
  rfl

/-- the program's centred square is the real one -/
theorem sqV_apply (hx : ∀ b c n, x (ix3 b c n) = ((r b c n : ℝ) : EReal))
    (hR : (SIn N).Reduces [1] (SRed N)) (b : Fin 2) (c : Fin 64) (n : Fin N) :
    sqV x hRT hu hb1 hb0 hb2 (ix3 b c n)
      = (((r b c n - Matcher.mean (fun c => r b c n))
          * (r b c n - Matcher.mean (fun c => r b c n)) : ℝ) : EReal) := by
  show (x (ix3 b c n) - broadcastInDim (SIn N) _ hb2 _ (ix3 b c n))
    * (x (ix3 b c n) - broadcastInDim (SIn N) _ hb2 _ (ix3 b c n)) = _
  rw [broadcastInDim_apply ![0, 1, 2] hb2 _ (ix3 b c n) (ix3 b 0 n) (hk2 b c n),
    meanV_apply x r hRT hu hb1 hb0 hx hR b n, hx, ← EReal.coe_sub, ← EReal.coe_mul]

/-- the program's column variance is the real unbiased variance -/
theorem varV_apply (hx : ∀ b c n, x (ix3 b c n) = ((r b c n : ℝ) : EReal))
    (hR : (SIn N).Reduces [1] (SRed N)) (b : Fin 2) (n : Fin N) :
    varV x hRT hu hb1 hb0 hb2 (ix3 b 0 n) = ((Matcher.var (fun c => r b c n) : ℝ) : EReal) := by
  show Ideal.div (broadcastInDim (SOne N) _ hb1 _ (ix3 b 0 n))
    (Ideal.ofBits .f32 0x427C0000#32) = _
  rw [broadcastInDim_apply ![0, 2] hb1 _ (ix3 b 0 n) (ix2 b n) (hk1 b n),
    reduceAdd_col (sqV x hRT hu hb1 hb0 hb2)
      (fun b c n => (r b c n - Matcher.mean (fun c => r b c n))
        * (r b c n - Matcher.mean (fun c => r b c n))) hRT hu
      (fun b c n => sqV_apply x r hRT hu hb1 hb0 hb2 hx hR b c n) hR b n,
    ofBits_63, IdealReal.div_coe_coe _ _ (by norm_num)]
  rfl

/-- if "every column's standard deviation is positive" holds of an array of reals, every column's
real standard deviation is positive -/
theorem sd_pos_of_all (hx : ∀ b c n, x (ix3 b c n) = ((r b c n : ℝ) : EReal))
    (hR : (SIn N).Reduces [1] (SRed N)) (hAll : (SOne N).ReducesTo [0, 1, 2] S_)
    (e : Host.reduce IntOp.andi
          (cmpf .ogt (Host.sqrt (varV x hRT hu hb1 hb0 hb2))
            (broadcastInDim (SOne N) ![] hb0 (constant S_ .f32 0x00000000#32)))
          (constantI S_ 1 1#1) hAll hu ix0 = 1#1)
    (b : Fin 2) (n : Fin N) : 0 < Matcher.sd (fun c => r b c n) := by
  have h1 := Host.reduce_andi_all _ _ hAll hu ix0 e (ix3 b 0 n)
  have h2 : Ideal.cmp .ogt (Ideal.sqrt (varV x hRT hu hb1 hb0 hb2 (ix3 b 0 n)))
      (Ideal.ofBits .f32 0x00000000#32) = 1#1 := h1
  rw [varV_apply x r hRT hu hb1 hb0 hb2 hx hR b n, IdealReal.sqrt_coe _ (Matcher.var_nonneg _),
    Ideal.ofBits_zero_f32] at h2
  exact EReal.coe_pos.mp (lt_of_cmp_ogt _ _ h2)

end SD

variable [Facts]

/-- the precondition gives: every entry of the last four arrays is a real number, and every
column of the two descriptor arrays has a positive real standard deviation -/
theorem reals_of_pre (a0 : FVec Ideal S2x3x1024 .f32) (a1 : FVec Ideal S2x3x16384 .f32)
    (a2 : FVec Ideal S2x1x16384 .f32) (a3 : FVec Ideal S2x64x1024 .f32)
    (a4 : FVec Ideal S2x64x16384 .f32)
    (h : fn (F := Ideal) a0 a1 a2 a3 a4 = fun _ => 1#1) :
    ∃ (r1 : Fin 2 → Fin 3 → Fin 16384 → ℝ) (r2 : Fin 2 → Fin 1 → Fin 16384 → ℝ)
      (r3 : Fin 2 → Fin 64 → Fin 1024 → ℝ) (r4 : Fin 2 → Fin 64 → Fin 16384 → ℝ),
      (∀ b j mm, a1 (ix3 b j mm) = ((r1 b j mm : ℝ) : EReal))
      ∧ (∀ b j mm, a2 (ix3 b j mm) = ((r2 b j mm : ℝ) : EReal))
      ∧ (∀ b c n, a3 (ix3 b c n) = ((r3 b c n : ℝ) : EReal))
      ∧ (∀ b c mm, a4 (ix3 b c mm) = ((r4 b c mm : ℝ) : EReal))
      ∧ (∀ b n, 0 < Matcher.sd (fun c => r3 b c n))
      ∧ (∀ b mm, 0 < Matcher.sd (fun c => r4 b c mm)) := by
  have h0 := congrFun h ix0
  simp only [fn, fn_part1, fn_part2, fn_part3, Idealize.ShloMosaic.andi, IntOp.andi_eq_one] at h0
  obtain ⟨⟨⟨⟨⟨⟨_e0, e1⟩, e2⟩, e3⟩, e4⟩, s3⟩, s4⟩ := h0
  choose f1 hf1 using finite_of_all a1 _ _ _ _ e1
  choose f2 hf2 using finite_of_all a2 _ _ _ _ e2
  choose f3 hf3 using finite_of_all a3 _ _ _ _ e3
  choose f4 hf4 using finite_of_all a4 _ _ _ _ e4
  refine ⟨fun b j mm => f1 (ix3 b j mm), fun b j mm => f2 (ix3 b j mm),
    fun b c n => f3 (ix3 b c n), fun b c mm => f4 (ix3 b c mm),
    fun b j mm => hf1 _, fun b j mm => hf2 _, fun b c n => hf3 _, fun b c mm => hf4 _, ?_, ?_⟩
  · intro b n
    exact sd_pos_of_all (N := 1024) a3 (fun b c n => f3 (ix3 b c n)) _ _ _ _ _
      (fun b c n => hf3 _) (by decide) _ s3 b n
  · intro b mm
    exact sd_pos_of_all (N := 16384) a4 (fun b c mm => f4 (ix3 b c mm)) _ _ _ _ _
      (fun b c mm => hf4 _) (by decide) _ s4 b mm

end Cert.PreReals

end
-- ==== Proof.Bridge.lean ====
import proofs.«109630_j50577534877890_2_alg».proof.Defs
import proofs.«109630_j50577534877890_2_alg».proof.Proof.KCore
import proofs.«109630_j50577534877890_2_alg».proof.Proof.KTail
import proofs.«109630_j50577534877890_2_alg».proof.Proof.RefRun
import proofs.«109630_j50577534877890_2_alg».proof.Proof.RefRead
import proofs.«109630_j50577534877890_2_alg».proof.Proof.PreReals
import proofs.«109630_j50577534877890_2_alg».proof.Proof.Gen.Kernel.Frame
import proofs.«109630_j50577534877890_2_alg».proof.Proof.Gen.Pre_finite_inputs

/-!
  The two programs' results are equal, array by array.

  Under the precondition the four inputs are real arrays whose descriptor columns have positive standard deviation. Then
  every entry of each result is, on both sides, the coercion of the same real number: the softmax-weighted average of a
  value channel over the 16384 targets, under the scores `⟨zn q, zn k⟩ · κ` on one side and `⟨zn q, zn k⟩ / 64 / D` on the
  other — one number, because `κ = 1 / (64 · D)`. The descriptor averages are then normalised by the same function on
  both sides, which is never opened.
-/

set_option maxRecDepth 16384

noncomputable section

open Idealize.ShloMosaic Idealize.ShloMosaic.TcCoe Idealize.SL.Sem Idealize.ShloMosaic.ValueIdx

namespace Cert.Proof.Bridge

open Cert.KernelIdeal.KCore Cert.KernelIdeal.KHost Cert.KernelIdeal.KTail Cert.KernelIdeal.KFinal
open Cert.ReferenceIdeal.RefRun Cert.ReferenceIdeal.RefRead

variable {m : (ℓ : Loc Cert.KernelIdeal.nD Cert.KernelIdeal.τ Cert.KernelIdeal.sig) → Buf (Elt Ideal) ℓ} {c : Dev Cert.KernelIdeal.nD}
variable {r1 : Fin 2 → Fin 3 → Fin 16384 → ℝ} {r2 : Fin 2 → Fin 1 → Fin 16384 → ℝ}
variable {r3 : Fin 2 → Fin 64 → Fin 1024 → ℝ} {r4 : Fin 2 → Fin 64 → Fin 16384 → ℝ}

/-- the two spellings of the scores are one function -/
theorem sc_eq (b : Fin 2) (n : Fin 1024) :
    sc r3 r4 b n = fun mm => Matcher.scoreRef (fun cc => r3 b cc n) (fun cc => r4 b cc mm) :=
  funext fun mm => Matcher.score_eq_scoreRef _ _

theorem val_coords (b : Fin 2) (j : Fin 3) : val r1 r2 r4 b (⟨j.val, by have := j.isLt; omega⟩ : Fin 68) = fun mm => r1 b j mm := by
  funext mm; unfold val; rw [dif_pos (show (⟨j.val, _⟩ : Fin 68).val < 3 from j.isLt)]

theorem val_weight (b : Fin 2) (j : Fin 1) : val r1 r2 r4 b (3 : Fin 68) = fun mm => r2 b j mm := by
  funext mm; unfold val
  rw [dif_neg (show ¬(3 : Fin 68).val < 3 by decide), if_pos (show (3 : Fin 68).val = 3 by decide)]
  congr 1; exact Subsingleton.elim _ _

theorem val_desc (b : Fin 2) (cc : Fin 64) : val r1 r2 r4 b (⟨cc.val + 4, by have := cc.isLt; omega⟩ : Fin 68) = fun mm => r4 b cc mm := by
  funext mm; unfold val
  rw [dif_neg (show ¬(⟨cc.val + 4, _⟩ : Fin 68).val < 3 by show ¬cc.val + 4 < 3; omega),
    if_neg (show ¬(⟨cc.val + 4, _⟩ : Fin 68).val = 3 by show ¬cc.val + 4 = 3; omega)]
  congr 1

/-- the coordinates -/
theorem coords_eq (D : Data m c r1 r2 r3 r4) :
    Host.dotGeneral (F := Ideal) (φ₁ := .f32) (φ₂ := .f32) Cert.ReferenceIdeal.dot_S2x3x16384_S2x1024x16384_S2x3x1024_2_2_1_1_0_0 none
        (m ((c.tc : Thread Cert.KernelIdeal.nD Cert.KernelIdeal.τ).loc Cert.KernelIdeal.main_arg1))
        (soft (F := Ideal) (zn3 (m ((c.tc : Thread Cert.KernelIdeal.nD Cert.KernelIdeal.τ).loc Cert.KernelIdeal.main_arg3)))
          (zn4 (m ((c.tc : Thread Cert.KernelIdeal.nD Cert.KernelIdeal.τ).loc Cert.KernelIdeal.main_arg4))))
      = coordsOf (result m c) := by
  funext idx
  obtain ⟨b, j, n, rfl⟩ : ∃ (b : Fin 2) (j : Fin 3) (n : Fin 1024), idx = ix3 b j n := ⟨idx 0, idx 1, idx 2, eq_ix3 idx⟩
  rw [v34_apply r1 r3 r4 _ _ _ D.h1 D.h3 D.h4 D.hsd3 D.hsd4 b j n, coordsOf_apply, result_apply D, sc_eq, val_coords]

/-- the weights -/
theorem weights_eq (D : Data m c r1 r2 r3 r4) :
    Host.dotGeneral (F := Ideal) (φ₁ := .f32) (φ₂ := .f32) Cert.ReferenceIdeal.dot_S2x1x16384_S2x1024x16384_S2x1x1024_2_2_1_1_0_0 none
        (m ((c.tc : Thread Cert.KernelIdeal.nD Cert.KernelIdeal.τ).loc Cert.KernelIdeal.main_arg2))
        (soft (F := Ideal) (zn3 (m ((c.tc : Thread Cert.KernelIdeal.nD Cert.KernelIdeal.τ).loc Cert.KernelIdeal.main_arg3)))
          (zn4 (m ((c.tc : Thread Cert.KernelIdeal.nD Cert.KernelIdeal.τ).loc Cert.KernelIdeal.main_arg4))))
      = weightsOf (result m c) := by
  funext idx
  obtain ⟨b, j, n, rfl⟩ : ∃ (b : Fin 2) (j : Fin 1) (n : Fin 1024), idx = ix3 b j n := ⟨idx 0, idx 1, idx 2, eq_ix3 idx⟩
  rw [v35_apply r2 r3 r4 _ _ _ D.h2 D.h3 D.h4 D.hsd3 D.hsd4 b j n, weightsOf_apply, result_apply D, sc_eq, val_weight b j]

/-- the descriptor averages, before their normalisation -/
theorem desc_eq (D : Data m c r1 r2 r3 r4) :
    Host.dotGeneral (F := Ideal) (φ₁ := .f32) (φ₂ := .f32) Cert.ReferenceIdeal.dot_S2x64x16384_S2x1024x16384_S2x64x1024_2_2_1_1_0_0 none
        (m ((c.tc : Thread Cert.KernelIdeal.nD Cert.KernelIdeal.τ).loc Cert.KernelIdeal.main_arg4))
        (soft (F := Ideal) (zn3 (m ((c.tc : Thread Cert.KernelIdeal.nD Cert.KernelIdeal.τ).loc Cert.KernelIdeal.main_arg3)))
          (zn4 (m ((c.tc : Thread Cert.KernelIdeal.nD Cert.KernelIdeal.τ).loc Cert.KernelIdeal.main_arg4))))
      = descOf (result m c) := by
  funext idx
  obtain ⟨b, cc, n, rfl⟩ : ∃ (b : Fin 2) (cc : Fin 64) (n : Fin 1024), idx = ix3 b cc n := ⟨idx 0, idx 1, idx 2, eq_ix3 idx⟩
  rw [v36_apply r3 r4 _ _ D.h3 D.h4 D.hsd3 D.hsd4 b cc n, descOf_apply, result_apply D, sc_eq, val_desc]

/-- the two programs normalise the descriptor averages by one function -/
theorem zn_eq : Cert.KernelIdeal.KHost.zn (F := Ideal) = Cert.ReferenceIdeal.RefRun.znOut (F := Ideal) := rfl

/-- from the precondition: the real arrays behind the inputs -/
theorem data_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (r1 : Fin 2 → Fin 3 → Fin 16384 → ℝ) (r2 : Fin 2 → Fin 1 → Fin 16384 → ℝ) (r3 : Fin 2 → Fin 64 → Fin 1024 → ℝ)
      (r4 : Fin 2 → Fin 64 → Fin 16384 → ℝ), Data m c r1 r2 r3 r4 := by
  obtain ⟨r1, r2, r3, r4, h1, h2, h3, h4, hsd3, hsd4⟩ := Cert.PreReals.reals_of_pre _ _ _ _ _ (hpre c)
  exact ⟨r1, r2, r3, r4, ⟨h1, h2, h3, h4, hsd3, hsd4⟩⟩

end Cert.Proof.Bridge
end
-- ==== Proof.lean ====
/-
  The certificate of one kernel against its reference: softmax-weighted averages of target coordinates, weights and
  descriptors under scores between normalised source and target descriptors.

  The reference normalises both descriptor arrays, forms all 1024 × 16384 scores, takes a softmax over the targets and
  averages; the kernel streams the targets in eight tiles of 2048, keeping per source point a running maximum, a running
  sum of shifted exponentials and running weighted sums, rescaled whenever the maximum grows, and divides at the end.
  Over the reals these are one function: the rescaling identity exp (m − m') · exp (x − m) = exp (x − m') makes the
  running sums, after the last tile, the sums shifted by the overall maximum, and a weighted sum divided by the sum of
  weights is the sum of the values times the normalised weights. The two programs scale the scores by one number spelled
  two ways (a product with 1 / (64 · D) against a division by 64 and then by D).

  Everything is finite because the inputs are and because every descriptor column has positive standard deviation, which
  the precondition states: that is where the precondition is used.
-/
import proofs.«109630_j50577534877890_2_alg».proof.Defs
import proofs.«109630_j50577534877890_2_alg».proof.Proof.Gen.Kernel
import proofs.«109630_j50577534877890_2_alg».proof.Proof.Gen.Kernel.Frame
import proofs.«109630_j50577534877890_2_alg».proof.Proof.Gen.KernelIdeal
import proofs.«109630_j50577534877890_2_alg».proof.Proof.Gen.KernelIdeal.Frame
import proofs.«109630_j50577534877890_2_alg».proof.Proof.Gen.ReferenceIdeal
import proofs.«109630_j50577534877890_2_alg».proof.Proof.Gen.Pre_finite_inputs
import proofs.«109630_j50577534877890_2_alg».proof.Proof.Bridge
import Idealize.ShloMosaic.Adequacy
import Idealize.ShloMosaic.Init

noncomputable section

namespace Cert.Proof

open Idealize.ShloMosaic Idealize.SL.Sem

/-- the word-level kernel runs and leaves its arguments unchanged -/
theorem frame_p : Cert.frame_Kernel := fun m ρ _ => Cert.Kernel.Gen.frame m ρ

/-- so does its idealization -/
theorem frame_pi : Cert.frame_KernelIdeal := fun m ρ _ => Cert.KernelIdeal.Gen.frame m ρ

/-- and the reference: its run with the results dropped -/
theorem frame_ri : Cert.frame_ReferenceIdeal := fun m ρ _ =>
  (θ_run Cert.ReferenceIdeal.defs _ _).mono (fun _ h c => (h c).2.2.2) (Cert.ReferenceIdeal.RefRun.run (F := Ideal) m ρ)

/-- the one rewritten constant: the scale 0.78125 of the scores is read as 1 / (64 · D), D the reference's temperature -/
theorem preserves : Cert.preserves_Kernel_KernelIdeal :=
  IdealRules.named_const.statement Cert.KernelIdeal.κ "inv_c_temp" .f32 0x3F480000#32 ((4194304 / 5368709 : ℝ) : EReal) rfl

/-- both programs end with the same three arrays -/
theorem algebraic : Cert.algebraic_KernelIdeal_ReferenceIdeal := by
  intro m ρ m' ρ' hpre hagree
  refine ⟨fun c => Cert.KernelIdeal.KHost.coordsOf (Cert.KernelIdeal.KFinal.result m c),
    fun c => Cert.KernelIdeal.KHost.weightsOf (Cert.KernelIdeal.KFinal.result m c),
    fun c => Cert.KernelIdeal.KHost.zn (Cert.KernelIdeal.KHost.descOf (Cert.KernelIdeal.KFinal.result m c)),
    Cert.KernelIdeal.KHost.run m ρ, ?_⟩
  refine (θ_run Cert.ReferenceIdeal.defs _ _).mono (fun r h c => ?_) (Cert.ReferenceIdeal.RefRun.run (F := Ideal) m' ρ')
  obtain ⟨h34, h35, h45, hargs⟩ := h c
  obtain ⟨g0, g1, g2, g3, g4⟩ := hagree c
  obtain ⟨r1, r2, r3, r4, D⟩ := Bridge.data_of_pre m hpre c
  refine ⟨h34.trans ?_, h35.trans ?_, h45.trans ?_, hargs⟩
  · rw [g1, g3, g4]; exact Bridge.coords_eq D
  · rw [g2, g3, g4]; exact Bridge.weights_eq D
  · rw [g3, g4, Bridge.desc_eq D]; exact (congrFun Bridge.zn_eq _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
